-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v197)) (v1 : (c : Dev Cert.KernelIdeal.nD) → Buf (Elt Ideal) ((c.tc : Thread Cert.KernelIdeal.nD Cert.KernelIdeal.τ).loc Cert.KernelIdeal.main_v201)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v197) = v0 c
          ∧ r.2.mem ((c.tc : Thread Cert.KernelIdeal.nD Cert.KernelIdeal.τ).loc Cert.KernelIdeal.main_v201) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_v284) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S10x128 : Shape := ⟨2, ![10, 128]⟩
abbrev S2x128x128 : Shape := ⟨3, ![2, 128, 128]⟩
abbrev S2x1x128 : Shape := ⟨3, ![2, 1, 128]⟩
abbrev S2x128 : Shape := ⟨2, ![2, 128]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x1x128 : S_.BroadcastsInDim S2x1x128 (![] : Fin 0 → Fin S2x1x128.rank)
  reducesTo_S2x1x128_S_d0_1_2 : S2x1x128.ReducesTo [0, 1, 2] S_
  bcast_S_S2x128 : S_.BroadcastsInDim S2x128 (![] : Fin 0 → Fin S2x128.rank)
  reducesTo_S2x128_S_d0_1 : S2x128.ReducesTo [0, 1] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg7 : FVec F S2x128 .f32) (main_arg8 : IVec S500000 32) (main_arg9 : IVec S500000 32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_c_14 : IVec S_ 32 := constantI S_ 32 0#32
  let main_v39 : IVec S500000 32 := broadcastInDim S500000 ![] bcast_S_S500000 main_c_14
  let main_v40 : IVec S500000 1 := cmpi .sge main_arg8 main_v39
  let main_c_15 : IVec S_ 1 := constantI S_ 1 1#1
  let main_v41 : IVec S_ 1 := (fun x v => Host.reduce IntOp.andi x v reducesTo_S500000_S_d0 h_S_) main_v40 main_c_15
  let main_v42 : IVec S_ 1 := andi main_v38 main_v41
  let main_c_16 : IVec S_ 32 := constantI S_ 32 0#32
  let main_v43 : IVec S500000 32 := broadcastInDim S500000 ![] bcast_S_S500000 main_c_16
  let main_v44 : IVec S500000 1 := cmpi .sge main_arg9 main_v43
  let main_c_17 : IVec S_ 1 := constantI S_ 1 1#1
  let main_v45 : IVec S_ 1 := (fun x v => Host.reduce IntOp.andi x v reducesTo_S500000_S_d0 h_S_) main_v44 main_c_17
  let main_v46 : IVec S_ 1 := andi main_v42 main_v45
  main_v46

def fn_part1 {F : FTy → Type} [FloatOps F] (main_arg4 : FVec F S2x128x128 .f32) (main_arg5 : FVec F S2x128x128 .f32) (main_arg6 : FVec F S2x1x128 .f32) (main_arg7 : FVec F S2x128 .f32) (main_arg8 : IVec S500000 32) (main_arg9 : IVec S500000 32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x1x128 .f32 := Host.absf main_arg6
  let main_cst_10 : FVec F S_ .f32 := constant S_ .f32 0x7F800000#32
  let main_v30 : FVec F S2x1x128 .f32 := broadcastInDim S2x1x128 ![] bcast_S_S2x1x128 main_cst_10
  let main_v31 : IVec S2x1x128 1 := cmpf .olt main_v29 main_v30
  let main_c_11 : IVec S_ 1 := constantI S_ 1 1#1
  let main_v32 : IVec S_ 1 := (fun x v => Host.reduce IntOp.andi x v reducesTo_S2x1x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S10x128 .f32) (main_arg2 : FVec F S2x128x128 .f32) (main_arg3 : FVec F S2x128x128 .f32) (main_arg4 : FVec F S2x128x128 .f32) (main_arg5 : FVec F S2x128x128 .f32) (main_arg6 : FVec F S2x1x128 .f32) (main_arg7 : FVec F S2x128 .f32) (main_arg8 : IVec S500000 32) (main_arg9 : IVec S500000 32) (main_arg10 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10x128 .f32 := Host.absf main_arg1
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S10x128 : Shape := ⟨2, ![10, 128]⟩
abbrev S2x128x128 : Shape := ⟨3, ![2, 128, 128]⟩
abbrev S2x1x128 : Shape := ⟨3, ![2, 1, 128]⟩
abbrev S2x128 : Shape := ⟨2, ![2, 128]⟩
abbrev S500000 : Shape := ⟨1, ![500000]⟩
abbrev S1x1x128 : Shape := ⟨3, ![1, 1, 128]⟩
abbrev S1x128 : Shape := ⟨2, ![1, 128]⟩
abbrev S11x128 : Shape := ⟨2, ![11, 128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S128 : Shape := ⟨1, ![128]⟩

abbrev nBuf : Space → Nat
  | .hbm => 321
  | .vmem => 66
  | .smem => 0
  | _ => 0

abbrev hbmTy0_0 (i : Nat) : BufTy := match i % 128 with
  | 0 => ⟨S100000x128, .f32⟩
  | 1 => ⟨S10x128, .f32⟩
  | 2 => ⟨S2x128x128, .f32⟩
  | 3 => ⟨S2x128x128, .f32⟩
  | 4 => ⟨S2x128x128, .f32⟩
  | 5 => ⟨S2x128x128, .f32⟩
  | 6 => ⟨S2x1x128, .f32⟩
  | 7 => ⟨S2x128, .f32⟩
  | 8 => ⟨S500000, .i32⟩
  | 9 => ⟨S500000, .i32⟩
  | 10 => ⟨S500000, .i32⟩
  | 11 => ⟨S1x1x128, .f32⟩
  | 12 => ⟨S1x128, .f32⟩
  | 13 => ⟨S11x128, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x128, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x128, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S_, .f32⟩
  | 42 => ⟨S500000, .f32⟩
  | 43 => ⟨S_, .f32⟩
  | 44 => ⟨S100000, .f32⟩
  | 45 => ⟨S500000x1, .i32⟩
  | 46 => ⟨S100000, .f32⟩
  | 47 => ⟨S_, .f32⟩
  | 48 => ⟨S500000, .f32⟩
  | 49 => ⟨S_, .f32⟩
  | 50 => ⟨S100000, .f32⟩
  | 51 => ⟨S500000x1, .i32⟩
  | 52 => ⟨S100000, .f32⟩
  | 53 => ⟨S_, .f32⟩
  | 54 => ⟨S100000, .f32⟩
  | 55 => ⟨S100000, .i1⟩
  | 56 => ⟨S100000, .f32⟩
  | 57 => ⟨S_, .f32⟩
  | 58 => ⟨S_, .f32⟩
  | 59 => ⟨S100000, .f32⟩
  | 60 => ⟨S100000, .f32⟩
  | 61 => ⟨S_, .f32⟩
  | 62 => ⟨S100000, .f32⟩
  | 63 => ⟨S100000, .i1⟩
  | 64 => ⟨S100000, .f32⟩
  | 65 => ⟨S_, .f32⟩
  | 66 => ⟨S_, .f32⟩
  | 67 => ⟨S100000, .f32⟩
  | 68 => ⟨S100000, .f32⟩
  | 69 => ⟨S_, .i32⟩
  | 70 => ⟨S500000, .i32⟩
  | 71 => ⟨S500000, .i1⟩
  | 72 => ⟨S_, .i32⟩
  | 73 => ⟨S500000, .i32⟩
  | 74 => ⟨S500000, .i32⟩
  | 75 => ⟨S500000, .i32⟩
  | 76 => ⟨S500000x1, .i32⟩
  | 77 => ⟨S500000, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000, .f32⟩
  | 87 => ⟨S500000, .f32⟩
  | 88 => ⟨S500000x1, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000, .f32⟩
  | 107 => ⟨S500000, .f32⟩
  | 108 => ⟨S500000x1, .f32⟩
  | 109 => ⟨S1x128x128, .f32⟩
  | 110 => ⟨S128x128, .f32⟩
  | 111 => ⟨S1x128x128, .f32⟩
  | 112 => ⟨S128x128, .f32⟩
  | 113 => ⟨S500000x128, .f32⟩
  | 114 => ⟨S500000x128, .f32⟩
  | 115 => ⟨S_, .f32⟩
  | 116 => ⟨S100000x128, .f32⟩
  | 117 => ⟨S500000x1, .i32⟩
  | 118 => ⟨S100000x128, .f32⟩
  | 119 => ⟨S_, .f32⟩
  | 120 => ⟨S100000x128, .f32⟩
  | 121 => ⟨S500000x1, .i32⟩
  | 122 => ⟨S100000x128, .f32⟩
  | 123 => ⟨S1x128, .f32⟩
  | 124 => ⟨S128, .f32⟩
  | 125 => ⟨S1x128, .f32⟩
  | 126 => ⟨S1x1x128, .f32⟩
  | 127 => ⟨S1x128, .f32⟩
  | _ => ⟨S100000x128, .f32⟩

abbrev hbmTy0_1 (i : Nat) : BufTy := match i % 128 with
  | 0 => ⟨S1x128x128, .f32⟩
  | 1 => ⟨S128x128, .f32⟩
  | 2 => ⟨S100000x128, .f32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S100000x128, .f32⟩
  | 17 => ⟨S100000x128, .f32⟩
  | 18 => ⟨S100000x128, .f32⟩
  | 19 => ⟨S_, .f32⟩
  | 20 => ⟨S_, .f32⟩
  | 21 => ⟨S_, .f32⟩
  | 22 => ⟨S_, .f32⟩
  | 23 => ⟨S128, .f32⟩
  | 24 => ⟨S1x128, .f32⟩
  | 25 => ⟨S1x128, .f32⟩
  | 26 => ⟨S1x128, .f32⟩
  | 27 => ⟨S_, .f32⟩
  | 28 => ⟨S_, .i1⟩
  | 29 => ⟨S_, .f32⟩
  | 30 => ⟨S_, .f32⟩
  | 31 => ⟨S1x128, .f32⟩
  | 32 => ⟨S1x128, .f32⟩
  | 33 => ⟨S100000x128, .f32⟩
  | 34 => ⟨S1x128x128, .f32⟩
  | 35 => ⟨S128x128, .f32⟩
  | 36 => ⟨S11x128, .f32⟩
  | 37 => ⟨S10x128, .f32⟩
  | 38 => ⟨S1x1x128, .f32⟩
  | 39 => ⟨S1x128, .f32⟩
  | 40 => ⟨S11x128, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x128, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x128, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x128, .f32⟩
  | 68 => ⟨S_, .f32⟩
  | 69 => ⟨S500000, .f32⟩
  | 70 => ⟨S_, .f32⟩
  | 71 => ⟨S100000, .f32⟩
  | 72 => ⟨S500000x1, .i32⟩
  | 73 => ⟨S100000, .f32⟩
  | 74 => ⟨S_, .f32⟩
  | 75 => ⟨S500000, .f32⟩
  | 76 => ⟨S_, .f32⟩
  | 77 => ⟨S100000, .f32⟩
  | 78 => ⟨S500000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000, .f32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S500000, .f32⟩
  | 114 => ⟨S500000, .f32⟩
  | 115 => ⟨S500000x1, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000, .f32⟩
  | 125 => ⟨S_, .i32⟩
  | 126 => ⟨S500000, .i32⟩
  | 127 => ⟨S500000, .i1⟩
  | _ => ⟨S100000x128, .f32⟩

abbrev hbmTy0_2 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000, .f32⟩
  | 6 => ⟨S500000, .f32⟩
  | 7 => ⟨S500000x1, .f32⟩
  | 8 => ⟨S1x128x128, .f32⟩
  | 9 => ⟨S128x128, .f32⟩
  | 10 => ⟨S1x128x128, .f32⟩
  | 11 => ⟨S128x128, .f32⟩
  | 12 => ⟨S500000x128, .f32⟩
  | 13 => ⟨S500000x128, .f32⟩
  | 14 => ⟨S_, .f32⟩
  | 15 => ⟨S100000x128, .f32⟩
  | 16 => ⟨S500000x1, .i32⟩
  | 17 => ⟨S100000x128, .f32⟩
  | 18 => ⟨S_, .f32⟩
  | 19 => ⟨S100000x128, .f32⟩
  | 20 => ⟨S500000x1, .i32⟩
  | 21 => ⟨S100000x128, .f32⟩
  | 22 => ⟨S1x128, .f32⟩
  | 23 => ⟨S128, .f32⟩
  | 24 => ⟨S1x128, .f32⟩
  | 25 => ⟨S1x1x128, .f32⟩
  | 26 => ⟨S1x128, .f32⟩
  | 27 => ⟨S1x128x128, .f32⟩
  | 28 => ⟨S128x128, .f32⟩
  | 29 => ⟨S100000x128, .f32⟩
  | 30 => ⟨S_, .f32⟩
  | 31 => ⟨S128, .f32⟩
  | 32 => ⟨S1x128, .f32⟩
  | 33 => ⟨S_, .f32⟩
  | 34 => ⟨S1x128, .f32⟩
  | 35 => ⟨S1x128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S100000x128, .f32⟩
  | 44 => ⟨S100000x128, .f32⟩
  | 45 => ⟨S100000x128, .f32⟩
  | 46 => ⟨S_, .f32⟩
  | 47 => ⟨S_, .f32⟩
  | 48 => ⟨S_, .f32⟩
  | 49 => ⟨S_, .f32⟩
  | 50 => ⟨S128, .f32⟩
  | 51 => ⟨S1x128, .f32⟩
  | 52 => ⟨S1x128, .f32⟩
  | 53 => ⟨S1x128, .f32⟩
  | 54 => ⟨S_, .f32⟩
  | 55 => ⟨S_, .i1⟩
  | 56 => ⟨S_, .f32⟩
  | 57 => ⟨S_, .f32⟩
  | 58 => ⟨S1x128, .f32⟩
  | 59 => ⟨S1x128, .f32⟩
  | 60 => ⟨S100000x128, .f32⟩
  | 61 => ⟨S1x128x128, .f32⟩
  | 62 => ⟨S128x128, .f32⟩
  | 63 => ⟨S11x128, .f32⟩
  | 64 => ⟨S10x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x1, .f32⟩
  | .local _ .vmem, ⟨7, _⟩ => ⟨S5000x1, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x1, .f32⟩
  | .local _ .vmem, ⟨40, _⟩ => ⟨S5000x1, .f32⟩
  | .local _ .vmem, ⟨41, _⟩ => ⟨S5000x1, .f32⟩
  | .local _ .vmem, ⟨42, _⟩ => ⟨S5000x1, .f32⟩
  | .local _ .vmem, ⟨43, _⟩ => ⟨S128x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S128x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_call0_v0 : Ref sig .tc := ⟨.hbm, 58, rfl⟩
abbrev main_call0_v1 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_call1_v0 : Ref sig .tc := ⟨.hbm, 66, rfl⟩
abbrev main_call1_v1 : Ref sig .tc := ⟨.hbm, 67, rfl⟩
abbrev main_v39 : Ref sig .tc := ⟨.hbm, 68, rfl⟩
abbrev main_c_12 : Ref sig .tc := ⟨.hbm, 69, rfl⟩
abbrev main_v40 : Ref sig .tc := ⟨.hbm, 70, rfl⟩
abbrev main_v41 : Ref sig .tc := ⟨.hbm, 71, rfl⟩
abbrev main_c_13 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_14 : Ref sig .tc := ⟨.hbm, 78, rfl⟩
abbrev main_v47 : Ref sig .tc := ⟨.hbm, 79, rfl⟩
abbrev main_v48 : Ref sig .tc := ⟨.hbm, 80, rfl⟩
abbrev main_c_15 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_16 : Ref sig .tc := ⟨.hbm, 89, rfl⟩
abbrev main_v56 : Ref sig .tc := ⟨.hbm, 90, rfl⟩
abbrev main_v57 : Ref sig .tc := ⟨.hbm, 91, rfl⟩
abbrev main_c_17 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_18 : Ref sig .tc := ⟨.hbm, 98, rfl⟩
abbrev main_v63 : Ref sig .tc := ⟨.hbm, 99, rfl⟩
abbrev main_v64 : Ref sig .tc := ⟨.hbm, 100, rfl⟩
abbrev main_c_19 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76_0 : Ref sig .tc := ⟨.hbm, 113, rfl⟩
abbrev main_v76_1 : Ref sig .tc := ⟨.hbm, 114, rfl⟩
abbrev main_cst_20 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_21 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_22 : Ref sig .tc := ⟨.hbm, 131, rfl⟩
abbrev main_v91 : Ref sig .tc := ⟨.hbm, 132, rfl⟩
abbrev main_v92 : Ref sig .tc := ⟨.hbm, 133, rfl⟩
abbrev main_cst_23 : Ref sig .tc := ⟨.hbm, 134, rfl⟩
abbrev main_v93 : Ref sig .tc := ⟨.hbm, 135, rfl⟩
abbrev main_v94 : Ref sig .tc := ⟨.hbm, 136, rfl⟩
abbrev main_c_24 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_cst_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_cst_1 : Ref sig .tc := ⟨.hbm, 148, rfl⟩
abbrev main_call2_v8 : Ref sig .tc := ⟨.hbm, 149, rfl⟩
abbrev main_call2_cst_2 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_v12 : Ref sig .tc := ⟨.hbm, 154, rfl⟩
abbrev main_call2_cst_3 : Ref sig .tc := ⟨.hbm, 155, rfl⟩
abbrev main_call2_v13 : Ref sig .tc := ⟨.hbm, 156, rfl⟩
abbrev main_call2_cst_4 : Ref sig .tc := ⟨.hbm, 157, rfl⟩
abbrev main_call2_call0_v0 : Ref sig .tc := ⟨.hbm, 158, rfl⟩
abbrev main_call2_call0_v1 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_c_25 : Ref sig .tc := ⟨.hbm, 169, rfl⟩
abbrev main_v104 : Ref sig .tc := ⟨.hbm, 170, rfl⟩
abbrev main_v105 : Ref sig .tc := ⟨.hbm, 171, rfl⟩
abbrev main_c_26 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_c_27 : Ref sig .tc := ⟨.hbm, 178, rfl⟩
abbrev main_v111 : Ref sig .tc := ⟨.hbm, 179, rfl⟩
abbrev main_v112 : Ref sig .tc := ⟨.hbm, 180, rfl⟩
abbrev main_c_28 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_c_29 : Ref sig .tc := ⟨.hbm, 187, rfl⟩
abbrev main_v118 : Ref sig .tc := ⟨.hbm, 188, rfl⟩
abbrev main_v119 : Ref sig .tc := ⟨.hbm, 189, rfl⟩
abbrev main_c_30 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_31 : Ref sig .tc := ⟨.hbm, 196, rfl⟩
abbrev main_v125 : Ref sig .tc := ⟨.hbm, 197, rfl⟩
abbrev main_cst_32 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_cst_33 : Ref sig .tc := ⟨.hbm, 202, rfl⟩
abbrev main_v129 : Ref sig .tc := ⟨.hbm, 203, rfl⟩
abbrev main_cst_34 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_cst_35 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_cst_36 : Ref sig .tc := ⟨.hbm, 212, rfl⟩
abbrev main_call3_v0 : Ref sig .tc := ⟨.hbm, 213, rfl⟩
abbrev main_call3_v1 : Ref sig .tc := ⟨.hbm, 214, rfl⟩
abbrev main_v136 : Ref sig .tc := ⟨.hbm, 215, rfl⟩
abbrev main_cst_37 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_cst_38 : Ref sig .tc := ⟨.hbm, 220, rfl⟩
abbrev main_call4_v0 : Ref sig .tc := ⟨.hbm, 221, rfl⟩
abbrev main_call4_v1 : Ref sig .tc := ⟨.hbm, 222, rfl⟩
abbrev main_v140 : Ref sig .tc := ⟨.hbm, 223, rfl⟩
abbrev main_c_39 : Ref sig .tc := ⟨.hbm, 224, rfl⟩
abbrev main_v141 : Ref sig .tc := ⟨.hbm, 225, rfl⟩
abbrev main_v142 : Ref sig .tc := ⟨.hbm, 226, rfl⟩
abbrev main_c_40 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_c_41 : Ref sig .tc := ⟨.hbm, 233, rfl⟩
abbrev main_v148 : Ref sig .tc := ⟨.hbm, 234, rfl⟩
abbrev main_v149 : Ref sig .tc := ⟨.hbm, 235, rfl⟩
abbrev main_c_42 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_c_43 : Ref sig .tc := ⟨.hbm, 244, rfl⟩
abbrev main_v157 : Ref sig .tc := ⟨.hbm, 245, rfl⟩
abbrev main_v158 : Ref sig .tc := ⟨.hbm, 246, rfl⟩
abbrev main_c_44 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_c_45 : Ref sig .tc := ⟨.hbm, 253, rfl⟩
abbrev main_v164 : Ref sig .tc := ⟨.hbm, 254, rfl⟩
abbrev main_v165 : Ref sig .tc := ⟨.hbm, 255, rfl⟩
abbrev main_c_46 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177_0 : Ref sig .tc := ⟨.hbm, 268, rfl⟩
abbrev main_v177_1 : Ref sig .tc := ⟨.hbm, 269, rfl⟩
abbrev main_cst_47 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_cst_48 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_cst_49 : Ref sig .tc := ⟨.hbm, 286, rfl⟩
abbrev main_v192 : Ref sig .tc := ⟨.hbm, 287, rfl⟩
abbrev main_v193 : Ref sig .tc := ⟨.hbm, 288, rfl⟩
abbrev main_cst_50 : Ref sig .tc := ⟨.hbm, 289, rfl⟩
abbrev main_v194 : Ref sig .tc := ⟨.hbm, 290, rfl⟩
abbrev main_v195 : Ref sig .tc := ⟨.hbm, 291, rfl⟩
abbrev main_c_51 : Ref sig .tc := ⟨.hbm, 292, rfl⟩
abbrev main_call5_cst : Ref sig .tc := ⟨.hbm, 293, rfl⟩
abbrev main_call5_v0 : Ref sig .tc := ⟨.hbm, 294, rfl⟩
abbrev main_call5_v1 : Ref sig .tc := ⟨.hbm, 295, rfl⟩
abbrev main_call5_cst_0 : Ref sig .tc := ⟨.hbm, 296, rfl⟩
abbrev main_call5_v2 : Ref sig .tc := ⟨.hbm, 297, rfl⟩
abbrev main_call5_v3 : Ref sig .tc := ⟨.hbm, 298, rfl⟩
abbrev main_call5_v4 : Ref sig .tc := ⟨.hbm, 299, rfl⟩
abbrev main_call5_v5 : Ref sig .tc := ⟨.hbm, 300, rfl⟩
abbrev main_call5_v6 : Ref sig .tc := ⟨.hbm, 301, rfl⟩
abbrev main_call5_v7 : Ref sig .tc := ⟨.hbm, 302, rfl⟩
abbrev main_call5_cst_1 : Ref sig .tc := ⟨.hbm, 303, rfl⟩
abbrev main_call5_v8 : Ref sig .tc := ⟨.hbm, 304, rfl⟩
abbrev main_call5_cst_2 : Ref sig .tc := ⟨.hbm, 305, rfl⟩
abbrev main_call5_v9 : Ref sig .tc := ⟨.hbm, 306, rfl⟩
abbrev main_call5_v10 : Ref sig .tc := ⟨.hbm, 307, rfl⟩
abbrev main_call5_v11 : Ref sig .tc := ⟨.hbm, 308, rfl⟩
abbrev main_call5_v12 : Ref sig .tc := ⟨.hbm, 309, rfl⟩
abbrev main_call5_cst_3 : Ref sig .tc := ⟨.hbm, 310, rfl⟩
abbrev main_call5_v13 : Ref sig .tc := ⟨.hbm, 311, rfl⟩
abbrev main_call5_cst_4 : Ref sig .tc := ⟨.hbm, 312, rfl⟩
abbrev main_call5_call0_v0 : Ref sig .tc := ⟨.hbm, 313, rfl⟩
abbrev main_call5_call0_v1 : Ref sig .tc := ⟨.hbm, 314, rfl⟩
abbrev main_v196 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_v200 : Ref sig .tc := ⟨.hbm, 319, rfl⟩
abbrev main_v201 : Ref sig .tc := ⟨.hbm, 320, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg3_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg7_1 : Ref sig .tc := ⟨.vmem, 46, rfl⟩
abbrev cc3_stg8_0 : Ref sig .tc := ⟨.vmem, 47, rfl⟩
abbrev cc3_stg8_1 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg3_1 : Ref sig .tc := ⟨.vmem, 54, rfl⟩
abbrev cc4_stg4_0 : Ref sig .tc := ⟨.vmem, 55, rfl⟩
abbrev cc4_stg4_1 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg6_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg3_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem6_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem3_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem4_1 : DmaSem sig := 42
abbrev cc3_sem5_0 : DmaSem sig := 43
abbrev cc3_sem6_0 : DmaSem sig := 44
abbrev cc3_sem7_0 : DmaSem sig := 45
abbrev cc3_sem7_1 : DmaSem sig := 46
abbrev cc3_sem8_0 : DmaSem sig := 47
abbrev cc3_sem8_1 : DmaSem sig := 48
abbrev cc4_sem0_0 : DmaSem sig := 49
abbrev cc4_sem0_1 : DmaSem sig := 50
abbrev cc4_sem1_0 : DmaSem sig := 51
abbrev cc4_sem2_0 : DmaSem sig := 52
abbrev cc4_sem3_0 : DmaSem sig := 53
abbrev cc4_sem3_1 : DmaSem sig := 54
abbrev cc4_sem4_0 : DmaSem sig := 55
abbrev cc4_sem4_1 : DmaSem sig := 56
abbrev cc4_sem5_0 : DmaSem sig := 57
abbrev cc4_sem6_0 : DmaSem sig := 58
abbrev cc4_sem6_1 : DmaSem sig := 59
abbrev cc5_sem0_0 : DmaSem sig := 60
abbrev cc5_sem0_1 : DmaSem sig := 61
abbrev cc5_sem1_0 : DmaSem sig := 62
abbrev cc5_sem2_0 : DmaSem sig := 63
abbrev cc5_sem3_0 : DmaSem sig := 64
abbrev cc5_sem3_1 : DmaSem sig := 65

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1x128_S1x1x128_0_0_0 : S2x1x128.Slices ![0, 0, 0] S1x1x128
  shapeCasts_S1x1x128_S1x128 : S1x1x128.ShapeCasts S1x128
  concatenates_S10x128_S1x128_S11x128_d0 : Shape.Concatenates [S10x128, S1x128] S11x128 0
  bcast_S_S500000 : S_.BroadcastsInDim S500000 (![] : Fin 0 → Fin S500000.rank)
  bcast_S500000_S500000x1_0 : S500000.BroadcastsInDim S500000x1 (![0] : Fin 1 → Fin S500000x1.rank)
  bcast_S_S100000 : S_.BroadcastsInDim S100000 (![] : Fin 0 → Fin S100000.rank)
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S11x128_S10x128_0_0 : S11x128.Slices ![0, 0] S10x128
  slices_S2x1x128_S1x1x128_1_0_0 : S2x1x128.Slices ![1, 0, 0] S1x1x128
  slices_S2x128x128_S1x128x128_1_0_0 : S2x128x128.Slices ![1, 0, 0] S1x128x128
  slices_S2x128_S1x128_1_0 : S2x128.Slices ![1, 0] S1x128
  gather_S11x128_S500000x1_S500000x128_1_0_n_n_0_1_1128_wf : GatherDims.WF S11x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  dot_S5000x128_S128x128_S5000x128_1_0_0_1_n_n_wf : DotDims.WF S5000x128 S128x128 S5000x128 [1] [0] [0] [1] [] []
  scatter_S100000x128_S500000x1_S500000x128_1_0_0_1_wf : ScatterDims.WF S100000x128 S500000x1 S500000x128 [1] [0] [0] 1
  dot_S11x128_S128x128_S11x128_1_0_0_1_n_n_wf : DotDims.WF S11x128 S128x128 S11x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S500000x1.size a
  hwx0_3 : ∀ i : grid0.Coords, EltTy.bits .f32 = 32 ∨ (Rect.block (s := S500000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S500000x1.size a
  hwx0_4 : ∀ i : grid0.Coords, EltTy.bits .f32 = 32 ∨ (Rect.block (s := S500000x1) S5000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S500000x128.size a
  hwx0_7 : ∀ i : grid0.Coords, EltTy.bits .f32 = 32 ∨ (Rect.block (s := S500000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S500000x128.size a
  hwx0_8 : ∀ i : grid0.Coords, EltTy.bits .f32 = 32 ∨ (Rect.block (s := S500000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S500000x128.size a
  hwx3_0 : ∀ i : grid3.Coords, EltTy.bits .f32 = 32 ∨ (Rect.block (s := S500000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S500000x128.size a
  hwx3_1 : ∀ i : grid3.Coords, EltTy.bits .f32 = 32 ∨ (Rect.block (s := S500000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S500000x128.size a
  hwx3_2 : ∀ i : grid3.Coords, EltTy.bits .f32 = 32 ∨ (Rect.block (s := S500000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S500000x1.size a
  hwx3_3 : ∀ i : grid3.Coords, EltTy.bits .f32 = 32 ∨ (Rect.block (s := S500000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S500000x1.size a
  hwx3_4 : ∀ i : grid3.Coords, EltTy.bits .f32 = 32 ∨ (Rect.block (s := S500000x1) S5000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S500000x128.size a
  hwx3_7 : ∀ i : grid3.Coords, EltTy.bits .f32 = 32 ∨ (Rect.block (s := S500000x128) S5000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S500000x128.size a
  hwx3_8 : ∀ i : grid3.Coords, EltTy.bits .f32 = 32 ∨ (Rect.block (s := S500000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def gather_S11x128_S500000x1_S500000x128_1_0_n_n_0_1_1128 : GatherDims S11x128 S500000x1 S500000x128 where
  offsetDims := [1]
  collapsedSliceDims := [0]
  operandBatchingDims := []
  startIndicesBatchingDims := []
  startIndexMap := [0]
  indexVectorDim := 1
  sliceSizes := ![1, 128]
  wf := gather_S11x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S11x128_S128x128_S11x128_1_0_0_1_n_n : DotDims S11x128 S128x128 S11x128 where
  lhsContracting := [1]
  rhsContracting := [0]
  lhsNonContracting := [0]
  rhsNonContracting := [1]
  lhsBatch := []
  rhsBatch := []
  wf := dot_S11x128_S128x128_S11x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v55) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v71) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v73) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v75) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v76_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v76_1) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v87) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v89) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v82) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v85) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v90) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v90) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v95) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v96) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v110) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v117) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v124) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v156) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v172) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v174) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v176) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v177_0) S5000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v177_1) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v96) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v188) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v190) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v180) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v183) S5000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v186) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v191) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v191) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v195) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v196) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v197) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S10x128 : Shape := ⟨2, ![10, 128]⟩
abbrev S2x128x128 : Shape := ⟨3, ![2, 128, 128]⟩
abbrev S2x1x128 : Shape := ⟨3, ![2, 1, 128]⟩
abbrev S2x128 : Shape := ⟨2, ![2, 128]⟩
abbrev S500000 : Shape := ⟨1, ![500000]⟩
abbrev S_ : Shape := ⟨0, ![]⟩
abbrev S1x1x128 : Shape := ⟨3, ![1, 1, 128]⟩
abbrev S1x128 : Shape := ⟨2, ![1, 128]⟩
abbrev S11x128 : Shape := ⟨2, ![11, 128]⟩
abbrev S500000x1 : Shape := ⟨2, ![500000, 1]⟩
abbrev S500000x128 : Shape := ⟨2, ![500000, 128]⟩
abbrev S1x128x128 : Shape := ⟨3, ![1, 128, 128]⟩
abbrev S128x128 : Shape := ⟨2, ![128, 128]⟩
abbrev S100000 : Shape := ⟨1, ![100000]⟩
abbrev S128 : Shape := ⟨1, ![128]⟩

abbrev nBuf : Space → Nat
  | .hbm => 417
  | .vmem => 0
  | .smem => 0
  | _ => 0

abbrev hbmTy0_0 (i : Nat) : BufTy := match i % 128 with
  | 0 => ⟨S100000x128, .f32⟩
  | 1 => ⟨S10x128, .f32⟩
  | 2 => ⟨S2x128x128, .f32⟩
  | 3 => ⟨S2x128x128, .f32⟩
  | 4 => ⟨S2x128x128, .f32⟩
  | 5 => ⟨S2x128x128, .f32⟩
  | 6 => ⟨S2x1x128, .f32⟩
  | 7 => ⟨S2x128, .f32⟩
  | 8 => ⟨S500000, .i32⟩
  | 9 => ⟨S500000, .i32⟩
  | 10 => ⟨S500000, .i32⟩
  | 11 => ⟨S_, .f32⟩
  | 12 => ⟨S500000, .f32⟩
  | 13 => ⟨S1x1x128, .f32⟩
  | 14 => ⟨S1x128, .f32⟩
  | 15 => ⟨S11x128, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x128, .f32⟩
  | 25 => ⟨S1x128x128, .f32⟩
  | 26 => ⟨S128x128, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S500000x128, .f32⟩
  | 37 => ⟨S500000x128, .f32⟩
  | 38 => ⟨S_, .f32⟩
  | 39 => ⟨S100000, .f32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S100000, .f32⟩
  | 49 => ⟨S_, .f32⟩
  | 50 => ⟨S100000, .f32⟩
  | 51 => ⟨S100000, .i1⟩
  | 52 => ⟨S100000, .f32⟩
  | 53 => ⟨S_, .f32⟩
  | 54 => ⟨S_, .f32⟩
  | 55 => ⟨S100000, .f32⟩
  | 56 => ⟨S100000, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000, .f32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000, .f32⟩
  | 75 => ⟨S500000, .f32⟩
  | 76 => ⟨S500000x1, .f32⟩
  | 77 => ⟨S500000x128, .f32⟩
  | 78 => ⟨S500000x128, .f32⟩
  | 79 => ⟨S_, .f32⟩
  | 80 => ⟨S100000x128, .f32⟩
  | 81 => ⟨S_, .i32⟩
  | 82 => ⟨S500000, .i32⟩
  | 83 => ⟨S500000, .i1⟩
  | 84 => ⟨S_, .i32⟩
  | 85 => ⟨S500000, .i32⟩
  | 86 => ⟨S500000, .i32⟩
  | 87 => ⟨S500000, .i32⟩
  | 88 => ⟨S500000x1, .i32⟩
  | 89 => ⟨S100000x128, .f32⟩
  | 90 => ⟨S1x128x128, .f32⟩
  | 91 => ⟨S128x128, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x128, .f32⟩
  | 101 => ⟨S500000x128, .f32⟩
  | 102 => ⟨S500000x128, .f32⟩
  | 103 => ⟨S_, .f32⟩
  | 104 => ⟨S100000, .f32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S100000, .f32⟩
  | 114 => ⟨S_, .f32⟩
  | 115 => ⟨S100000, .f32⟩
  | 116 => ⟨S100000, .i1⟩
  | 117 => ⟨S100000, .f32⟩
  | 118 => ⟨S_, .f32⟩
  | 119 => ⟨S_, .f32⟩
  | 120 => ⟨S100000, .f32⟩
  | 121 => ⟨S100000, .f32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S100000x128, .f32⟩

abbrev hbmTy0_1 (i : Nat) : BufTy := match i % 128 with
  | 0 => ⟨S500000, .i32⟩
  | 1 => ⟨S500000x1, .i32⟩
  | 2 => ⟨S500000, .f32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000, .f32⟩
  | 12 => ⟨S500000, .f32⟩
  | 13 => ⟨S500000x1, .f32⟩
  | 14 => ⟨S500000x128, .f32⟩
  | 15 => ⟨S500000x128, .f32⟩
  | 16 => ⟨S_, .f32⟩
  | 17 => ⟨S100000x128, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S100000x128, .f32⟩
  | 27 => ⟨S1x1x128, .f32⟩
  | 28 => ⟨S1x128, .f32⟩
  | 29 => ⟨S100000x128, .f32⟩
  | 30 => ⟨S100000x128, .f32⟩
  | 31 => ⟨S1x128x128, .f32⟩
  | 32 => ⟨S128x128, .f32⟩
  | 33 => ⟨S100000x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S100000x128, .f32⟩
  | 43 => ⟨S100000x128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S100000x128, .f32⟩
  | 57 => ⟨S100000x128, .f32⟩
  | 58 => ⟨S100000x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S100000x128, .f32⟩
  | 83 => ⟨S1x128x128, .f32⟩
  | 84 => ⟨S128x128, .f32⟩
  | 85 => ⟨S11x128, .f32⟩
  | 86 => ⟨S10x128, .f32⟩
  | 87 => ⟨S1x1x128, .f32⟩
  | 88 => ⟨S1x128, .f32⟩
  | 89 => ⟨S11x128, .f32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x128, .f32⟩
  | 99 => ⟨S1x128x128, .f32⟩
  | 100 => ⟨S128x128, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S500000x128, .f32⟩
  | 111 => ⟨S500000x128, .f32⟩
  | 112 => ⟨S_, .f32⟩
  | 113 => ⟨S100000, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S100000, .f32⟩
  | 123 => ⟨S_, .f32⟩
  | 124 => ⟨S100000, .f32⟩
  | 125 => ⟨S100000, .i1⟩
  | 126 => ⟨S100000, .f32⟩
  | 127 => ⟨S_, .f32⟩
  | _ => ⟨S100000x128, .f32⟩

abbrev hbmTy0_2 (i : Nat) : BufTy := match i % 128 with
  | 0 => ⟨S_, .f32⟩
  | 1 => ⟨S100000, .f32⟩
  | 2 => ⟨S100000, .f32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000, .f32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000, .f32⟩
  | 21 => ⟨S500000, .f32⟩
  | 22 => ⟨S500000x1, .f32⟩
  | 23 => ⟨S500000x128, .f32⟩
  | 24 => ⟨S500000x128, .f32⟩
  | 25 => ⟨S_, .f32⟩
  | 26 => ⟨S100000x128, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S100000x128, .f32⟩
  | 36 => ⟨S1x128x128, .f32⟩
  | 37 => ⟨S128x128, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x128, .f32⟩
  | 47 => ⟨S500000x128, .f32⟩
  | 48 => ⟨S500000x128, .f32⟩
  | 49 => ⟨S_, .f32⟩
  | 50 => ⟨S100000, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S100000, .f32⟩
  | 60 => ⟨S_, .f32⟩
  | 61 => ⟨S100000, .f32⟩
  | 62 => ⟨S100000, .i1⟩
  | 63 => ⟨S100000, .f32⟩
  | 64 => ⟨S_, .f32⟩
  | 65 => ⟨S_, .f32⟩
  | 66 => ⟨S100000, .f32⟩
  | 67 => ⟨S100000, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000, .f32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S500000, .f32⟩
  | 86 => ⟨S500000, .f32⟩
  | 87 => ⟨S500000x1, .f32⟩
  | 88 => ⟨S500000x128, .f32⟩
  | 89 => ⟨S500000x128, .f32⟩
  | 90 => ⟨S_, .f32⟩
  | 91 => ⟨S100000x128, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S100000x128, .f32⟩
  | 101 => ⟨S1x1x128, .f32⟩
  | 102 => ⟨S1x128, .f32⟩
  | 103 => ⟨S100000x128, .f32⟩
  | 104 => ⟨S100000x128, .f32⟩
  | 105 => ⟨S1x128x128, .f32⟩
  | 106 => ⟨S128x128, .f32⟩
  | 107 => ⟨S100000x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S_, .f32⟩
  | 121 => ⟨S128, .f32⟩
  | 122 => ⟨S128, .f32⟩
  | 123 => ⟨S_, .i32⟩
  | 124 => ⟨S_, .f32⟩
  | 125 => ⟨S128, .f32⟩
  | 126 => ⟨S1x128, .f32⟩
  | 127 => ⟨S_, .f32⟩
  | _ => ⟨S100000x128, .f32⟩

abbrev hbmTy0_3 (i : Nat) : BufTy := match i % 128 with
  | 0 => ⟨S1x128, .f32⟩
  | 1 => ⟨S1x128, .f32⟩
  | 2 => ⟨S100000x128, .f32⟩
  | 3 => ⟨S100000x128, .f32⟩
  | 4 => ⟨S100000x128, .f32⟩
  | 5 => ⟨S_, .f32⟩
  | 6 => ⟨S_, .f32⟩
  | 7 => ⟨S_, .f32⟩
  | 8 => ⟨S_, .f32⟩
  | 9 => ⟨S128, .f32⟩
  | 10 => ⟨S128, .f32⟩
  | 11 => ⟨S128, .f32⟩
  | 12 => ⟨S_, .f32⟩
  | 13 => ⟨S_, .i1⟩
  | 14 => ⟨S_, .f32⟩
  | 15 => ⟨S_, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S_, .f32⟩
  | 22 => ⟨S128, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S100000x128, .f32⟩
  | 29 => ⟨S1x128x128, .f32⟩
  | 30 => ⟨S128x128, .f32⟩
  | 31 => ⟨S11x128, .f32⟩
  | 32 => ⟨S10x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_c_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_17 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_21 : Ref sig .tc := ⟨.hbm, 118, rfl⟩
abbrev main_call1_v0 : Ref sig .tc := ⟨.hbm, 119, rfl⟩
abbrev main_call1_v1 : Ref sig .tc := ⟨.hbm, 120, rfl⟩
abbrev main_v82 : Ref sig .tc := ⟨.hbm, 121, rfl⟩
abbrev main_c_22 : Ref sig .tc := ⟨.hbm, 122, rfl⟩
abbrev main_v83 : Ref sig .tc := ⟨.hbm, 123, rfl⟩
abbrev main_v84 : Ref sig .tc := ⟨.hbm, 124, rfl⟩
abbrev main_c_23 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_24 : Ref sig .tc := ⟨.hbm, 131, rfl⟩
abbrev main_v90 : Ref sig .tc := ⟨.hbm, 132, rfl⟩
abbrev main_v91 : Ref sig .tc := ⟨.hbm, 133, rfl⟩
abbrev main_c_25 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_26 : Ref sig .tc := ⟨.hbm, 144, rfl⟩
abbrev main_v101 : Ref sig .tc := ⟨.hbm, 145, rfl⟩
abbrev main_c_27 : Ref sig .tc := ⟨.hbm, 146, rfl⟩
abbrev main_v102 : Ref sig .tc := ⟨.hbm, 147, rfl⟩
abbrev main_v103 : Ref sig .tc := ⟨.hbm, 148, rfl⟩
abbrev main_c_28 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_29 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_30 : Ref sig .tc := ⟨.hbm, 172, rfl⟩
abbrev main_v125 : Ref sig .tc := ⟨.hbm, 173, rfl⟩
abbrev main_cst_31 : Ref sig .tc := ⟨.hbm, 174, rfl⟩
abbrev main_v126 : Ref sig .tc := ⟨.hbm, 175, rfl⟩
abbrev main_v127 : Ref sig .tc := ⟨.hbm, 176, rfl⟩
abbrev main_c_32 : Ref sig .tc := ⟨.hbm, 177, rfl⟩
abbrev main_call2_cst : Ref sig .tc := ⟨.hbm, 178, rfl⟩
abbrev main_call2_v0 : Ref sig .tc := ⟨.hbm, 179, rfl⟩
abbrev main_call2_v1 : Ref sig .tc := ⟨.hbm, 180, rfl⟩
abbrev main_call2_cst_0 : Ref sig .tc := ⟨.hbm, 181, rfl⟩
abbrev main_call2_v2 : Ref sig .tc := ⟨.hbm, 182, rfl⟩
abbrev main_call2_v3 : Ref sig .tc := ⟨.hbm, 183, rfl⟩
abbrev main_call2_v4 : Ref sig .tc := ⟨.hbm, 184, rfl⟩
abbrev main_call2_v5 : Ref sig .tc := ⟨.hbm, 185, rfl⟩
abbrev main_call2_v6 : Ref sig .tc := ⟨.hbm, 186, rfl⟩
abbrev main_call2_v7 : Ref sig .tc := ⟨.hbm, 187, rfl⟩
abbrev main_call2_cst_1 : Ref sig .tc := ⟨.hbm, 188, rfl⟩
abbrev main_call2_v8 : Ref sig .tc := ⟨.hbm, 189, rfl⟩
abbrev main_call2_cst_2 : Ref sig .tc := ⟨.hbm, 190, rfl⟩
abbrev main_call2_v9 : Ref sig .tc := ⟨.hbm, 191, rfl⟩
abbrev main_call2_v10 : Ref sig .tc := ⟨.hbm, 192, rfl⟩
abbrev main_call2_v11 : Ref sig .tc := ⟨.hbm, 193, rfl⟩
abbrev main_call2_cst_3 : Ref sig .tc := ⟨.hbm, 194, rfl⟩
abbrev main_call2_v12 : Ref sig .tc := ⟨.hbm, 195, rfl⟩
abbrev main_call2_cst_4 : Ref sig .tc := ⟨.hbm, 196, rfl⟩
abbrev main_call2_call0_v0 : Ref sig .tc := ⟨.hbm, 197, rfl⟩
abbrev main_call2_call0_v1 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_cst_33 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_c_34 : Ref sig .tc := ⟨.hbm, 218, rfl⟩
abbrev main_v146 : Ref sig .tc := ⟨.hbm, 219, rfl⟩
abbrev main_v147 : Ref sig .tc := ⟨.hbm, 220, rfl⟩
abbrev main_c_35 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_c_36 : Ref sig .tc := ⟨.hbm, 229, rfl⟩
abbrev main_v155 : Ref sig .tc := ⟨.hbm, 230, rfl⟩
abbrev main_v156 : Ref sig .tc := ⟨.hbm, 231, rfl⟩
abbrev main_c_37 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_cst_38 : Ref sig .tc := ⟨.hbm, 240, rfl⟩
abbrev main_v164 : Ref sig .tc := ⟨.hbm, 241, rfl⟩
abbrev main_c_39 : Ref sig .tc := ⟨.hbm, 242, rfl⟩
abbrev main_v165 : Ref sig .tc := ⟨.hbm, 243, rfl⟩
abbrev main_v166 : Ref sig .tc := ⟨.hbm, 244, rfl⟩
abbrev main_c_40 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_cst_41 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_cst_42 : Ref sig .tc := ⟨.hbm, 255, rfl⟩
abbrev main_call3_v0 : Ref sig .tc := ⟨.hbm, 256, rfl⟩
abbrev main_call3_v1 : Ref sig .tc := ⟨.hbm, 257, rfl⟩
abbrev main_v175 : Ref sig .tc := ⟨.hbm, 258, rfl⟩
abbrev main_c_43 : Ref sig .tc := ⟨.hbm, 259, rfl⟩
abbrev main_v176 : Ref sig .tc := ⟨.hbm, 260, rfl⟩
abbrev main_v177 : Ref sig .tc := ⟨.hbm, 261, rfl⟩
abbrev main_c_44 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_c_45 : Ref sig .tc := ⟨.hbm, 268, rfl⟩
abbrev main_v183 : Ref sig .tc := ⟨.hbm, 269, rfl⟩
abbrev main_v184 : Ref sig .tc := ⟨.hbm, 270, rfl⟩
abbrev main_c_46 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_cst_47 : Ref sig .tc := ⟨.hbm, 281, rfl⟩
abbrev main_v194 : Ref sig .tc := ⟨.hbm, 282, rfl⟩
abbrev main_c_48 : Ref sig .tc := ⟨.hbm, 283, rfl⟩
abbrev main_v195 : Ref sig .tc := ⟨.hbm, 284, rfl⟩
abbrev main_v196 : Ref sig .tc := ⟨.hbm, 285, rfl⟩
abbrev main_c_49 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_c_50 : Ref sig .tc := ⟨.hbm, 294, rfl⟩
abbrev main_v204 : Ref sig .tc := ⟨.hbm, 295, rfl⟩
abbrev main_v205 : Ref sig .tc := ⟨.hbm, 296, rfl⟩
abbrev main_c_51 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_cst_52 : Ref sig .tc := ⟨.hbm, 305, rfl⟩
abbrev main_v213 : Ref sig .tc := ⟨.hbm, 306, rfl⟩
abbrev main_c_53 : Ref sig .tc := ⟨.hbm, 307, rfl⟩
abbrev main_v214 : Ref sig .tc := ⟨.hbm, 308, rfl⟩
abbrev main_v215 : Ref sig .tc := ⟨.hbm, 309, rfl⟩
abbrev main_c_54 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_cst_55 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_cst_56 : Ref sig .tc := ⟨.hbm, 320, rfl⟩
abbrev main_call4_v0 : Ref sig .tc := ⟨.hbm, 321, rfl⟩
abbrev main_call4_v1 : Ref sig .tc := ⟨.hbm, 322, rfl⟩
abbrev main_v224 : Ref sig .tc := ⟨.hbm, 323, rfl⟩
abbrev main_c_57 : Ref sig .tc := ⟨.hbm, 324, rfl⟩
abbrev main_v225 : Ref sig .tc := ⟨.hbm, 325, rfl⟩
abbrev main_v226 : Ref sig .tc := ⟨.hbm, 326, rfl⟩
abbrev main_c_58 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_c_59 : Ref sig .tc := ⟨.hbm, 333, rfl⟩
abbrev main_v232 : Ref sig .tc := ⟨.hbm, 334, rfl⟩
abbrev main_v233 : Ref sig .tc := ⟨.hbm, 335, rfl⟩
abbrev main_c_60 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_v242 : Ref sig .tc := ⟨.hbm, 345, rfl⟩
abbrev main_cst_61 : Ref sig .tc := ⟨.hbm, 346, rfl⟩
abbrev main_v243 : Ref sig .tc := ⟨.hbm, 347, rfl⟩
abbrev main_c_62 : Ref sig .tc := ⟨.hbm, 348, rfl⟩
abbrev main_v244 : Ref sig .tc := ⟨.hbm, 349, rfl⟩
abbrev main_v245 : Ref sig .tc := ⟨.hbm, 350, rfl⟩
abbrev main_c_63 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_cst_64 : Ref sig .tc := ⟨.hbm, 366, rfl⟩
abbrev main_v260 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_v266 : Ref sig .tc := ⟨.hbm, 373, rfl⟩
abbrev main_cst_65 : Ref sig .tc := ⟨.hbm, 374, rfl⟩
abbrev main_v267 : Ref sig .tc := ⟨.hbm, 375, rfl⟩
abbrev main_cst_66 : Ref sig .tc := ⟨.hbm, 376, rfl⟩
abbrev main_v268 : Ref sig .tc := ⟨.hbm, 377, rfl⟩
abbrev main_v269 : Ref sig .tc := ⟨.hbm, 378, rfl⟩
abbrev main_c_67 : Ref sig .tc := ⟨.hbm, 379, rfl⟩
abbrev main_call5_cst : Ref sig .tc := ⟨.hbm, 380, rfl⟩
abbrev main_call5_v0 : Ref sig .tc := ⟨.hbm, 381, rfl⟩
abbrev main_call5_v1 : Ref sig .tc := ⟨.hbm, 382, rfl⟩
abbrev main_call5_cst_0 : Ref sig .tc := ⟨.hbm, 383, rfl⟩
abbrev main_call5_v2 : Ref sig .tc := ⟨.hbm, 384, rfl⟩
abbrev main_call5_v3 : Ref sig .tc := ⟨.hbm, 385, rfl⟩
abbrev main_call5_v4 : Ref sig .tc := ⟨.hbm, 386, rfl⟩
abbrev main_call5_v5 : Ref sig .tc := ⟨.hbm, 387, rfl⟩
abbrev main_call5_v6 : Ref sig .tc := ⟨.hbm, 388, rfl⟩
abbrev main_call5_v7 : Ref sig .tc := ⟨.hbm, 389, rfl⟩
abbrev main_call5_cst_1 : Ref sig .tc := ⟨.hbm, 390, rfl⟩
abbrev main_call5_v8 : Ref sig .tc := ⟨.hbm, 391, rfl⟩
abbrev main_call5_cst_2 : Ref sig .tc := ⟨.hbm, 392, rfl⟩
abbrev main_call5_v9 : Ref sig .tc := ⟨.hbm, 393, rfl⟩
abbrev main_call5_v10 : Ref sig .tc := ⟨.hbm, 394, rfl⟩
abbrev main_call5_v11 : Ref sig .tc := ⟨.hbm, 395, rfl⟩
abbrev main_call5_cst_3 : Ref sig .tc := ⟨.hbm, 396, rfl⟩
abbrev main_call5_v12 : Ref sig .tc := ⟨.hbm, 397, rfl⟩
abbrev main_call5_cst_4 : Ref sig .tc := ⟨.hbm, 398, rfl⟩
abbrev main_call5_call0_v0 : Ref sig .tc := ⟨.hbm, 399, rfl⟩
abbrev main_call5_call0_v1 : Ref sig .tc := ⟨.hbm, 400, rfl⟩
abbrev main_v270 : Ref sig .tc := ⟨.hbm, 401, rfl⟩
abbrev main_v271 : Ref sig .tc := ⟨.hbm, 402, rfl⟩
abbrev main_v272 : Ref sig .tc := ⟨.hbm, 403, rfl⟩
abbrev main_v273 : Ref sig .tc := ⟨.hbm, 404, rfl⟩
abbrev main_cst_68 : Ref sig .tc := ⟨.hbm, 405, rfl⟩
abbrev main_v274 : Ref sig .tc := ⟨.hbm, 406, rfl⟩
abbrev main_v275 : Ref sig .tc := ⟨.hbm, 407, rfl⟩
abbrev main_v276 : Ref sig .tc := ⟨.hbm, 408, rfl⟩
abbrev main_v277 : Ref sig .tc := ⟨.hbm, 409, rfl⟩
abbrev main_v278 : Ref sig .tc := ⟨.hbm, 410, rfl⟩
abbrev main_v279 : Ref sig .tc := ⟨.hbm, 411, rfl⟩
abbrev main_v280 : Ref sig .tc := ⟨.hbm, 412, rfl⟩
abbrev main_v281 : Ref sig .tc := ⟨.hbm, 413, rfl⟩
abbrev main_v282 : Ref sig .tc := ⟨.hbm, 414, rfl⟩
abbrev main_v283 : Ref sig .tc := ⟨.hbm, 415, rfl⟩
abbrev main_v284 : Ref sig .tc := ⟨.hbm, 416, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  slices_S2x1x128_S1x1x128_0_0_0 : S2x1x128.Slices ![0, 0, 0] S1x1x128
  shapeCasts_S1x1x128_S1x128 : S1x1x128.ShapeCasts S1x128
  concatenates_S10x128_S1x128_S11x128_d0 : Shape.Concatenates [S10x128, S1x128] S11x128 0
  bcast_S500000_S500000x1_0 : S500000.BroadcastsInDim S500000x1 (![0] : Fin 1 → Fin S500000x1.rank)
  slices_S2x128x128_S1x128x128_0_0_0 : S2x128x128.Slices ![0, 0, 0] S1x128x128
  shapeCasts_S1x128x128_S128x128 : S1x128x128.ShapeCasts S128x128
  bcast_S_S100000 : S_.BroadcastsInDim S100000 (![] : Fin 0 → Fin S100000.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S11x128_S10x128_0_0 : S11x128.Slices ![0, 0] S10x128
  slices_S2x1x128_S1x1x128_1_0_0 : S2x1x128.Slices ![1, 0, 0] S1x1x128
  slices_S2x128x128_S1x128x128_1_0_0 : S2x128x128.Slices ![1, 0, 0] S1x128x128
  slices_S2x128_S1x128_1_0 : S2x128.Slices ![1, 0] S1x128
  gather_S11x128_S500000x1_S500000x128_1_0_n_n_0_1_1128_wf : GatherDims.WF S11x128 S500000x1 S500000x128 [1] [0] [] [0] [] 1 ![1, 128]
  gather_S100000x128_S500000x1_S500000x128_1_0_n_n_0_1_1128_wf : GatherDims.WF S100000x128 S500000x1 S500000x128 [1] [0] [] [0] [] 1 ![1, 128]
  dot_S500000x128_S128x128_S500000x128_1_0_0_1_n_n_wf : DotDims.WF S500000x128 S128x128 S500000x128 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  scatter_S100000x128_S500000x1_S500000x128_1_0_0_1_wf : ScatterDims.WF S100000x128 S500000x1 S500000x128 [1] [0] [0] 1
  dot_S100000x128_S128x128_S100000x128_1_0_0_1_n_n_wf : DotDims.WF S100000x128 S128x128 S100000x128 [1] [0] [0] [1] [] []
  dot_S11x128_S128x128_S11x128_1_0_0_1_n_n_wf : DotDims.WF S11x128 S128x128 S11x128 [1] [0] [0] [1] [] []

variable [Facts₀]

def gather_S11x128_S500000x1_S500000x128_1_0_n_n_0_1_1128 : GatherDims S11x128 S500000x1 S500000x128 where
  offsetDims := [1]
  collapsedSliceDims := [0]
  operandBatchingDims := []
  startIndicesBatchingDims := []
  startIndexMap := [0]
  indexVectorDim := 1
  sliceSizes := ![1, 128]
  wf := gather_S11x128_S500000x1_S500000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S11x128_S128x128_S11x128_1_0_0_1_n_n : DotDims S11x128 S128x128 S11x128 where
  lhsContracting := [1]
  rhsContracting := [0]
  lhsNonContracting := [0]
  rhsNonContracting := [1]
  lhsBatch := []
  rhsBatch := []
  wf := dot_S11x128_S128x128_S11x128_1_0_0_1_n_n_wf

class Facts : Prop extends Facts₀ where

variable [Facts]
-- ==== Proof.RefOps.lean ====
-- the six lists below are the operations of the printed program's six windows, copied in program order
/- The idealized reference program's @main as literal lists of its host operations, one list per printed window,
   in program order. A call of a module-local function is its body's operations at the call site, over the call's
   arguments and the buffer record of that call (a call inside a callee likewise, over the nested record). The
   program is cut after its third window (statement 180) into two halves, each a list of its own. -/
import proofs.«104171_j72722386256375_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0 of @main: its 62 operations in order, calls unfolded. -/
abbrev p0 : List (HloOp τ sig (Elt F)) :=
  [ StableHlo.nullary main_cst (constant S_ .f32 0x3F800000#32),
    StableHlo.unary main_cst main_v0 (broadcastInDim S500000 ![] bcast_S_S500000 : (⟨S_, .f32⟩ : BufTy).Contents (Elt F) → (⟨S500000, .f32⟩ : BufTy).Contents (Elt F)),
    StableHlo.unary main_arg6 main_v1 ((extractStridedSlice S1x1x128 ![0, 0, 0] · slices_S2x1x128_S1x1x128_0_0_0) : (⟨S2x1x128, .f32⟩ : BufTy).Contents (Elt F) → (⟨S1x1x128, .f32⟩ : BufTy).Contents (Elt F)),
    StableHlo.reshape main_v1 main_v2 rfl shapeCasts_S1x1x128_S1x128,
    StableHlo.binary main_arg1 main_v2 main_v3 ((fun a b => concatenate S11x128 0 [⟨S10x128, a⟩, ⟨S1x128, b⟩] concatenates_S10x128_S1x128_S11x128_d0) : (⟨S10x128, .f32⟩ : BufTy).Contents (Elt F) → (⟨S1x128, .f32⟩ : BufTy).Contents (Elt F) → (⟨S11x128, .f32⟩ : BufTy).Contents (Elt F)),
    StableHlo.nullary main_c (constantI S_ 32 0#32),
    StableHlo.unary main_c main_v4 (broadcastInDim S500000 ![] bcast_S_S500000 : (⟨S_, .i32⟩ : BufTy).Contents (Elt F) → (⟨S500000, .i32⟩ : BufTy).Contents (Elt F)),
    StableHlo.binary main_arg10 main_v4 main_v5 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 11#32),
    StableHlo.unary main_c_0 main_v6 (broadcastInDim S500000 ![] bcast_S_S500000 : (⟨S_, .i32⟩ : BufTy).Contents (Elt F) → (⟨S500000, .i32⟩ : BufTy).Contents (Elt F)),
    StableHlo.binary main_arg10 main_v6 main_v7 (addi : (⟨S500000, .i32⟩ : BufTy).Contents (Elt F) → (⟨S500000, .i32⟩ : BufTy).Contents (Elt F) → (⟨S500000, .i32⟩ : BufTy).Contents (Elt F)),
    StableHlo.ternary main_v5 main_v7 main_arg10 main_v8 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v8 main_v9 (broadcastInDim S500000x1 ![0] bcast_S500000_S500000x1_0 : (⟨S500000, .i32⟩ : BufTy).Contents (Elt F) → (⟨S500000x1, .i32⟩ : BufTy).Contents (Elt F)),
    StableHlo.binary main_v3 main_v9 main_v10 ((fun x i => Host.gather gather_S11x128_S500000x1_S500000x128_1_0_n_n_0_1_1128 x i) : (⟨S11x128, .f32⟩ : BufTy).Contents (Elt F) → (⟨S500000x1, .i32⟩ : BufTy).Contents (Elt F) → (⟨S500000x128, .f32⟩ : BufTy).Contents (Elt F)),
    StableHlo.unary main_arg2 main_v11 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v11 main_v12 rfl shapeCasts_S1x128x128_S128x128,
    StableHlo.nullary main_c_1 (constantI S_ 32 0#32),
    StableHlo.unary main_c_1 main_v13 (broadcastInDim S500000 ![] bcast_S_S500000 : (⟨S_, .i32⟩ : BufTy).Contents (Elt F) → (⟨S500000, .i32⟩ : BufTy).Contents (Elt F)),
    StableHlo.binary main_arg9 main_v13 main_v14 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 100000#32),
    StableHlo.unary main_c_2 main_v15 (broadcastInDim S500000 ![] bcast_S_S500000 : (⟨S_, .i32⟩ : BufTy).Contents (Elt F) → (⟨S500000, .i32⟩ : BufTy).Contents (Elt F)),
    StableHlo.binary main_arg9 main_v15 main_v16 (addi : (⟨S500000, .i32⟩ : BufTy).Contents (Elt F) → (⟨S500000, .i32⟩ : BufTy).Contents (Elt F) → (⟨S500000, .i32⟩ : BufTy).Contents (Elt F)),
    StableHlo.ternary main_v14 main_v16 main_arg9 main_v17 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v17 main_v18 (broadcastInDim S500000x1 ![0] bcast_S500000_S500000x1_0 : (⟨S500000, .i32⟩ : BufTy).Contents (Elt F) → (⟨S500000x1, .i32⟩ : BufTy).Contents (Elt F)),
    StableHlo.binary main_arg0 main_v18 main_v19 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.binary main_v19 main_v10 main_v20 (mulf : (⟨S500000x128, .f32⟩ : BufTy).Contents (Elt F) → (⟨S500000x128, .f32⟩ : BufTy).Contents (Elt F) → (⟨S500000x128, .f32⟩ : BufTy).Contents (Elt F)),
    StableHlo.binary main_v20 main_v12 main_v21 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.nullary main_cst_3 (constant S_ .f32 0x00000000#32),
    StableHlo.unary main_cst_3 main_v22 (broadcastInDim S100000 ![] bcast_S_S100000 : (⟨S_, .f32⟩ : BufTy).Contents (Elt F) → (⟨S100000, .f32⟩ : BufTy).Contents (Elt F)),
    StableHlo.nullary main_c_4 (constantI S_ 32 0#32),
    StableHlo.unary main_c_4 main_v23 (broadcastInDim S500000 ![] bcast_S_S500000 : (⟨S_, .i32⟩ : BufTy).Contents (Elt F) → (⟨S500000, .i32⟩ : BufTy).Contents (Elt F)),
    StableHlo.binary main_arg8 main_v23 main_v24 (cmpi .slt : (⟨S500000, .i32⟩ : BufTy).Contents (Elt F) → (⟨S500000, .i32⟩ : BufTy).Contents (Elt F) → (⟨S500000, .i1⟩ : BufTy).Contents (Elt F)),
    StableHlo.nullary main_c_5 (constantI S_ 32 100000#32),
    StableHlo.unary main_c_5 main_v25 (broadcastInDim S500000 ![] bcast_S_S500000 : (⟨S_, .i32⟩ : BufTy).Contents (Elt F) → (⟨S500000, .i32⟩ : BufTy).Contents (Elt F)),
    StableHlo.binary main_arg8 main_v25 main_v26 (addi : (⟨S500000, .i32⟩ : BufTy).Contents (Elt F) → (⟨S500000, .i32⟩ : BufTy).Contents (Elt F) → (⟨S500000, .i32⟩ : BufTy).Contents (Elt F)),
    StableHlo.ternary main_v24 main_v26 main_arg8 main_v27 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v27 main_v28 (broadcastInDim S500000x1 ![0] bcast_S500000_S500000x1_0 : (⟨S500000, .i32⟩ : BufTy).Contents (Elt F) → (⟨S500000x1, .i32⟩ : BufTy).Contents (Elt F)),
    StableHlo.ternary main_v22 main_v28 main_v0 main_v29 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_6 (constant S_ .f32 0x00000000#32),
    StableHlo.unary main_cst_6 main_v30 (broadcastInDim S100000 ![] bcast_S_S100000 : (⟨S_, .f32⟩ : BufTy).Contents (Elt F) → (⟨S100000, .f32⟩ : BufTy).Contents (Elt F)),
    StableHlo.binary main_v29 main_v30 main_v31 (cmpf .ogt : (⟨S100000, .f32⟩ : BufTy).Contents (Elt F) → (⟨S100000, .f32⟩ : BufTy).Contents (Elt F) → (⟨S100000, .i1⟩ : BufTy).Contents (Elt F)),
    StableHlo.unary main_v29 main_v32 (Host.rsqrt : (⟨S100000, .f32⟩ : BufTy).Contents (Elt F) → (⟨S100000, .f32⟩ : BufTy).Contents (Elt F)),
    StableHlo.nullary main_cst_7 (constant S_ .f32 0x00000000#32),
    StableHlo.TRef.unary (.of main_cst_7 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v31 : StableHlo.TRef sig ⟨S100000, .i1⟩) (.of main_v32 : StableHlo.TRef sig ⟨S100000, .f32⟩) (.of main_call0_v1 : StableHlo.TRef sig ⟨S100000, .f32⟩) (.of main_v33 : StableHlo.TRef sig ⟨S100000, .f32⟩) select,
    StableHlo.nullary main_c_8 (constantI S_ 32 0#32),
    StableHlo.unary main_c_8 main_v34 (broadcastInDim S500000 ![] bcast_S_S500000 : (⟨S_, .i32⟩ : BufTy).Contents (Elt F) → (⟨S500000, .i32⟩ : BufTy).Contents (Elt F)),
    StableHlo.binary main_arg8 main_v34 main_v35 (cmpi .slt : (⟨S500000, .i32⟩ : BufTy).Contents (Elt F) → (⟨S500000, .i32⟩ : BufTy).Contents (Elt F) → (⟨S500000, .i1⟩ : BufTy).Contents (Elt F)),
    StableHlo.nullary main_c_9 (constantI S_ 32 100000#32),
    StableHlo.unary main_c_9 main_v36 (broadcastInDim S500000 ![] bcast_S_S500000 : (⟨S_, .i32⟩ : BufTy).Contents (Elt F) → (⟨S500000, .i32⟩ : BufTy).Contents (Elt F)),
    StableHlo.binary main_arg8 main_v36 main_v37 (addi : (⟨S500000, .i32⟩ : BufTy).Contents (Elt F) → (⟨S500000, .i32⟩ : BufTy).Contents (Elt F) → (⟨S500000, .i32⟩ : BufTy).Contents (Elt F)),
    StableHlo.ternary main_v35 main_v37 main_arg8 main_v38 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v38 main_v39 (broadcastInDim S500000x1 ![0] bcast_S500000_S500000x1_0 : (⟨S500000, .i32⟩ : BufTy).Contents (Elt F) → (⟨S500000x1, .i32⟩ : BufTy).Contents (Elt F)),
    StableHlo.binary main_v33 main_v39 main_v40 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    StableHlo.nullary main_c_10 (constantI S_ 32 0#32),
    StableHlo.unary main_c_10 main_v41 (broadcastInDim S500000 ![] bcast_S_S500000 : (⟨S_, .i32⟩ : BufTy).Contents (Elt F) → (⟨S500000, .i32⟩ : BufTy).Contents (Elt F)),
    StableHlo.binary main_arg9 main_v41 main_v42 (cmpi .slt : (⟨S500000, .i32⟩ : BufTy).Contents (Elt F) → (⟨S500000, .i32⟩ : BufTy).Contents (Elt F) → (⟨S500000, .i1⟩ : BufTy).Contents (Elt F)),
    StableHlo.nullary main_c_11 (constantI S_ 32 100000#32),
    StableHlo.unary main_c_11 main_v43 (broadcastInDim S500000 ![] bcast_S_S500000 : (⟨S_, .i32⟩ : BufTy).Contents (Elt F) → (⟨S500000, .i32⟩ : BufTy).Contents (Elt F)),
    StableHlo.binary main_arg9 main_v43 main_v44 (addi : (⟨S500000, .i32⟩ : BufTy).Contents (Elt F) → (⟨S500000, .i32⟩ : BufTy).Contents (Elt F) → (⟨S500000, .i32⟩ : BufTy).Contents (Elt F)),
    StableHlo.ternary main_v42 main_v44 main_arg9 main_v45 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ]

/-- Window 1 of @main: its 62 operations in order, calls unfolded. -/
abbrev p1 : List (HloOp τ sig (Elt F)) :=
  [ StableHlo.unary main_v45 main_v46 (broadcastInDim S500000x1 ![0] bcast_S500000_S500000x1_0 : (⟨S500000, .i32⟩ : BufTy).Contents (Elt F) → (⟨S500000x1, .i32⟩ : BufTy).Contents (Elt F)),
    StableHlo.binary main_v33 main_v46 main_v47 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    StableHlo.binary main_v40 main_v47 main_v48 (mulf : (⟨S500000, .f32⟩ : BufTy).Contents (Elt F) → (⟨S500000, .f32⟩ : BufTy).Contents (Elt F) → (⟨S500000, .f32⟩ : BufTy).Contents (Elt F)),
    StableHlo.unary main_v48 main_v49 (broadcastInDim S500000x1 ![0] bcast_S500000_S500000x1_0 : (⟨S500000, .f32⟩ : BufTy).Contents (Elt F) → (⟨S500000x1, .f32⟩ : BufTy).Contents (Elt F)),
    StableHlo.unary main_v49 main_v50 (broadcastInDim S500000x128 ![0, 1] bcast_S500000x1_S500000x128_0_1 : (⟨S500000x1, .f32⟩ : BufTy).Contents (Elt F) → (⟨S500000x128, .f32⟩ : BufTy).Contents (Elt F)),
    StableHlo.binary main_v21 main_v50 main_v51 (mulf : (⟨S500000x128, .f32⟩ : BufTy).Contents (Elt F) → (⟨S500000x128, .f32⟩ : BufTy).Contents (Elt F) → (⟨S500000x128, .f32⟩ : BufTy).Contents (Elt F)),
    StableHlo.nullary main_cst_12 (constant S_ .f32 0x00000000#32),
    StableHlo.unary main_cst_12 main_v52 (broadcastInDim S100000x128 ![] bcast_S_S100000x128 : (⟨S_, .f32⟩ : BufTy).Contents (Elt F) → (⟨S100000x128, .f32⟩ : BufTy).Contents (Elt F)),
    StableHlo.nullary main_c_13 (constantI S_ 32 0#32),
    StableHlo.unary main_c_13 main_v53 (broadcastInDim S500000 ![] bcast_S_S500000 : (⟨S_, .i32⟩ : BufTy).Contents (Elt F) → (⟨S500000, .i32⟩ : BufTy).Contents (Elt F)),
    StableHlo.binary main_arg8 main_v53 main_v54 (cmpi .slt : (⟨S500000, .i32⟩ : BufTy).Contents (Elt F) → (⟨S500000, .i32⟩ : BufTy).Contents (Elt F) → (⟨S500000, .i1⟩ : BufTy).Contents (Elt F)),
    StableHlo.nullary main_c_14 (constantI S_ 32 100000#32),
    StableHlo.unary main_c_14 main_v55 (broadcastInDim S500000 ![] bcast_S_S500000 : (⟨S_, .i32⟩ : BufTy).Contents (Elt F) → (⟨S500000, .i32⟩ : BufTy).Contents (Elt F)),
    StableHlo.binary main_arg8 main_v55 main_v56 (addi : (⟨S500000, .i32⟩ : BufTy).Contents (Elt F) → (⟨S500000, .i32⟩ : BufTy).Contents (Elt F) → (⟨S500000, .i32⟩ : BufTy).Contents (Elt F)),
    StableHlo.ternary main_v54 main_v56 main_arg8 main_v57 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v57 main_v58 (broadcastInDim S500000x1 ![0] bcast_S500000_S500000x1_0 : (⟨S500000, .i32⟩ : BufTy).Contents (Elt F) → (⟨S500000x1, .i32⟩ : BufTy).Contents (Elt F)),
    StableHlo.ternary main_v52 main_v58 main_v51 main_v59 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.unary main_arg3 main_v60 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v60 main_v61 rfl shapeCasts_S1x128x128_S128x128,
    StableHlo.nullary main_c_15 (constantI S_ 32 0#32),
    StableHlo.unary main_c_15 main_v62 (broadcastInDim S500000 ![] bcast_S_S500000 : (⟨S_, .i32⟩ : BufTy).Contents (Elt F) → (⟨S500000, .i32⟩ : BufTy).Contents (Elt F)),
    StableHlo.binary main_arg8 main_v62 main_v63 (cmpi .slt : (⟨S500000, .i32⟩ : BufTy).Contents (Elt F) → (⟨S500000, .i32⟩ : BufTy).Contents (Elt F) → (⟨S500000, .i1⟩ : BufTy).Contents (Elt F)),
    StableHlo.nullary main_c_16 (constantI S_ 32 100000#32),
    StableHlo.unary main_c_16 main_v64 (broadcastInDim S500000 ![] bcast_S_S500000 : (⟨S_, .i32⟩ : BufTy).Contents (Elt F) → (⟨S500000, .i32⟩ : BufTy).Contents (Elt F)),
    StableHlo.binary main_arg8 main_v64 main_v65 (addi : (⟨S500000, .i32⟩ : BufTy).Contents (Elt F) → (⟨S500000, .i32⟩ : BufTy).Contents (Elt F) → (⟨S500000, .i32⟩ : BufTy).Contents (Elt F)),
    StableHlo.ternary main_v63 main_v65 main_arg8 main_v66 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v66 main_v67 (broadcastInDim S500000x1 ![0] bcast_S500000_S500000x1_0 : (⟨S500000, .i32⟩ : BufTy).Contents (Elt F) → (⟨S500000x1, .i32⟩ : BufTy).Contents (Elt F)),
    StableHlo.binary main_arg0 main_v67 main_v68 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.binary main_v68 main_v10 main_v69 (mulf : (⟨S500000x128, .f32⟩ : BufTy).Contents (Elt F) → (⟨S500000x128, .f32⟩ : BufTy).Contents (Elt F) → (⟨S500000x128, .f32⟩ : BufTy).Contents (Elt F)),
    StableHlo.binary main_v69 main_v61 main_v70 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.nullary main_cst_17 (constant S_ .f32 0x00000000#32),
    StableHlo.unary main_cst_17 main_v71 (broadcastInDim S100000 ![] bcast_S_S100000 : (⟨S_, .f32⟩ : BufTy).Contents (Elt F) → (⟨S100000, .f32⟩ : BufTy).Contents (Elt F)),
    StableHlo.nullary main_c_18 (constantI S_ 32 0#32),
    StableHlo.unary main_c_18 main_v72 (broadcastInDim S500000 ![] bcast_S_S500000 : (⟨S_, .i32⟩ : BufTy).Contents (Elt F) → (⟨S500000, .i32⟩ : BufTy).Contents (Elt F)),
    StableHlo.binary main_arg9 main_v72 main_v73 (cmpi .slt : (⟨S500000, .i32⟩ : BufTy).Contents (Elt F) → (⟨S500000, .i32⟩ : BufTy).Contents (Elt F) → (⟨S500000, .i1⟩ : BufTy).Contents (Elt F)),
    StableHlo.nullary main_c_19 (constantI S_ 32 100000#32),
    StableHlo.unary main_c_19 main_v74 (broadcastInDim S500000 ![] bcast_S_S500000 : (⟨S_, .i32⟩ : BufTy).Contents (Elt F) → (⟨S500000, .i32⟩ : BufTy).Contents (Elt F)),
    StableHlo.binary main_arg9 main_v74 main_v75 (addi : (⟨S500000, .i32⟩ : BufTy).Contents (Elt F) → (⟨S500000, .i32⟩ : BufTy).Contents (Elt F) → (⟨S500000, .i32⟩ : BufTy).Contents (Elt F)),
    StableHlo.ternary main_v73 main_v75 main_arg9 main_v76 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v76 main_v77 (broadcastInDim S500000x1 ![0] bcast_S500000_S500000x1_0 : (⟨S500000, .i32⟩ : BufTy).Contents (Elt F) → (⟨S500000x1, .i32⟩ : BufTy).Contents (Elt F)),
    StableHlo.ternary main_v71 main_v77 main_v0 main_v78 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_20 (constant S_ .f32 0x00000000#32),
    StableHlo.unary main_cst_20 main_v79 (broadcastInDim S100000 ![] bcast_S_S100000 : (⟨S_, .f32⟩ : BufTy).Contents (Elt F) → (⟨S100000, .f32⟩ : BufTy).Contents (Elt F)),
    StableHlo.binary main_v78 main_v79 main_v80 (cmpf .ogt : (⟨S100000, .f32⟩ : BufTy).Contents (Elt F) → (⟨S100000, .f32⟩ : BufTy).Contents (Elt F) → (⟨S100000, .i1⟩ : BufTy).Contents (Elt F)),
    StableHlo.unary main_v78 main_v81 (Host.rsqrt : (⟨S100000, .f32⟩ : BufTy).Contents (Elt F) → (⟨S100000, .f32⟩ : BufTy).Contents (Elt F)),
    StableHlo.nullary main_cst_21 (constant S_ .f32 0x00000000#32),
    StableHlo.TRef.unary (.of main_cst_21 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.ternary (.of main_v80 : StableHlo.TRef sig ⟨S100000, .i1⟩) (.of main_v81 : StableHlo.TRef sig ⟨S100000, .f32⟩) (.of main_call1_v1 : StableHlo.TRef sig ⟨S100000, .f32⟩) (.of main_v82 : StableHlo.TRef sig ⟨S100000, .f32⟩) select,
    StableHlo.nullary main_c_22 (constantI S_ 32 0#32),
    StableHlo.unary main_c_22 main_v83 (broadcastInDim S500000 ![] bcast_S_S500000 : (⟨S_, .i32⟩ : BufTy).Contents (Elt F) → (⟨S500000, .i32⟩ : BufTy).Contents (Elt F)),
    StableHlo.binary main_arg9 main_v83 main_v84 (cmpi .slt : (⟨S500000, .i32⟩ : BufTy).Contents (Elt F) → (⟨S500000, .i32⟩ : BufTy).Contents (Elt F) → (⟨S500000, .i1⟩ : BufTy).Contents (Elt F)),
    StableHlo.nullary main_c_23 (constantI S_ 32 100000#32),
    StableHlo.unary main_c_23 main_v85 (broadcastInDim S500000 ![] bcast_S_S500000 : (⟨S_, .i32⟩ : BufTy).Contents (Elt F) → (⟨S500000, .i32⟩ : BufTy).Contents (Elt F)),
    StableHlo.binary main_arg9 main_v85 main_v86 (addi : (⟨S500000, .i32⟩ : BufTy).Contents (Elt F) → (⟨S500000, .i32⟩ : BufTy).Contents (Elt F) → (⟨S500000, .i32⟩ : BufTy).Contents (Elt F)),
    StableHlo.ternary main_v84 main_v86 main_arg9 main_v87 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v87 main_v88 (broadcastInDim S500000x1 ![0] bcast_S500000_S500000x1_0 : (⟨S500000, .i32⟩ : BufTy).Contents (Elt F) → (⟨S500000x1, .i32⟩ : BufTy).Contents (Elt F)),
    StableHlo.binary main_v82 main_v88 main_v89 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    StableHlo.nullary main_c_24 (constantI S_ 32 0#32),
    StableHlo.unary main_c_24 main_v90 (broadcastInDim S500000 ![] bcast_S_S500000 : (⟨S_, .i32⟩ : BufTy).Contents (Elt F) → (⟨S500000, .i32⟩ : BufTy).Contents (Elt F)),
    StableHlo.binary main_arg8 main_v90 main_v91 (cmpi .slt : (⟨S500000, .i32⟩ : BufTy).Contents (Elt F) → (⟨S500000, .i32⟩ : BufTy).Contents (Elt F) → (⟨S500000, .i1⟩ : BufTy).Contents (Elt F)),
    StableHlo.nullary main_c_25 (constantI S_ 32 100000#32) ]

/-- Window 2 of @main: its 81 operations in order, calls unfolded. -/
abbrev p2 : List (HloOp τ sig (Elt F)) :=
  [ StableHlo.unary main_c_25 main_v92 (broadcastInDim S500000 ![] bcast_S_S500000 : (⟨S_, .i32⟩ : BufTy).Contents (Elt F) → (⟨S500000, .i32⟩ : BufTy).Contents (Elt F)),
    StableHlo.binary main_arg8 main_v92 main_v93 (addi : (⟨S500000, .i32⟩ : BufTy).Contents (Elt F) → (⟨S500000, .i32⟩ : BufTy).Contents (Elt F) → (⟨S500000, .i32⟩ : BufTy).Contents (Elt F)),
    StableHlo.ternary main_v91 main_v93 main_arg8 main_v94 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v94 main_v95 (broadcastInDim S500000x1 ![0] bcast_S500000_S500000x1_0 : (⟨S500000, .i32⟩ : BufTy).Contents (Elt F) → (⟨S500000x1, .i32⟩ : BufTy).Contents (Elt F)),
    StableHlo.binary main_v82 main_v95 main_v96 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    StableHlo.binary main_v89 main_v96 main_v97 (mulf : (⟨S500000, .f32⟩ : BufTy).Contents (Elt F) → (⟨S500000, .f32⟩ : BufTy).Contents (Elt F) → (⟨S500000, .f32⟩ : BufTy).Contents (Elt F)),
    StableHlo.unary main_v97 main_v98 (broadcastInDim S500000x1 ![0] bcast_S500000_S500000x1_0 : (⟨S500000, .f32⟩ : BufTy).Contents (Elt F) → (⟨S500000x1, .f32⟩ : BufTy).Contents (Elt F)),
    StableHlo.unary main_v98 main_v99 (broadcastInDim S500000x128 ![0, 1] bcast_S500000x1_S500000x128_0_1 : (⟨S500000x1, .f32⟩ : BufTy).Contents (Elt F) → (⟨S500000x128, .f32⟩ : BufTy).Contents (Elt F)),
    StableHlo.binary main_v70 main_v99 main_v100 (mulf : (⟨S500000x128, .f32⟩ : BufTy).Contents (Elt F) → (⟨S500000x128, .f32⟩ : BufTy).Contents (Elt F) → (⟨S500000x128, .f32⟩ : BufTy).Contents (Elt F)),
    StableHlo.nullary main_cst_26 (constant S_ .f32 0x00000000#32),
    StableHlo.unary main_cst_26 main_v101 (broadcastInDim S100000x128 ![] bcast_S_S100000x128 : (⟨S_, .f32⟩ : BufTy).Contents (Elt F) → (⟨S100000x128, .f32⟩ : BufTy).Contents (Elt F)),
    StableHlo.nullary main_c_27 (constantI S_ 32 0#32),
    StableHlo.unary main_c_27 main_v102 (broadcastInDim S500000 ![] bcast_S_S500000 : (⟨S_, .i32⟩ : BufTy).Contents (Elt F) → (⟨S500000, .i32⟩ : BufTy).Contents (Elt F)),
    StableHlo.binary main_arg9 main_v102 main_v103 (cmpi .slt : (⟨S500000, .i32⟩ : BufTy).Contents (Elt F) → (⟨S500000, .i32⟩ : BufTy).Contents (Elt F) → (⟨S500000, .i1⟩ : BufTy).Contents (Elt F)),
    StableHlo.nullary main_c_28 (constantI S_ 32 100000#32),
    StableHlo.unary main_c_28 main_v104 (broadcastInDim S500000 ![] bcast_S_S500000 : (⟨S_, .i32⟩ : BufTy).Contents (Elt F) → (⟨S500000, .i32⟩ : BufTy).Contents (Elt F)),
    StableHlo.binary main_arg9 main_v104 main_v105 (addi : (⟨S500000, .i32⟩ : BufTy).Contents (Elt F) → (⟨S500000, .i32⟩ : BufTy).Contents (Elt F) → (⟨S500000, .i32⟩ : BufTy).Contents (Elt F)),
    StableHlo.ternary main_v103 main_v105 main_arg9 main_v106 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v106 main_v107 (broadcastInDim S500000x1 ![0] bcast_S500000_S500000x1_0 : (⟨S500000, .i32⟩ : BufTy).Contents (Elt F) → (⟨S500000x1, .i32⟩ : BufTy).Contents (Elt F)),
    StableHlo.ternary main_v101 main_v107 main_v100 main_v108 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.unary main_arg6 main_v109 ((extractStridedSlice S1x1x128 ![0, 0, 0] · slices_S2x1x128_S1x1x128_0_0_0) : (⟨S2x1x128, .f32⟩ : BufTy).Contents (Elt F) → (⟨S1x1x128, .f32⟩ : BufTy).Contents (Elt F)),
    StableHlo.reshape main_v109 main_v110 rfl shapeCasts_S1x1x128_S1x128,
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_arg0 main_v111 main_v112 (mulf : (⟨S100000x128, .f32⟩ : BufTy).Contents (Elt F) → (⟨S100000x128, .f32⟩ : BufTy).Contents (Elt F) → (⟨S100000x128, .f32⟩ : BufTy).Contents (Elt F)),
    StableHlo.unary main_arg4 main_v113 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v113 main_v114 rfl shapeCasts_S1x128x128_S128x128,
    StableHlo.binary main_v112 main_v114 main_v115 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v59 main_v108 main_v116 (addf : (⟨S100000x128, .f32⟩ : BufTy).Contents (Elt F) → (⟨S100000x128, .f32⟩ : BufTy).Contents (Elt F) → (⟨S100000x128, .f32⟩ : BufTy).Contents (Elt F)),
    StableHlo.binary main_v116 main_v115 main_v117 (addf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3EAAAAAB#32),
    StableHlo.unary main_cst_29 main_v118 (broadcastInDim S100000x128 ![] bcast_S_S100000x128 : (⟨S_, .f32⟩ : BufTy).Contents (Elt F) → (⟨S100000x128, .f32⟩ : BufTy).Contents (Elt F)),
    StableHlo.binary main_v117 main_v118 main_v119 (mulf : (⟨S100000x128, .f32⟩ : BufTy).Contents (Elt F) → (⟨S100000x128, .f32⟩ : BufTy).Contents (Elt F) → (⟨S100000x128, .f32⟩ : BufTy).Contents (Elt F)),
    StableHlo.unary main_arg7 main_v120 ((extractStridedSlice S1x128 ![0, 0] · slices_S2x128_S1x128_0_0) : (⟨S2x128, .f32⟩ : BufTy).Contents (Elt F) → (⟨S1x128, .f32⟩ : BufTy).Contents (Elt F)),
    StableHlo.reshape main_v120 main_v121 rfl shapeCasts_S1x128_S128,
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S100000x128 ![0, 1] bcast_S1x128_S100000x128_0_1 : (⟨S1x128, .f32⟩ : BufTy).Contents (Elt F) → (⟨S100000x128, .f32⟩ : BufTy).Contents (Elt F)),
    StableHlo.binary main_v119 main_v123 main_v124 (addf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x00000000#32),
    StableHlo.binary main_v124 main_cst_30 main_v125 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_31 (constant S_ .f32 0x47C35000#32),
    StableHlo.unary main_cst_31 main_v126 (broadcastInDim S128 ![] bcast_S_S128 : (⟨S_, .f32⟩ : BufTy).Contents (Elt F) → (⟨S128, .f32⟩ : BufTy).Contents (Elt F)),
    StableHlo.binary main_v125 main_v126 main_v127 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary (.of main_call2_cst : StableHlo.TRef sig ⟨S_, .f32⟩) (constant S_ .f32 0x00000000#32),
    StableHlo.TRef.binary (.of main_v124 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1),
    StableHlo.TRef.binary (.of main_v124 : StableHlo.TRef sig ⟨S100000x128, .f32⟩) (.of main_call2_v4 : StableHlo.TRef sig ⟨S100000x128, .f32⟩) (.of main_call2_v5 : StableHlo.TRef sig ⟨S100000x128, .f32⟩) subf,
    StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf,
    StableHlo.TRef.unary (.of main_c_32 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v128 : StableHlo.TRef sig ⟨S128, .f32⟩) (fun p a b => select (broadcastInDim S128 ![] bcast_S_S128 p) a b),
    StableHlo.unary main_v127 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v130 main_v131 (subf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x3727C5AC#32),
    StableHlo.unary main_cst_33 main_v132 (broadcastInDim S128 ![] bcast_S_S128 : (⟨S_, .f32⟩ : BufTy).Contents (Elt F) → (⟨S128, .f32⟩ : BufTy).Contents (Elt F)),
    StableHlo.binary main_v128 main_v132 main_v133 (addf : (⟨S128, .f32⟩ : BufTy).Contents (Elt F) → (⟨S128, .f32⟩ : BufTy).Contents (Elt F) → (⟨S128, .f32⟩ : BufTy).Contents (Elt F)),
    StableHlo.unary main_v133 main_v134 (Host.rsqrt : (⟨S128, .f32⟩ : BufTy).Contents (Elt F) → (⟨S128, .f32⟩ : BufTy).Contents (Elt F)),
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v136 main_v137 (mulf : (⟨S100000x128, .f32⟩ : BufTy).Contents (Elt F) → (⟨S100000x128, .f32⟩ : BufTy).Contents (Elt F) → (⟨S100000x128, .f32⟩ : BufTy).Contents (Elt F)),
    StableHlo.unary main_v137 main_v138 (Host.tanh : (⟨S100000x128, .f32⟩ : BufTy).Contents (Elt F) → (⟨S100000x128, .f32⟩ : BufTy).Contents (Elt F)),
    StableHlo.unary main_arg5 main_v139 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v139 main_v140 rfl shapeCasts_S1x128x128_S128x128,
    StableHlo.binary main_v3 main_v140 main_v141 ((fun l r => Host.dotGeneral dot_S11x128_S128x128_S11x128_1_0_0_1_n_n none l r) : (⟨S11x128, .f32⟩ : BufTy).Contents (Elt F) → (⟨S128x128, .f32⟩ : BufTy).Contents (Elt F) → (⟨S11x128, .f32⟩ : BufTy).Contents (Elt F)),
    StableHlo.unary main_v141 main_v142 ((extractStridedSlice S10x128 ![0, 0] · slices_S11x128_S10x128_0_0) : (⟨S11x128, .f32⟩ : BufTy).Contents (Elt F) → (⟨S10x128, .f32⟩ : BufTy).Contents (Elt F)),
    StableHlo.unary main_arg6 main_v143 ((extractStridedSlice S1x1x128 ![1, 0, 0] · slices_S2x1x128_S1x1x128_1_0_0) : (⟨S2x1x128, .f32⟩ : BufTy).Contents (Elt F) → (⟨S1x1x128, .f32⟩ : BufTy).Contents (Elt F)) ]

/-- Window 3 of @main: its 62 operations in order, calls unfolded. -/
abbrev p3 : List (HloOp τ sig (Elt F)) :=
  [ StableHlo.reshape main_v143 main_v144 rfl shapeCasts_S1x1x128_S1x128,
    StableHlo.binary main_v142 main_v144 main_v145 ((fun a b => concatenate S11x128 0 [⟨S10x128, a⟩, ⟨S1x128, b⟩] concatenates_S10x128_S1x128_S11x128_d0) : (⟨S10x128, .f32⟩ : BufTy).Contents (Elt F) → (⟨S1x128, .f32⟩ : BufTy).Contents (Elt F) → (⟨S11x128, .f32⟩ : BufTy).Contents (Elt F)),
    StableHlo.nullary main_c_34 (constantI S_ 32 0#32),
    StableHlo.unary main_c_34 main_v146 (broadcastInDim S500000 ![] bcast_S_S500000 : (⟨S_, .i32⟩ : BufTy).Contents (Elt F) → (⟨S500000, .i32⟩ : BufTy).Contents (Elt F)),
    StableHlo.binary main_arg10 main_v146 main_v147 (cmpi .slt : (⟨S500000, .i32⟩ : BufTy).Contents (Elt F) → (⟨S500000, .i32⟩ : BufTy).Contents (Elt F) → (⟨S500000, .i1⟩ : BufTy).Contents (Elt F)),
    StableHlo.nullary main_c_35 (constantI S_ 32 11#32),
    StableHlo.unary main_c_35 main_v148 (broadcastInDim S500000 ![] bcast_S_S500000 : (⟨S_, .i32⟩ : BufTy).Contents (Elt F) → (⟨S500000, .i32⟩ : BufTy).Contents (Elt F)),
    StableHlo.binary main_arg10 main_v148 main_v149 (addi : (⟨S500000, .i32⟩ : BufTy).Contents (Elt F) → (⟨S500000, .i32⟩ : BufTy).Contents (Elt F) → (⟨S500000, .i32⟩ : BufTy).Contents (Elt F)),
    StableHlo.ternary main_v147 main_v149 main_arg10 main_v150 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v150 main_v151 (broadcastInDim S500000x1 ![0] bcast_S500000_S500000x1_0 : (⟨S500000, .i32⟩ : BufTy).Contents (Elt F) → (⟨S500000x1, .i32⟩ : BufTy).Contents (Elt F)),
    StableHlo.binary main_v145 main_v151 main_v152 ((fun x i => Host.gather gather_S11x128_S500000x1_S500000x128_1_0_n_n_0_1_1128 x i) : (⟨S11x128, .f32⟩ : BufTy).Contents (Elt F) → (⟨S500000x1, .i32⟩ : BufTy).Contents (Elt F) → (⟨S500000x128, .f32⟩ : BufTy).Contents (Elt F)),
    StableHlo.unary main_arg2 main_v153 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v153 main_v154 rfl shapeCasts_S1x128x128_S128x128,
    StableHlo.nullary main_c_36 (constantI S_ 32 0#32),
    StableHlo.unary main_c_36 main_v155 (broadcastInDim S500000 ![] bcast_S_S500000 : (⟨S_, .i32⟩ : BufTy).Contents (Elt F) → (⟨S500000, .i32⟩ : BufTy).Contents (Elt F)),
    StableHlo.binary main_arg9 main_v155 main_v156 (cmpi .slt : (⟨S500000, .i32⟩ : BufTy).Contents (Elt F) → (⟨S500000, .i32⟩ : BufTy).Contents (Elt F) → (⟨S500000, .i1⟩ : BufTy).Contents (Elt F)),
    StableHlo.nullary main_c_37 (constantI S_ 32 100000#32),
    StableHlo.unary main_c_37 main_v157 (broadcastInDim S500000 ![] bcast_S_S500000 : (⟨S_, .i32⟩ : BufTy).Contents (Elt F) → (⟨S500000, .i32⟩ : BufTy).Contents (Elt F)),
    StableHlo.binary main_arg9 main_v157 main_v158 (addi : (⟨S500000, .i32⟩ : BufTy).Contents (Elt F) → (⟨S500000, .i32⟩ : BufTy).Contents (Elt F) → (⟨S500000, .i32⟩ : BufTy).Contents (Elt F)),
    StableHlo.ternary main_v156 main_v158 main_arg9 main_v159 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v159 main_v160 (broadcastInDim S500000x1 ![0] bcast_S500000_S500000x1_0 : (⟨S500000, .i32⟩ : BufTy).Contents (Elt F) → (⟨S500000x1, .i32⟩ : BufTy).Contents (Elt F)),
    StableHlo.binary main_v138 main_v160 main_v161 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.binary main_v161 main_v152 main_v162 (mulf : (⟨S500000x128, .f32⟩ : BufTy).Contents (Elt F) → (⟨S500000x128, .f32⟩ : BufTy).Contents (Elt F) → (⟨S500000x128, .f32⟩ : BufTy).Contents (Elt F)),
    StableHlo.binary main_v162 main_v154 main_v163 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.nullary main_cst_38 (constant S_ .f32 0x00000000#32),
    StableHlo.unary main_cst_38 main_v164 (broadcastInDim S100000 ![] bcast_S_S100000 : (⟨S_, .f32⟩ : BufTy).Contents (Elt F) → (⟨S100000, .f32⟩ : BufTy).Contents (Elt F)),
    StableHlo.nullary main_c_39 (constantI S_ 32 0#32),
    StableHlo.unary main_c_39 main_v165 (broadcastInDim S500000 ![] bcast_S_S500000 : (⟨S_, .i32⟩ : BufTy).Contents (Elt F) → (⟨S500000, .i32⟩ : BufTy).Contents (Elt F)),
    StableHlo.binary main_arg8 main_v165 main_v166 (cmpi .slt : (⟨S500000, .i32⟩ : BufTy).Contents (Elt F) → (⟨S500000, .i32⟩ : BufTy).Contents (Elt F) → (⟨S500000, .i1⟩ : BufTy).Contents (Elt F)),
    StableHlo.nullary main_c_40 (constantI S_ 32 100000#32),
    StableHlo.unary main_c_40 main_v167 (broadcastInDim S500000 ![] bcast_S_S500000 : (⟨S_, .i32⟩ : BufTy).Contents (Elt F) → (⟨S500000, .i32⟩ : BufTy).Contents (Elt F)),
    StableHlo.binary main_arg8 main_v167 main_v168 (addi : (⟨S500000, .i32⟩ : BufTy).Contents (Elt F) → (⟨S500000, .i32⟩ : BufTy).Contents (Elt F) → (⟨S500000, .i32⟩ : BufTy).Contents (Elt F)),
    StableHlo.ternary main_v166 main_v168 main_arg8 main_v169 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v169 main_v170 (broadcastInDim S500000x1 ![0] bcast_S500000_S500000x1_0 : (⟨S500000, .i32⟩ : BufTy).Contents (Elt F) → (⟨S500000x1, .i32⟩ : BufTy).Contents (Elt F)),
    StableHlo.ternary main_v164 main_v170 main_v0 main_v171 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_41 (constant S_ .f32 0x00000000#32),
    StableHlo.unary main_cst_41 main_v172 (broadcastInDim S100000 ![] bcast_S_S100000 : (⟨S_, .f32⟩ : BufTy).Contents (Elt F) → (⟨S100000, .f32⟩ : BufTy).Contents (Elt F)),
    StableHlo.binary main_v171 main_v172 main_v173 (cmpf .ogt : (⟨S100000, .f32⟩ : BufTy).Contents (Elt F) → (⟨S100000, .f32⟩ : BufTy).Contents (Elt F) → (⟨S100000, .i1⟩ : BufTy).Contents (Elt F)),
    StableHlo.unary main_v171 main_v174 (Host.rsqrt : (⟨S100000, .f32⟩ : BufTy).Contents (Elt F) → (⟨S100000, .f32⟩ : BufTy).Contents (Elt F)),
    StableHlo.nullary main_cst_42 (constant S_ .f32 0x00000000#32),
    StableHlo.TRef.unary (.of main_cst_42 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S100000, .f32⟩) (broadcastInDim S100000 ![] bcast_S_S100000),
    StableHlo.TRef.ternary (.of main_v173 : StableHlo.TRef sig ⟨S100000, .i1⟩) (.of main_v174 : StableHlo.TRef sig ⟨S100000, .f32⟩) (.of main_call3_v1 : StableHlo.TRef sig ⟨S100000, .f32⟩) (.of main_v175 : StableHlo.TRef sig ⟨S100000, .f32⟩) select,
    StableHlo.nullary main_c_43 (constantI S_ 32 0#32),
    StableHlo.unary main_c_43 main_v176 (broadcastInDim S500000 ![] bcast_S_S500000 : (⟨S_, .i32⟩ : BufTy).Contents (Elt F) → (⟨S500000, .i32⟩ : BufTy).Contents (Elt F)),
    StableHlo.binary main_arg8 main_v176 main_v177 (cmpi .slt : (⟨S500000, .i32⟩ : BufTy).Contents (Elt F) → (⟨S500000, .i32⟩ : BufTy).Contents (Elt F) → (⟨S500000, .i1⟩ : BufTy).Contents (Elt F)),
    StableHlo.nullary main_c_44 (constantI S_ 32 100000#32),
    StableHlo.unary main_c_44 main_v178 (broadcastInDim S500000 ![] bcast_S_S500000 : (⟨S_, .i32⟩ : BufTy).Contents (Elt F) → (⟨S500000, .i32⟩ : BufTy).Contents (Elt F)),
    StableHlo.binary main_arg8 main_v178 main_v179 (addi : (⟨S500000, .i32⟩ : BufTy).Contents (Elt F) → (⟨S500000, .i32⟩ : BufTy).Contents (Elt F) → (⟨S500000, .i32⟩ : BufTy).Contents (Elt F)),
    StableHlo.ternary main_v177 main_v179 main_arg8 main_v180 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v180 main_v181 (broadcastInDim S500000x1 ![0] bcast_S500000_S500000x1_0 : (⟨S500000, .i32⟩ : BufTy).Contents (Elt F) → (⟨S500000x1, .i32⟩ : BufTy).Contents (Elt F)),
    StableHlo.binary main_v175 main_v181 main_v182 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    StableHlo.nullary main_c_45 (constantI S_ 32 0#32),
    StableHlo.unary main_c_45 main_v183 (broadcastInDim S500000 ![] bcast_S_S500000 : (⟨S_, .i32⟩ : BufTy).Contents (Elt F) → (⟨S500000, .i32⟩ : BufTy).Contents (Elt F)),
    StableHlo.binary main_arg9 main_v183 main_v184 (cmpi .slt : (⟨S500000, .i32⟩ : BufTy).Contents (Elt F) → (⟨S500000, .i32⟩ : BufTy).Contents (Elt F) → (⟨S500000, .i1⟩ : BufTy).Contents (Elt F)),
    StableHlo.nullary main_c_46 (constantI S_ 32 100000#32),
    StableHlo.unary main_c_46 main_v185 (broadcastInDim S500000 ![] bcast_S_S500000 : (⟨S_, .i32⟩ : BufTy).Contents (Elt F) → (⟨S500000, .i32⟩ : BufTy).Contents (Elt F)),
    StableHlo.binary main_arg9 main_v185 main_v186 (addi : (⟨S500000, .i32⟩ : BufTy).Contents (Elt F) → (⟨S500000, .i32⟩ : BufTy).Contents (Elt F) → (⟨S500000, .i32⟩ : BufTy).Contents (Elt F)),
    StableHlo.ternary main_v184 main_v186 main_arg9 main_v187 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v187 main_v188 (broadcastInDim S500000x1 ![0] bcast_S500000_S500000x1_0 : (⟨S500000, .i32⟩ : BufTy).Contents (Elt F) → (⟨S500000x1, .i32⟩ : BufTy).Contents (Elt F)),
    StableHlo.binary main_v175 main_v188 main_v189 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    StableHlo.binary main_v182 main_v189 main_v190 (mulf : (⟨S500000, .f32⟩ : BufTy).Contents (Elt F) → (⟨S500000, .f32⟩ : BufTy).Contents (Elt F) → (⟨S500000, .f32⟩ : BufTy).Contents (Elt F)) ]

/-- Window 4 of @main: its 62 operations in order, calls unfolded. -/
abbrev p4 : List (HloOp τ sig (Elt F)) :=
  [ StableHlo.unary main_v190 main_v191 (broadcastInDim S500000x1 ![0] bcast_S500000_S500000x1_0 : (⟨S500000, .f32⟩ : BufTy).Contents (Elt F) → (⟨S500000x1, .f32⟩ : BufTy).Contents (Elt F)),
    StableHlo.unary main_v191 main_v192 (broadcastInDim S500000x128 ![0, 1] bcast_S500000x1_S500000x128_0_1 : (⟨S500000x1, .f32⟩ : BufTy).Contents (Elt F) → (⟨S500000x128, .f32⟩ : BufTy).Contents (Elt F)),
    StableHlo.binary main_v163 main_v192 main_v193 (mulf : (⟨S500000x128, .f32⟩ : BufTy).Contents (Elt F) → (⟨S500000x128, .f32⟩ : BufTy).Contents (Elt F) → (⟨S500000x128, .f32⟩ : BufTy).Contents (Elt F)),
    StableHlo.nullary main_cst_47 (constant S_ .f32 0x00000000#32),
    StableHlo.unary main_cst_47 main_v194 (broadcastInDim S100000x128 ![] bcast_S_S100000x128 : (⟨S_, .f32⟩ : BufTy).Contents (Elt F) → (⟨S100000x128, .f32⟩ : BufTy).Contents (Elt F)),
    StableHlo.nullary main_c_48 (constantI S_ 32 0#32),
    StableHlo.unary main_c_48 main_v195 (broadcastInDim S500000 ![] bcast_S_S500000 : (⟨S_, .i32⟩ : BufTy).Contents (Elt F) → (⟨S500000, .i32⟩ : BufTy).Contents (Elt F)),
    StableHlo.binary main_arg8 main_v195 main_v196 (cmpi .slt : (⟨S500000, .i32⟩ : BufTy).Contents (Elt F) → (⟨S500000, .i32⟩ : BufTy).Contents (Elt F) → (⟨S500000, .i1⟩ : BufTy).Contents (Elt F)),
    StableHlo.nullary main_c_49 (constantI S_ 32 100000#32),
    StableHlo.unary main_c_49 main_v197 (broadcastInDim S500000 ![] bcast_S_S500000 : (⟨S_, .i32⟩ : BufTy).Contents (Elt F) → (⟨S500000, .i32⟩ : BufTy).Contents (Elt F)),
    StableHlo.binary main_arg8 main_v197 main_v198 (addi : (⟨S500000, .i32⟩ : BufTy).Contents (Elt F) → (⟨S500000, .i32⟩ : BufTy).Contents (Elt F) → (⟨S500000, .i32⟩ : BufTy).Contents (Elt F)),
    StableHlo.ternary main_v196 main_v198 main_arg8 main_v199 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v199 main_v200 (broadcastInDim S500000x1 ![0] bcast_S500000_S500000x1_0 : (⟨S500000, .i32⟩ : BufTy).Contents (Elt F) → (⟨S500000x1, .i32⟩ : BufTy).Contents (Elt F)),
    StableHlo.ternary main_v194 main_v200 main_v193 main_v201 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.unary main_arg3 main_v202 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v202 main_v203 rfl shapeCasts_S1x128x128_S128x128,
    StableHlo.nullary main_c_50 (constantI S_ 32 0#32),
    StableHlo.unary main_c_50 main_v204 (broadcastInDim S500000 ![] bcast_S_S500000 : (⟨S_, .i32⟩ : BufTy).Contents (Elt F) → (⟨S500000, .i32⟩ : BufTy).Contents (Elt F)),
    StableHlo.binary main_arg8 main_v204 main_v205 (cmpi .slt : (⟨S500000, .i32⟩ : BufTy).Contents (Elt F) → (⟨S500000, .i32⟩ : BufTy).Contents (Elt F) → (⟨S500000, .i1⟩ : BufTy).Contents (Elt F)),
    StableHlo.nullary main_c_51 (constantI S_ 32 100000#32),
    StableHlo.unary main_c_51 main_v206 (broadcastInDim S500000 ![] bcast_S_S500000 : (⟨S_, .i32⟩ : BufTy).Contents (Elt F) → (⟨S500000, .i32⟩ : BufTy).Contents (Elt F)),
    StableHlo.binary main_arg8 main_v206 main_v207 (addi : (⟨S500000, .i32⟩ : BufTy).Contents (Elt F) → (⟨S500000, .i32⟩ : BufTy).Contents (Elt F) → (⟨S500000, .i32⟩ : BufTy).Contents (Elt F)),
    StableHlo.ternary main_v205 main_v207 main_arg8 main_v208 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v208 main_v209 (broadcastInDim S500000x1 ![0] bcast_S500000_S500000x1_0 : (⟨S500000, .i32⟩ : BufTy).Contents (Elt F) → (⟨S500000x1, .i32⟩ : BufTy).Contents (Elt F)),
    StableHlo.binary main_v138 main_v209 main_v210 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.binary main_v210 main_v152 main_v211 (mulf : (⟨S500000x128, .f32⟩ : BufTy).Contents (Elt F) → (⟨S500000x128, .f32⟩ : BufTy).Contents (Elt F) → (⟨S500000x128, .f32⟩ : BufTy).Contents (Elt F)),
    StableHlo.binary main_v211 main_v203 main_v212 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.nullary main_cst_52 (constant S_ .f32 0x00000000#32),
    StableHlo.unary main_cst_52 main_v213 (broadcastInDim S100000 ![] bcast_S_S100000 : (⟨S_, .f32⟩ : BufTy).Contents (Elt F) → (⟨S100000, .f32⟩ : BufTy).Contents (Elt F)),
    StableHlo.nullary main_c_53 (constantI S_ 32 0#32),
    StableHlo.unary main_c_53 main_v214 (broadcastInDim S500000 ![] bcast_S_S500000 : (⟨S_, .i32⟩ : BufTy).Contents (Elt F) → (⟨S500000, .i32⟩ : BufTy).Contents (Elt F)),
    StableHlo.binary main_arg9 main_v214 main_v215 (cmpi .slt : (⟨S500000, .i32⟩ : BufTy).Contents (Elt F) → (⟨S500000, .i32⟩ : BufTy).Contents (Elt F) → (⟨S500000, .i1⟩ : BufTy).Contents (Elt F)),
    StableHlo.nullary main_c_54 (constantI S_ 32 100000#32),
    StableHlo.unary main_c_54 main_v216 (broadcastInDim S500000 ![] bcast_S_S500000 : (⟨S_, .i32⟩ : BufTy).Contents (Elt F) → (⟨S500000, .i32⟩ : BufTy).Contents (Elt F)),
    StableHlo.binary main_arg9 main_v216 main_v217 (addi : (⟨S500000, .i32⟩ : BufTy).Contents (Elt F) → (⟨S500000, .i32⟩ : BufTy).Contents (Elt F) → (⟨S500000, .i32⟩ : BufTy).Contents (Elt F)),
    StableHlo.ternary main_v215 main_v217 main_arg9 main_v218 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v218 main_v219 (broadcastInDim S500000x1 ![0] bcast_S500000_S500000x1_0 : (⟨S500000, .i32⟩ : BufTy).Contents (Elt F) → (⟨S500000x1, .i32⟩ : BufTy).Contents (Elt F)),
    StableHlo.ternary main_v213 main_v219 main_v0 main_v220 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_55 (constant S_ .f32 0x00000000#32),
    StableHlo.unary main_cst_55 main_v221 (broadcastInDim S100000 ![] bcast_S_S100000 : (⟨S_, .f32⟩ : BufTy).Contents (Elt F) → (⟨S100000, .f32⟩ : BufTy).Contents (Elt F)),
    StableHlo.binary main_v220 main_v221 main_v222 (cmpf .ogt : (⟨S100000, .f32⟩ : BufTy).Contents (Elt F) → (⟨S100000, .f32⟩ : BufTy).Contents (Elt F) → (⟨S100000, .i1⟩ : BufTy).Contents (Elt F)),
    StableHlo.unary main_v220 main_v223 (Host.rsqrt : (⟨S100000, .f32⟩ : BufTy).Contents (Elt F) → (⟨S100000, .f32⟩ : BufTy).Contents (Elt F)),
    StableHlo.nullary main_cst_56 (constant S_ .f32 0x00000000#32),
    StableHlo.TRef.unary (.of main_cst_56 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S100000, .f32⟩) (broadcastInDim S100000 ![] bcast_S_S100000),
    StableHlo.TRef.ternary (.of main_v222 : StableHlo.TRef sig ⟨S100000, .i1⟩) (.of main_v223 : StableHlo.TRef sig ⟨S100000, .f32⟩) (.of main_call4_v1 : StableHlo.TRef sig ⟨S100000, .f32⟩) (.of main_v224 : StableHlo.TRef sig ⟨S100000, .f32⟩) select,
    StableHlo.nullary main_c_57 (constantI S_ 32 0#32),
    StableHlo.unary main_c_57 main_v225 (broadcastInDim S500000 ![] bcast_S_S500000 : (⟨S_, .i32⟩ : BufTy).Contents (Elt F) → (⟨S500000, .i32⟩ : BufTy).Contents (Elt F)),
    StableHlo.binary main_arg9 main_v225 main_v226 (cmpi .slt : (⟨S500000, .i32⟩ : BufTy).Contents (Elt F) → (⟨S500000, .i32⟩ : BufTy).Contents (Elt F) → (⟨S500000, .i1⟩ : BufTy).Contents (Elt F)),
    StableHlo.nullary main_c_58 (constantI S_ 32 100000#32),
    StableHlo.unary main_c_58 main_v227 (broadcastInDim S500000 ![] bcast_S_S500000 : (⟨S_, .i32⟩ : BufTy).Contents (Elt F) → (⟨S500000, .i32⟩ : BufTy).Contents (Elt F)),
    StableHlo.binary main_arg9 main_v227 main_v228 (addi : (⟨S500000, .i32⟩ : BufTy).Contents (Elt F) → (⟨S500000, .i32⟩ : BufTy).Contents (Elt F) → (⟨S500000, .i32⟩ : BufTy).Contents (Elt F)),
    StableHlo.ternary main_v226 main_v228 main_arg9 main_v229 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v229 main_v230 (broadcastInDim S500000x1 ![0] bcast_S500000_S500000x1_0 : (⟨S500000, .i32⟩ : BufTy).Contents (Elt F) → (⟨S500000x1, .i32⟩ : BufTy).Contents (Elt F)),
    StableHlo.binary main_v224 main_v230 main_v231 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    StableHlo.nullary main_c_59 (constantI S_ 32 0#32),
    StableHlo.unary main_c_59 main_v232 (broadcastInDim S500000 ![] bcast_S_S500000 : (⟨S_, .i32⟩ : BufTy).Contents (Elt F) → (⟨S500000, .i32⟩ : BufTy).Contents (Elt F)),
    StableHlo.binary main_arg8 main_v232 main_v233 (cmpi .slt : (⟨S500000, .i32⟩ : BufTy).Contents (Elt F) → (⟨S500000, .i32⟩ : BufTy).Contents (Elt F) → (⟨S500000, .i1⟩ : BufTy).Contents (Elt F)),
    StableHlo.nullary main_c_60 (constantI S_ 32 100000#32),
    StableHlo.unary main_c_60 main_v234 (broadcastInDim S500000 ![] bcast_S_S500000 : (⟨S_, .i32⟩ : BufTy).Contents (Elt F) → (⟨S500000, .i32⟩ : BufTy).Contents (Elt F)),
    StableHlo.binary main_arg8 main_v234 main_v235 (addi : (⟨S500000, .i32⟩ : BufTy).Contents (Elt F) → (⟨S500000, .i32⟩ : BufTy).Contents (Elt F) → (⟨S500000, .i32⟩ : BufTy).Contents (Elt F)),
    StableHlo.ternary main_v233 main_v235 main_arg8 main_v236 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ]

/-- Window 5 of @main: its 77 operations in order, calls unfolded. -/
abbrev p5 : List (HloOp τ sig (Elt F)) :=
  [ StableHlo.unary main_v236 main_v237 (broadcastInDim S500000x1 ![0] bcast_S500000_S500000x1_0 : (⟨S500000, .i32⟩ : BufTy).Contents (Elt F) → (⟨S500000x1, .i32⟩ : BufTy).Contents (Elt F)),
    StableHlo.binary main_v224 main_v237 main_v238 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    StableHlo.binary main_v231 main_v238 main_v239 (mulf : (⟨S500000, .f32⟩ : BufTy).Contents (Elt F) → (⟨S500000, .f32⟩ : BufTy).Contents (Elt F) → (⟨S500000, .f32⟩ : BufTy).Contents (Elt F)),
    StableHlo.unary main_v239 main_v240 (broadcastInDim S500000x1 ![0] bcast_S500000_S500000x1_0 : (⟨S500000, .f32⟩ : BufTy).Contents (Elt F) → (⟨S500000x1, .f32⟩ : BufTy).Contents (Elt F)),
    StableHlo.unary main_v240 main_v241 (broadcastInDim S500000x128 ![0, 1] bcast_S500000x1_S500000x128_0_1 : (⟨S500000x1, .f32⟩ : BufTy).Contents (Elt F) → (⟨S500000x128, .f32⟩ : BufTy).Contents (Elt F)),
    StableHlo.binary main_v212 main_v241 main_v242 (mulf : (⟨S500000x128, .f32⟩ : BufTy).Contents (Elt F) → (⟨S500000x128, .f32⟩ : BufTy).Contents (Elt F) → (⟨S500000x128, .f32⟩ : BufTy).Contents (Elt F)),
    StableHlo.nullary main_cst_61 (constant S_ .f32 0x00000000#32),
    StableHlo.unary main_cst_61 main_v243 (broadcastInDim S100000x128 ![] bcast_S_S100000x128 : (⟨S_, .f32⟩ : BufTy).Contents (Elt F) → (⟨S100000x128, .f32⟩ : BufTy).Contents (Elt F)),
    StableHlo.nullary main_c_62 (constantI S_ 32 0#32),
    StableHlo.unary main_c_62 main_v244 (broadcastInDim S500000 ![] bcast_S_S500000 : (⟨S_, .i32⟩ : BufTy).Contents (Elt F) → (⟨S500000, .i32⟩ : BufTy).Contents (Elt F)),
    StableHlo.binary main_arg9 main_v244 main_v245 (cmpi .slt : (⟨S500000, .i32⟩ : BufTy).Contents (Elt F) → (⟨S500000, .i32⟩ : BufTy).Contents (Elt F) → (⟨S500000, .i1⟩ : BufTy).Contents (Elt F)),
    StableHlo.nullary main_c_63 (constantI S_ 32 100000#32),
    StableHlo.unary main_c_63 main_v246 (broadcastInDim S500000 ![] bcast_S_S500000 : (⟨S_, .i32⟩ : BufTy).Contents (Elt F) → (⟨S500000, .i32⟩ : BufTy).Contents (Elt F)),
    StableHlo.binary main_arg9 main_v246 main_v247 (addi : (⟨S500000, .i32⟩ : BufTy).Contents (Elt F) → (⟨S500000, .i32⟩ : BufTy).Contents (Elt F) → (⟨S500000, .i32⟩ : BufTy).Contents (Elt F)),
    StableHlo.ternary main_v245 main_v247 main_arg9 main_v248 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v248 main_v249 (broadcastInDim S500000x1 ![0] bcast_S500000_S500000x1_0 : (⟨S500000, .i32⟩ : BufTy).Contents (Elt F) → (⟨S500000x1, .i32⟩ : BufTy).Contents (Elt F)),
    StableHlo.ternary main_v243 main_v249 main_v242 main_v250 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.unary main_arg6 main_v251 ((extractStridedSlice S1x1x128 ![1, 0, 0] · slices_S2x1x128_S1x1x128_1_0_0) : (⟨S2x1x128, .f32⟩ : BufTy).Contents (Elt F) → (⟨S1x1x128, .f32⟩ : BufTy).Contents (Elt F)),
    StableHlo.reshape main_v251 main_v252 rfl shapeCasts_S1x1x128_S1x128,
    StableHlo.unary main_v252 main_v253 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v253 main_v254 (mulf : (⟨S100000x128, .f32⟩ : BufTy).Contents (Elt F) → (⟨S100000x128, .f32⟩ : BufTy).Contents (Elt F) → (⟨S100000x128, .f32⟩ : BufTy).Contents (Elt F)),
    StableHlo.unary main_arg4 main_v255 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v255 main_v256 rfl shapeCasts_S1x128x128_S128x128,
    StableHlo.binary main_v254 main_v256 main_v257 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v201 main_v250 main_v258 (addf : (⟨S100000x128, .f32⟩ : BufTy).Contents (Elt F) → (⟨S100000x128, .f32⟩ : BufTy).Contents (Elt F) → (⟨S100000x128, .f32⟩ : BufTy).Contents (Elt F)),
    StableHlo.binary main_v258 main_v257 main_v259 (addf : (⟨S100000x128, .f32⟩ : BufTy).Contents (Elt F) → (⟨S100000x128, .f32⟩ : BufTy).Contents (Elt F) → (⟨S100000x128, .f32⟩ : BufTy).Contents (Elt F)),
    StableHlo.nullary main_cst_64 (constant S_ .f32 0x3EAAAAAB#32),
    StableHlo.unary main_cst_64 main_v260 (broadcastInDim S100000x128 ![] bcast_S_S100000x128 : (⟨S_, .f32⟩ : BufTy).Contents (Elt F) → (⟨S100000x128, .f32⟩ : BufTy).Contents (Elt F)),
    StableHlo.binary main_v259 main_v260 main_v261 (mulf : (⟨S100000x128, .f32⟩ : BufTy).Contents (Elt F) → (⟨S100000x128, .f32⟩ : BufTy).Contents (Elt F) → (⟨S100000x128, .f32⟩ : BufTy).Contents (Elt F)),
    StableHlo.unary main_arg7 main_v262 ((extractStridedSlice S1x128 ![1, 0] · slices_S2x128_S1x128_1_0) : (⟨S2x128, .f32⟩ : BufTy).Contents (Elt F) → (⟨S1x128, .f32⟩ : BufTy).Contents (Elt F)),
    StableHlo.reshape main_v262 main_v263 rfl shapeCasts_S1x128_S128,
    StableHlo.unary main_v263 main_v264 (broadcastInDim S1x128 ![1] bcast_S128_S1x128_1 : (⟨S128, .f32⟩ : BufTy).Contents (Elt F) → (⟨S1x128, .f32⟩ : BufTy).Contents (Elt F)),
    StableHlo.unary main_v264 main_v265 (broadcastInDim S100000x128 ![0, 1] bcast_S1x128_S100000x128_0_1 : (⟨S1x128, .f32⟩ : BufTy).Contents (Elt F) → (⟨S100000x128, .f32⟩ : BufTy).Contents (Elt F)),
    StableHlo.binary main_v261 main_v265 main_v266 (addf : (⟨S100000x128, .f32⟩ : BufTy).Contents (Elt F) → (⟨S100000x128, .f32⟩ : BufTy).Contents (Elt F) → (⟨S100000x128, .f32⟩ : BufTy).Contents (Elt F)),
    StableHlo.nullary main_cst_65 (constant S_ .f32 0x00000000#32),
    StableHlo.binary main_v266 main_cst_65 main_v267 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_66 (constant S_ .f32 0x47C35000#32),
    StableHlo.unary main_cst_66 main_v268 (broadcastInDim S128 ![] bcast_S_S128 : (⟨S_, .f32⟩ : BufTy).Contents (Elt F) → (⟨S128, .f32⟩ : BufTy).Contents (Elt F)),
    StableHlo.binary main_v267 main_v268 main_v269 (Host.divf : (⟨S128, .f32⟩ : BufTy).Contents (Elt F) → (⟨S128, .f32⟩ : BufTy).Contents (Elt F) → (⟨S128, .f32⟩ : BufTy).Contents (Elt F)),
    StableHlo.nullary main_c_67 (constantI S_ 32 0#32),
    StableHlo.TRef.nullary (.of main_call5_cst : StableHlo.TRef sig ⟨S_, .f32⟩) (constant S_ .f32 0x00000000#32),
    StableHlo.TRef.binary (.of main_v266 : StableHlo.TRef sig ⟨S100000x128, .f32⟩) (.of main_call5_cst : StableHlo.TRef sig ⟨S_, .f32⟩) (.of main_call5_v0 : StableHlo.TRef sig ⟨S128, .f32⟩) (fun x v => Host.reduceAdd x v reducesTo_S100000x128_S128_d0 h_S_),
    StableHlo.TRef.unary (.of main_call5_v0 : StableHlo.TRef sig ⟨S128, .f32⟩) (.of main_call5_v1 : StableHlo.TRef sig ⟨S1x128, .f32⟩) (broadcastInDim S1x128 ![1] bcast_S128_S1x128_1),
    StableHlo.TRef.nullary (.of main_call5_cst_0 : StableHlo.TRef sig ⟨S_, .f32⟩) (constant S_ .f32 0x47C35000#32),
    StableHlo.TRef.unary (.of main_call5_cst_0 : StableHlo.TRef sig ⟨S_, .f32⟩) (.of main_call5_v2 : StableHlo.TRef sig ⟨S1x128, .f32⟩) (broadcastInDim S1x128 ![] bcast_S_S1x128),
    StableHlo.TRef.binary (.of main_call5_v1 : StableHlo.TRef sig ⟨S1x128, .f32⟩) (.of main_call5_v2 : StableHlo.TRef sig ⟨S1x128, .f32⟩) (.of main_call5_v3 : StableHlo.TRef sig ⟨S1x128, .f32⟩) Host.divf,
    StableHlo.TRef.unary (.of main_call5_v3 : StableHlo.TRef sig ⟨S1x128, .f32⟩) (.of main_call5_v4 : StableHlo.TRef sig ⟨S100000x128, .f32⟩) (broadcastInDim S100000x128 ![0, 1] bcast_S1x128_S100000x128_0_1),
    StableHlo.TRef.binary (.of main_v266 : StableHlo.TRef sig ⟨S100000x128, .f32⟩) (.of main_call5_v4 : StableHlo.TRef sig ⟨S100000x128, .f32⟩) (.of main_call5_v5 : StableHlo.TRef sig ⟨S100000x128, .f32⟩) subf,
    StableHlo.TRef.binary (.of main_call5_v5 : StableHlo.TRef sig ⟨S100000x128, .f32⟩) (.of main_call5_v5 : StableHlo.TRef sig ⟨S100000x128, .f32⟩) (.of main_call5_v6 : StableHlo.TRef sig ⟨S100000x128, .f32⟩) mulf,
    StableHlo.TRef.unary (.of main_c_67 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x47C35000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S100000x128, .f32⟩) (.of main_call5_cst_2 : StableHlo.TRef sig ⟨S_, .f32⟩) (.of main_call5_v9 : StableHlo.TRef sig ⟨S128, .f32⟩) (fun x v => Host.reduceAdd x v reducesTo_S100000x128_S128_d0 h_S_),
    StableHlo.TRef.unary (.of main_call5_v8 : StableHlo.TRef sig ⟨S_, .f32⟩) (.of main_call5_v10 : StableHlo.TRef sig ⟨S128, .f32⟩) (broadcastInDim S128 ![] bcast_S_S128),
    StableHlo.TRef.binary (.of main_call5_v9 : StableHlo.TRef sig ⟨S128, .f32⟩) (.of main_call5_v10 : StableHlo.TRef sig ⟨S128, .f32⟩) (.of main_call5_v11 : StableHlo.TRef sig ⟨S128, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S128, .f32⟩) (broadcastInDim S128 ![] bcast_S_S128),
    StableHlo.TRef.ternary (.of main_call5_v12 : StableHlo.TRef sig ⟨S_, .i1⟩) (.of main_call5_v11 : StableHlo.TRef sig ⟨S128, .f32⟩) (.of main_call5_call0_v1 : StableHlo.TRef sig ⟨S128, .f32⟩) (.of main_v270 : StableHlo.TRef sig ⟨S128, .f32⟩) (fun p a b => select (broadcastInDim S128 ![] bcast_S_S128 p) a b),
    StableHlo.unary main_v269 main_v271 (broadcastInDim S1x128 ![1] bcast_S128_S1x128_1 : (⟨S128, .f32⟩ : BufTy).Contents (Elt F) → (⟨S1x128, .f32⟩ : BufTy).Contents (Elt F)),
    StableHlo.unary main_v271 main_v272 (broadcastInDim S100000x128 ![0, 1] bcast_S1x128_S100000x128_0_1 : (⟨S1x128, .f32⟩ : BufTy).Contents (Elt F) → (⟨S100000x128, .f32⟩ : BufTy).Contents (Elt F)),
    StableHlo.binary main_v266 main_v272 main_v273 (subf : (⟨S100000x128, .f32⟩ : BufTy).Contents (Elt F) → (⟨S100000x128, .f32⟩ : BufTy).Contents (Elt F) → (⟨S100000x128, .f32⟩ : BufTy).Contents (Elt F)),
    StableHlo.nullary main_cst_68 (constant S_ .f32 0x3727C5AC#32),
    StableHlo.unary main_cst_68 main_v274 (broadcastInDim S128 ![] bcast_S_S128 : (⟨S_, .f32⟩ : BufTy).Contents (Elt F) → (⟨S128, .f32⟩ : BufTy).Contents (Elt F)),
    StableHlo.binary main_v270 main_v274 main_v275 (addf : (⟨S128, .f32⟩ : BufTy).Contents (Elt F) → (⟨S128, .f32⟩ : BufTy).Contents (Elt F) → (⟨S128, .f32⟩ : BufTy).Contents (Elt F)),
    StableHlo.unary main_v275 main_v276 (Host.rsqrt : (⟨S128, .f32⟩ : BufTy).Contents (Elt F) → (⟨S128, .f32⟩ : BufTy).Contents (Elt F)),
    StableHlo.unary main_v276 main_v277 (broadcastInDim S1x128 ![1] bcast_S128_S1x128_1 : (⟨S128, .f32⟩ : BufTy).Contents (Elt F) → (⟨S1x128, .f32⟩ : BufTy).Contents (Elt F)),
    StableHlo.unary main_v277 main_v278 (broadcastInDim S100000x128 ![0, 1] bcast_S1x128_S100000x128_0_1 : (⟨S1x128, .f32⟩ : BufTy).Contents (Elt F) → (⟨S100000x128, .f32⟩ : BufTy).Contents (Elt F)),
    StableHlo.binary main_v273 main_v278 main_v279 (mulf : (⟨S100000x128, .f32⟩ : BufTy).Contents (Elt F) → (⟨S100000x128, .f32⟩ : BufTy).Contents (Elt F) → (⟨S100000x128, .f32⟩ : BufTy).Contents (Elt F)),
    StableHlo.unary main_v279 main_v280 (Host.tanh : (⟨S100000x128, .f32⟩ : BufTy).Contents (Elt F) → (⟨S100000x128, .f32⟩ : BufTy).Contents (Elt F)),
    StableHlo.unary main_arg5 main_v281 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v281 main_v282 rfl shapeCasts_S1x128x128_S128x128,
    StableHlo.binary main_v145 main_v282 main_v283 ((fun l r => Host.dotGeneral dot_S11x128_S128x128_S11x128_1_0_0_1_n_n none l r) : (⟨S11x128, .f32⟩ : BufTy).Contents (Elt F) → (⟨S128x128, .f32⟩ : BufTy).Contents (Elt F) → (⟨S11x128, .f32⟩ : BufTy).Contents (Elt F)),
    StableHlo.unary main_v283 main_v284 ((extractStridedSlice S10x128 ![0, 0] · slices_S11x128_S10x128_0_0) : (⟨S11x128, .f32⟩ : BufTy).Contents (Elt F) → (⟨S10x128, .f32⟩ : BufTy).Contents (Elt F)) ]

/-- The first half: windows 0, 1, 2 (statements 1 … 180; 205 operations). -/
abbrev opsL1 : List (HloOp τ sig (Elt F)) := p0 ++ p1 ++ p2
/-- The second half: windows 3, 4, 5 (statements 181 … 357; 201 operations). -/
abbrev opsL2 : List (HloOp τ sig (Elt F)) := p3 ++ p4 ++ p5
/-- @main's 406 operations, in order. -/
abbrev ops : List (HloOp τ sig (Elt F)) := opsL1 ++ opsL2

end Cert.ReferenceIdeal.RefRun

end
-- ==== Proof.RefRun.lean ====
/- The run of the idealized reference program's @main as the fold of its host operations.
   Each printed window is the straight line of its list of operations (calls unfolded at their sites, sequencing
   reassociated), so @main is the straight line of the concatenation; every operation touches TensorCore buffers only
   and determines its results; hence every weakly fair execution terminates with every TensorCore buffer at the fold
   of the operations' results over the launch contents, and that fold splits at the cut between the two halves. -/
import proofs.«104171_j72722386256375_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each window is the straight line of its list

Both sides are one chain of `hlo` steps once the callee bodies are unfolded at their calls and the binds are
reassociated; what is left differs only in how the last step is continued, which is definitional. -/

set_option maxRecDepth 4096 in
theorem part0_eq (c : Dev nD) : main_part0 (F := F) c = seq p0 := by
  simp only [main_part0, fn_where.body, seq, bind_assoc, pure_bind]
  rfl

set_option maxRecDepth 4096 in
theorem part1_eq (c : Dev nD) : main_part1 (F := F) c = seq p1 := by
  simp only [main_part1, fn_where.body, seq, bind_assoc, pure_bind]
  rfl

set_option maxRecDepth 4096 in
theorem part2_eq (c : Dev nD) : main_part2 (F := F) c = seq p2 := by
  simp only [main_part2, fn_var.body, fn_where_0.body, seq, bind_assoc, pure_bind]
  rfl

set_option maxRecDepth 4096 in
theorem part3_eq (c : Dev nD) : main_part3 (F := F) c = seq p3 := by
  simp only [main_part3, fn_where.body, seq, bind_assoc, pure_bind]
  rfl

set_option maxRecDepth 4096 in
theorem part4_eq (c : Dev nD) : main_part4 (F := F) c = seq p4 := by
  simp only [main_part4, fn_where.body, seq, bind_assoc, pure_bind]
  rfl

-- the last window ends in the function's return, as the straight line of a list does
set_option maxRecDepth 4096 in
theorem part5_eq (c : Dev nD) : main_part5 (F := F) c = seq p5 := by
  simp only [main_part5, fn_var.body, fn_where_0.body, seq, bind_assoc, pure_bind]

/-- @main is the straight line of all its operations: the six windows in order, a concatenation's line being the
    lines one after the other. -/
theorem main_eq (c : Dev nD) : main (F := F) c = seq ops := by
  simp only [main, part0_eq, part1_eq, part2_eq, part3_eq, part4_eq, part5_eq, seq_append, bind_assoc]

/-! ## Side conditions of the run -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  · exact h₁ x h
  · exact h₂ x h

/-! Every operation touches TensorCore references only: window by window, operation by operation. -/

theorem p0_sub : (p0 : List (HloOp τ sig (Elt F))).Forall fun op => op.bufs ⊆ tcRefs τ sig := by
  simp only [List.Forall, nullary_bufs_sub, unary_bufs_sub, binary_bufs_sub, ternary_bufs_sub, reshape_bufs_sub, and_self]
theorem p1_sub : (p1 : List (HloOp τ sig (Elt F))).Forall fun op => op.bufs ⊆ tcRefs τ sig := by
  simp only [List.Forall, nullary_bufs_sub, unary_bufs_sub, binary_bufs_sub, ternary_bufs_sub, reshape_bufs_sub, and_self]
theorem p2_sub : (p2 : List (HloOp τ sig (Elt F))).Forall fun op => op.bufs ⊆ tcRefs τ sig := by
  simp only [List.Forall, nullary_bufs_sub, unary_bufs_sub, binary_bufs_sub, ternary_bufs_sub, reshape_bufs_sub, and_self]
theorem p3_sub : (p3 : List (HloOp τ sig (Elt F))).Forall fun op => op.bufs ⊆ tcRefs τ sig := by
  simp only [List.Forall, nullary_bufs_sub, unary_bufs_sub, binary_bufs_sub, ternary_bufs_sub, reshape_bufs_sub, and_self]
theorem p4_sub : (p4 : List (HloOp τ sig (Elt F))).Forall fun op => op.bufs ⊆ tcRefs τ sig := by
  simp only [List.Forall, nullary_bufs_sub, unary_bufs_sub, binary_bufs_sub, ternary_bufs_sub, reshape_bufs_sub, and_self]
theorem p5_sub : (p5 : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops : List (HloOp τ sig (Elt F))).Forall fun op => op.bufs ⊆ tcRefs τ sig :=
  forall_append (forall_append (forall_append p0_sub p1_sub) p2_sub) (forall_append (forall_append p3_sub p4_sub) p5_sub)

/-! Every operation determines its results (none allocates a fresh buffer): by computation, window by window. -/

theorem p0_fresh : (p0 : List (HloOp τ sig (Elt F))).Forall fun op => op.fresh = ∅ := by
  simp only [List.Forall]; repeat' apply And.intro
  all_goals rfl
theorem p1_fresh : (p1 : List (HloOp τ sig (Elt F))).Forall fun op => op.fresh = ∅ := by
  simp only [List.Forall]; repeat' apply And.intro
  all_goals rfl
theorem p2_fresh : (p2 : List (HloOp τ sig (Elt F))).Forall fun op => op.fresh = ∅ := by
  simp only [List.Forall]; repeat' apply And.intro
  all_goals rfl
theorem p3_fresh : (p3 : List (HloOp τ sig (Elt F))).Forall fun op => op.fresh = ∅ := by
  simp only [List.Forall]; repeat' apply And.intro
  all_goals rfl
theorem p4_fresh : (p4 : List (HloOp τ sig (Elt F))).Forall fun op => op.fresh = ∅ := by
  simp only [List.Forall]; repeat' apply And.intro
  all_goals rfl
theorem p5_fresh : (p5 : List (HloOp τ sig (Elt F))).Forall fun op => op.fresh = ∅ := by
  simp only [List.Forall]; repeat' apply And.intro
  all_goals rfl

theorem ops_fresh : ∀ op ∈ (ops : List (HloOp τ sig (Elt F))), op.fresh = ∅ :=
  List.forall_iff_forall_mem.mp
    (forall_append (forall_append (forall_append p0_fresh p1_fresh) p2_fresh) (forall_append (forall_append p3_fresh p4_fresh) p5_fresh))

/-! ## The run -/

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over the whole program is the second half's fold over the first half's. -/
theorem after_layers (V : Valuation τ sig (Elt F)) : after ops V = after opsL2 (after opsL1 V) :=
  after_append opsL1 opsL2 V

end Cert.ReferenceIdeal.RefRun

end
-- ==== Proof.RefWrites.lean ====
-- the six lists below are the result references of the printed program's six windows, copied in program order
/- The references each window of the idealized reference program's @main writes, in program order: one per
   operation, its result. -/
import proofs.«104171_j72722386256375_1_alg».proof.Proof.Gen.ReferenceIdeal

namespace Cert.ReferenceIdeal.RefRun

open Cert.ReferenceIdeal Idealize.ShloMosaic

/-- What window 0 writes: 62 references. -/
abbrev w0 : List (Ref sig .tc) :=
  [ main_cst, main_v0, main_v1, main_v2, main_v3, main_c, main_v4, main_v5, main_c_0, main_v6,
    main_v7, main_v8, main_v9, main_v10, main_v11, main_v12, main_c_1, main_v13, main_v14, main_c_2,
    main_v15, main_v16, main_v17, main_v18, main_v19, main_v20, main_v21, main_cst_3, main_v22, main_c_4,
    main_v23, main_v24, main_c_5, main_v25, main_v26, main_v27, main_v28, main_v29, main_cst_6, main_v30,
    main_v31, main_v32, main_cst_7, main_call0_v0, main_call0_v1, main_v33, main_c_8, main_v34, main_v35, main_c_9,
    main_v36, main_v37, main_v38, main_v39, main_v40, main_c_10, main_v41, main_v42, main_c_11, main_v43,
    main_v44, main_v45 ]

/-- What window 1 writes: 62 references. -/
abbrev w1 : List (Ref sig .tc) :=
  [ main_v46, main_v47, main_v48, main_v49, main_v50, main_v51, main_cst_12, main_v52, main_c_13, main_v53,
    main_v54, main_c_14, main_v55, main_v56, main_v57, main_v58, main_v59, main_v60, main_v61, main_c_15,
    main_v62, main_v63, main_c_16, main_v64, main_v65, main_v66, main_v67, main_v68, main_v69, main_v70,
    main_cst_17, main_v71, main_c_18, main_v72, main_v73, main_c_19, main_v74, main_v75, main_v76, main_v77,
    main_v78, main_cst_20, main_v79, main_v80, main_v81, main_cst_21, main_call1_v0, main_call1_v1, main_v82, main_c_22,
    main_v83, main_v84, main_c_23, main_v85, main_v86, main_v87, main_v88, main_v89, main_c_24, main_v90,
    main_v91, main_c_25 ]

/-- What window 2 writes: 81 references. -/
abbrev w2 : List (Ref sig .tc) :=
  [ main_v92, main_v93, main_v94, main_v95, main_v96, main_v97, main_v98, main_v99, main_v100, main_cst_26,
    main_v101, main_c_27, main_v102, main_v103, main_c_28, main_v104, main_v105, main_v106, main_v107, main_v108,
    main_v109, main_v110, main_v111, main_v112, main_v113, main_v114, main_v115, main_v116, main_v117, main_cst_29,
    main_v118, main_v119, main_v120, main_v121, main_v122, main_v123, main_v124, main_cst_30, main_v125, main_cst_31,
    main_v126, main_v127, main_c_32, main_call2_cst, main_call2_v0, main_call2_v1, main_call2_cst_0, main_call2_v2, main_call2_v3, main_call2_v4,
    main_call2_v5, main_call2_v6, main_call2_v7, main_call2_cst_1, main_call2_v8, main_call2_cst_2, main_call2_v9, main_call2_v10, main_call2_v11, main_call2_cst_3,
    main_call2_v12, main_call2_cst_4, main_call2_call0_v0, main_call2_call0_v1, main_v128, main_v129, main_v130, main_v131, main_cst_33, main_v132,
    main_v133, main_v134, main_v135, main_v136, main_v137, main_v138, main_v139, main_v140, main_v141, main_v142,
    main_v143 ]

/-- What window 3 writes: 62 references. -/
abbrev w3 : List (Ref sig .tc) :=
  [ main_v144, main_v145, main_c_34, main_v146, main_v147, main_c_35, main_v148, main_v149, main_v150, main_v151,
    main_v152, main_v153, main_v154, main_c_36, main_v155, main_v156, main_c_37, main_v157, main_v158, main_v159,
    main_v160, main_v161, main_v162, main_v163, main_cst_38, main_v164, main_c_39, main_v165, main_v166, main_c_40,
    main_v167, main_v168, main_v169, main_v170, main_v171, main_cst_41, main_v172, main_v173, main_v174, main_cst_42,
    main_call3_v0, main_call3_v1, main_v175, main_c_43, main_v176, main_v177, main_c_44, main_v178, main_v179, main_v180,
    main_v181, main_v182, main_c_45, main_v183, main_v184, main_c_46, main_v185, main_v186, main_v187, main_v188,
    main_v189, main_v190 ]

/-- What window 4 writes: 62 references. -/
abbrev w4 : List (Ref sig .tc) :=
  [ main_v191, main_v192, main_v193, main_cst_47, main_v194, main_c_48, main_v195, main_v196, main_c_49, main_v197,
    main_v198, main_v199, main_v200, main_v201, main_v202, main_v203, main_c_50, main_v204, main_v205, main_c_51,
    main_v206, main_v207, main_v208, main_v209, main_v210, main_v211, main_v212, main_cst_52, main_v213, main_c_53,
    main_v214, main_v215, main_c_54, main_v216, main_v217, main_v218, main_v219, main_v220, main_cst_55, main_v221,
    main_v222, main_v223, main_cst_56, main_call4_v0, main_call4_v1, main_v224, main_c_57, main_v225, main_v226, main_c_58,
    main_v227, main_v228, main_v229, main_v230, main_v231, main_c_59, main_v232, main_v233, main_c_60, main_v234,
    main_v235, main_v236 ]

/-- What window 5 writes: 77 references. -/
abbrev w5 : List (Ref sig .tc) :=
  [ main_v237, main_v238, main_v239, main_v240, main_v241, main_v242, main_cst_61, main_v243, main_c_62, main_v244,
    main_v245, main_c_63, main_v246, main_v247, main_v248, main_v249, main_v250, main_v251, main_v252, main_v253,
    main_v254, main_v255, main_v256, main_v257, main_v258, main_v259, main_cst_64, main_v260, main_v261, main_v262,
    main_v263, main_v264, main_v265, main_v266, main_cst_65, main_v267, main_cst_66, main_v268, main_v269, main_c_67,
    main_call5_cst, main_call5_v0, main_call5_v1, main_call5_cst_0, main_call5_v2, main_call5_v3, main_call5_v4, main_call5_v5, main_call5_v6, main_call5_v7,
    main_call5_cst_1, main_call5_v8, main_call5_cst_2, main_call5_v9, main_call5_v10, main_call5_v11, main_call5_cst_3, main_call5_v12, main_call5_cst_4, main_call5_call0_v0,
    main_call5_call0_v1, main_v270, main_v271, main_v272, main_v273, main_cst_68, main_v274, main_v275, main_v276, main_v277,
    main_v278, main_v279, main_v280, main_v281, main_v282, main_v283, main_v284 ]

end Cert.ReferenceIdeal.RefRun
-- ==== Proof.RefFrame.lean ====
/- Which buffers each window of the idealized reference program's @main leaves alone: a window's operations write
   exactly the listed references (one result each), so the fold of its results keeps every other buffer's contents;
   the same for each half of the program, and for reading a buffer of an early window through the later ones. -/
import proofs.«104171_j72722386256375_1_alg».proof.Proof.RefOps
import proofs.«104171_j72722386256375_1_alg».proof.Proof.RefWrites
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The singleton of a listed reference lies in the list's set of device buffers. -/
theorem writes_of_mem {W : List (Ref sig .tc)} {y : Ref sig .tc} (h : y ∈ W) :
    ({Proc.devRef (τ := τ) .tc y} : Finset (DevRef τ sig)) ⊆ (W.map (Proc.devRef (τ := τ) .tc)).toFinset := by
  intro b hb
  rw [Finset.mem_singleton] at hb
  subst hb
  exact List.mem_toFinset.mpr (List.mem_map.mpr ⟨y, h, rfl⟩)

/-! ## Window by window: what is written is listed, what is not listed is kept -/

theorem p0_writes : (p0 : List (HloOp τ sig (Elt F))).Forall fun op => op.writes ⊆ (w0.map (Proc.devRef (τ := τ) .tc)).toFinset := by
  simp only [List.Forall, nullary_writes, unary_writes, binary_writes, ternary_writes, reshape_writes]
  repeat' apply And.intro
  all_goals exact writes_of_mem (by decide)
theorem p0_frame {r : Ref sig .tc} (hr : r ∉ w0) (V : Valuation τ sig (Elt F)) :
    after p0 V (Proc.devRef .tc r) = V (Proc.devRef .tc r) := after_of_writes_sub p0 V p0_writes hr

theorem p1_writes : (p1 : List (HloOp τ sig (Elt F))).Forall fun op => op.writes ⊆ (w1.map (Proc.devRef (τ := τ) .tc)).toFinset := by
  simp only [List.Forall, nullary_writes, unary_writes, binary_writes, ternary_writes, reshape_writes]
  repeat' apply And.intro
  all_goals exact writes_of_mem (by decide)
theorem p1_frame {r : Ref sig .tc} (hr : r ∉ w1) (V : Valuation τ sig (Elt F)) :
    after p1 V (Proc.devRef .tc r) = V (Proc.devRef .tc r) := after_of_writes_sub p1 V p1_writes hr

theorem p2_writes : (p2 : List (HloOp τ sig (Elt F))).Forall fun op => op.writes ⊆ (w2.map (Proc.devRef (τ := τ) .tc)).toFinset := by
  simp only [List.Forall, nullary_writes, unary_writes, binary_writes, ternary_writes, reshape_writes]
  repeat' apply And.intro
  all_goals exact writes_of_mem (by decide)
theorem p2_frame {r : Ref sig .tc} (hr : r ∉ w2) (V : Valuation τ sig (Elt F)) :
    after p2 V (Proc.devRef .tc r) = V (Proc.devRef .tc r) := after_of_writes_sub p2 V p2_writes hr

theorem p3_writes : (p3 : List (HloOp τ sig (Elt F))).Forall fun op => op.writes ⊆ (w3.map (Proc.devRef (τ := τ) .tc)).toFinset := by
  simp only [List.Forall, nullary_writes, unary_writes, binary_writes, ternary_writes, reshape_writes]
  repeat' apply And.intro
  all_goals exact writes_of_mem (by decide)
theorem p3_frame {r : Ref sig .tc} (hr : r ∉ w3) (V : Valuation τ sig (Elt F)) :
    after p3 V (Proc.devRef .tc r) = V (Proc.devRef .tc r) := after_of_writes_sub p3 V p3_writes hr

theorem p4_writes : (p4 : List (HloOp τ sig (Elt F))).Forall fun op => op.writes ⊆ (w4.map (Proc.devRef (τ := τ) .tc)).toFinset := by
  simp only [List.Forall, nullary_writes, unary_writes, binary_writes, ternary_writes, reshape_writes]
  repeat' apply And.intro
  all_goals exact writes_of_mem (by decide)
theorem p4_frame {r : Ref sig .tc} (hr : r ∉ w4) (V : Valuation τ sig (Elt F)) :
    after p4 V (Proc.devRef .tc r) = V (Proc.devRef .tc r) := after_of_writes_sub p4 V p4_writes hr

theorem p5_writes : (p5 : List (HloOp τ sig (Elt F))).Forall fun op => op.writes ⊆ (w5.map (Proc.devRef (τ := τ) .tc)).toFinset := by
  simp only [List.Forall, nullary_writes, unary_writes, binary_writes, ternary_writes, reshape_writes]
  repeat' apply And.intro
  all_goals exact writes_of_mem (by decide)
theorem p5_frame {r : Ref sig .tc} (hr : r ∉ w5) (V : Valuation τ sig (Elt F)) :
    after p5 V (Proc.devRef .tc r) = V (Proc.devRef .tc r) := after_of_writes_sub p5 V p5_writes hr

/-! ## The two halves -/

/-- A reference none of the first three windows writes keeps its contents through the first half. -/
theorem opsL1_frame {r : Ref sig .tc} (h0 : r ∉ w0) (h1 : r ∉ w1) (h2 : r ∉ w2) (V : Valuation τ sig (Elt F)) :
    after opsL1 V (Proc.devRef .tc r) = V (Proc.devRef .tc r) := by
  rw [after_append, after_append, p2_frame h2, p1_frame h1, p0_frame h0]

/-- A reference none of the last three windows writes keeps its contents through the second half. -/
theorem opsL2_frame {r : Ref sig .tc} (h3 : r ∉ w3) (h4 : r ∉ w4) (h5 : r ∉ w5) (V : Valuation τ sig (Elt F)) :
    after opsL2 V (Proc.devRef .tc r) = V (Proc.devRef .tc r) := by
  rw [after_append, after_append, p5_frame h5, p4_frame h4, p3_frame h3]

/-- A buffer the later windows of the first half leave alone is read after the first window. -/
theorem opsL1_of_p0 {r : Ref sig .tc} (h1 : r ∉ w1) (h2 : r ∉ w2) (V : Valuation τ sig (Elt F)) :
    after opsL1 V (Proc.devRef .tc r) = after p0 V (Proc.devRef .tc r) := by
  rw [after_append, after_append, p2_frame h2, p1_frame h1]

/-- A buffer the third window leaves alone is read after the second. -/
theorem opsL1_of_p1 {r : Ref sig .tc} (h2 : r ∉ w2) (V : Valuation τ sig (Elt F)) :
    after opsL1 V (Proc.devRef .tc r) = after p1 (after p0 V) (Proc.devRef .tc r) := by
  rw [after_append, after_append, p2_frame h2]

/-- The first half unfolded into its three windows. -/
theorem opsL1_eq (V : Valuation τ sig (Elt F)) : after opsL1 V = after p2 (after p1 (after p0 V)) := by
  rw [after_append, after_append]

/-- A buffer the later windows of the second half leave alone is read after its first window. -/
theorem opsL2_of_p3 {r : Ref sig .tc} (h4 : r ∉ w4) (h5 : r ∉ w5) (V : Valuation τ sig (Elt F)) :
    after opsL2 V (Proc.devRef .tc r) = after p3 V (Proc.devRef .tc r) := by
  rw [after_append, after_append, p5_frame h5, p4_frame h4]

/-- A buffer the last window leaves alone is read after the fifth. -/
theorem opsL2_of_p4 {r : Ref sig .tc} (h5 : r ∉ w5) (V : Valuation τ sig (Elt F)) :
    after opsL2 V (Proc.devRef .tc r) = after p4 (after p3 V) (Proc.devRef .tc r) := by
  rw [after_append, after_append, p5_frame h5]

/-- The second half unfolded into its three windows. -/
theorem opsL2_eq (V : Valuation τ sig (Elt F)) : after opsL2 V = after p5 (after p4 (after p3 V)) := by
  rw [after_append, after_append]

/-! ## The eleven arguments pass through both halves: no window writes an argument -/

theorem opsL1_arg0 (V : Valuation τ sig (Elt F)) : after opsL1 V (Proc.devRef .tc main_arg0) = V (Proc.devRef .tc main_arg0) :=
  opsL1_frame (by decide) (by decide) (by decide) V
theorem opsL1_arg1 (V : Valuation τ sig (Elt F)) : after opsL1 V (Proc.devRef .tc main_arg1) = V (Proc.devRef .tc main_arg1) :=
  opsL1_frame (by decide) (by decide) (by decide) V
theorem opsL1_arg2 (V : Valuation τ sig (Elt F)) : after opsL1 V (Proc.devRef .tc main_arg2) = V (Proc.devRef .tc main_arg2) :=
  opsL1_frame (by decide) (by decide) (by decide) V
theorem opsL1_arg3 (V : Valuation τ sig (Elt F)) : after opsL1 V (Proc.devRef .tc main_arg3) = V (Proc.devRef .tc main_arg3) :=
  opsL1_frame (by decide) (by decide) (by decide) V
theorem opsL1_arg4 (V : Valuation τ sig (Elt F)) : after opsL1 V (Proc.devRef .tc main_arg4) = V (Proc.devRef .tc main_arg4) :=
  opsL1_frame (by decide) (by decide) (by decide) V
theorem opsL1_arg5 (V : Valuation τ sig (Elt F)) : after opsL1 V (Proc.devRef .tc main_arg5) = V (Proc.devRef .tc main_arg5) :=
  opsL1_frame (by decide) (by decide) (by decide) V
theorem opsL1_arg6 (V : Valuation τ sig (Elt F)) : after opsL1 V (Proc.devRef .tc main_arg6) = V (Proc.devRef .tc main_arg6) :=
  opsL1_frame (by decide) (by decide) (by decide) V
theorem opsL1_arg7 (V : Valuation τ sig (Elt F)) : after opsL1 V (Proc.devRef .tc main_arg7) = V (Proc.devRef .tc main_arg7) :=
  opsL1_frame (by decide) (by decide) (by decide) V
theorem opsL1_arg8 (V : Valuation τ sig (Elt F)) : after opsL1 V (Proc.devRef .tc main_arg8) = V (Proc.devRef .tc main_arg8) :=
  opsL1_frame (by decide) (by decide) (by decide) V
theorem opsL1_arg9 (V : Valuation τ sig (Elt F)) : after opsL1 V (Proc.devRef .tc main_arg9) = V (Proc.devRef .tc main_arg9) :=
  opsL1_frame (by decide) (by decide) (by decide) V
theorem opsL1_arg10 (V : Valuation τ sig (Elt F)) : after opsL1 V (Proc.devRef .tc main_arg10) = V (Proc.devRef .tc main_arg10) :=
  opsL1_frame (by decide) (by decide) (by decide) V

theorem opsL2_arg0 (V : Valuation τ sig (Elt F)) : after opsL2 V (Proc.devRef .tc main_arg0) = V (Proc.devRef .tc main_arg0) :=
  opsL2_frame (by decide) (by decide) (by decide) V
theorem opsL2_arg1 (V : Valuation τ sig (Elt F)) : after opsL2 V (Proc.devRef .tc main_arg1) = V (Proc.devRef .tc main_arg1) :=
  opsL2_frame (by decide) (by decide) (by decide) V
theorem opsL2_arg2 (V : Valuation τ sig (Elt F)) : after opsL2 V (Proc.devRef .tc main_arg2) = V (Proc.devRef .tc main_arg2) :=
  opsL2_frame (by decide) (by decide) (by decide) V
theorem opsL2_arg3 (V : Valuation τ sig (Elt F)) : after opsL2 V (Proc.devRef .tc main_arg3) = V (Proc.devRef .tc main_arg3) :=
  opsL2_frame (by decide) (by decide) (by decide) V
theorem opsL2_arg4 (V : Valuation τ sig (Elt F)) : after opsL2 V (Proc.devRef .tc main_arg4) = V (Proc.devRef .tc main_arg4) :=
  opsL2_frame (by decide) (by decide) (by decide) V
theorem opsL2_arg5 (V : Valuation τ sig (Elt F)) : after opsL2 V (Proc.devRef .tc main_arg5) = V (Proc.devRef .tc main_arg5) :=
  opsL2_frame (by decide) (by decide) (by decide) V
theorem opsL2_arg6 (V : Valuation τ sig (Elt F)) : after opsL2 V (Proc.devRef .tc main_arg6) = V (Proc.devRef .tc main_arg6) :=
  opsL2_frame (by decide) (by decide) (by decide) V
theorem opsL2_arg7 (V : Valuation τ sig (Elt F)) : after opsL2 V (Proc.devRef .tc main_arg7) = V (Proc.devRef .tc main_arg7) :=
  opsL2_frame (by decide) (by decide) (by decide) V
theorem opsL2_arg8 (V : Valuation τ sig (Elt F)) : after opsL2 V (Proc.devRef .tc main_arg8) = V (Proc.devRef .tc main_arg8) :=
  opsL2_frame (by decide) (by decide) (by decide) V
theorem opsL2_arg9 (V : Valuation τ sig (Elt F)) : after opsL2 V (Proc.devRef .tc main_arg9) = V (Proc.devRef .tc main_arg9) :=
  opsL2_frame (by decide) (by decide) (by decide) V
theorem opsL2_arg10 (V : Valuation τ sig (Elt F)) : after opsL2 V (Proc.devRef .tc main_arg10) = V (Proc.devRef .tc main_arg10) :=
  opsL2_frame (by decide) (by decide) (by decide) V

end Cert.ReferenceIdeal.RefRun

end
-- ==== Proof.PreIdx.lean ====
/-
  What the precondition says of the two edge-endpoint arrays: every source and every destination
  word, read as a signed 32-bit integer, is nonnegative.  The precondition is a conjunction (by
  `and`) of `jnp.all` reductions; the last two conjuncts are the reductions of the comparisons
  `edge_src >= 0` and `edge_dst >= 0`, and a reduction by `and` that is 1 had a 1 at every index.
-/
import proofs.«104171_j72722386256375_1_alg».proof.Pre_finite_inputs
import proofs.«104171_j72722386256375_1_alg».proof.Proof.Gen.Pre_finite_inputs
import Idealize.ShloMosaic.Lib.ReduceAll

namespace Cert.Proof.PreIdx

open Idealize.ShloMosaic Cert.Pre_finite_inputs Cert.Pre_finite_inputs.Facts

instance : Subsingleton S_.Idx := ⟨fun a b => funext fun d => d.elim0⟩

/-- Under the precondition, no source word and no destination word is negative. -/
theorem nonneg_of_pre {F : FTy → Type} [FloatOps F]
    (a0 : FVec F S100000x128 .f32) (a1 : FVec F S10x128 .f32) (a2 a3 a4 a5 : FVec F S2x128x128 .f32)
    (a6 : FVec F S2x1x128 .f32) (a7 : FVec F S2x128 .f32) (a8 a9 a10 : IVec S500000 32)
    (h : fn (F := F) a0 a1 a2 a3 a4 a5 a6 a7 a8 a9 a10 = fun _ => 1#1) :
    (∀ i, (0 : Int) ≤ (a8 i).toInt) ∧ (∀ i, (0 : Int) ≤ (a9 i).toInt) := by
  have h0 := congrFun h (fun d => d.elim0)
  dsimp only [fn, fn_part1, fn_part2] at h0
  simp only [andi] at h0
  obtain ⟨h1, h9⟩ := IntOp.andi_eq_one.1 h0
  obtain ⟨-, h8⟩ := IntOp.andi_eq_one.1 h1
  refine ⟨fun i => ?_, fun i => ?_⟩
  · have e := Host.reduce_andi_all _ _ _ _ _ h8 i
    simp only [cmpi, broadcastInDim, constantI] at e
    have := IntOp.cmpi_sge.1 e
    simpa using this
  · have e := Host.reduce_andi_all _ _ _ _ _ h9 i
    simp only [cmpi, broadcastInDim, constantI] at e
    have := IntOp.cmpi_sge.1 e
    simpa using this

end Cert.Proof.PreIdx
-- ==== Proof.Basics.lean ====
/-
  Small facts used on both sides of the bridge.
  * The contents after two lines of host operations run one after the other are the contents after their concatenation.
  * jnp's negative-index wrap `where(i < 0, i + n, i)` is the identity on an index array none of whose words is negative.
-/
import Idealize.ShloMosaic.Lib.StableHlo.Run
import Idealize.ShloMosaic.Lib.ValueIdx
import Idealize.ShloMosaic.Lib.Affine

namespace Cert.Proof.Basics

open Idealize.ShloMosaic Idealize.ShloMosaic.StableHlo

variable {τ : Topo} {sig : RefSig} {Val : EltTy → Type}

/-- Folding a concatenation is folding its parts in turn. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `where(a < z, a + n, a) = a` when `z` is the zero array and no word of `a` is negative. -/
theorem wrap_eq {s : Shape} (a z n : IVec s 32) (hz : ∀ i, z i = 0#32) (h : ∀ i, (0 : Int) ≤ (a i).toInt) :
    select (cmpi .slt a z) (addi a n) a = a := by
  funext i
  have hne : ¬ (IntOp.cmpi .slt (a i) (z i) = 1#1) := by
    rw [hz i]; intro e
    have := IntOp.cmpi_slt.1 e
    have h0 : (0#32 : BitVec 32).toInt = 0 := by decide
    rw [h0] at this
    exact absurd (h i) (not_le.2 this)
  show Scalar.select (IntOp.cmpi .slt (a i) (z i)) (IntOp.addi (a i) (n i)) (a i) = a i
  unfold Scalar.select
  exact if_neg hne

end Cert.Proof.Basics
-- ==== Proof.LibTypedRef.lean ====
/-
  Typed references of a host program's outlined functions: contents moved to the buffer's own type and back.

  An operation of an outlined function reads and writes its buffers through references that carry the type of the
  tensor value they hold; contents at the value's type are moved to the buffer's own type when written and back when
  read, along the equation between the two types. The two transports are inverse: a value written through a typed
  reference and read back through it is the value. Rewriting with this removes every write-then-read pair from the
  term a stretch of such operations leaves in a buffer, whatever the operations are; what remains are the
  transports at the stretch's own ends, one per buffer it reads from outside and one at its result.
-/
import Idealize.ShloMosaic.Lib.StableHlo

namespace Cert.LibTypedRef

open Idealize.ShloMosaic Idealize.ShloMosaic.StableHlo

/-- Contents moved to a typed reference's own buffer type and back are the contents. -/
theorem ofBuf_toBuf {sig : RefSig} {Val : EltTy → Type} {T : BufTy} (x : TRef sig T) (v : T.Contents Val) :
    x.ofBuf (x.toBuf v) = v := by
  obtain ⟨r, h, h1, h2⟩ := x; subst h; rfl

/-- Contents of the buffer's own type moved to the value's type and back are the contents. -/
theorem toBuf_ofBuf {sig : RefSig} {Val : EltTy → Type} {T : BufTy} (x : TRef sig T) (v : x.ref.ty.Contents Val) :
    x.toBuf (x.ofBuf v) = v := by
  obtain ⟨r, h, h1, h2⟩ := x; subst h; rfl

end Cert.LibTypedRef
-- ==== Proof.BridgeDefs.lean ====
import proofs.«104171_j72722386256375_1_alg».proof.Proof.Gen.KernelIdeal.Frame
import proofs.«104171_j72722386256375_1_alg».proof.Proof.RefOps
import proofs.«104171_j72722386256375_1_alg».proof.Proof.Basics
import proofs.«104171_j72722386256375_1_alg».proof.Proof.LibTypedRef

set_option maxRecDepth 65536

noncomputable section

namespace Cert.Proof.Bridge

open Idealize.ShloMosaic Idealize.ShloMosaic.TcCoe Idealize.SL.Sem Idealize.ShloMosaic.StableHlo Cert.Proof

/-- Contents of the kernel program's buffers, and of the reference program's. -/
abbrev KV := Valuation Cert.KernelIdeal.τ Cert.KernelIdeal.sig (Elt Ideal)
abbrev RV := Valuation Cert.ReferenceIdeal.τ Cert.ReferenceIdeal.sig (Elt Ideal)

/-- The two programs' buffer contents agree on the eleven argument arrays. -/
structure Agree (U : KV) (V : RV) : Prop where
  a0 : V (Proc.devRef .tc Cert.ReferenceIdeal.main_arg0) = U (Proc.devRef .tc Cert.KernelIdeal.main_arg0)
  a1 : V (Proc.devRef .tc Cert.ReferenceIdeal.main_arg1) = U (Proc.devRef .tc Cert.KernelIdeal.main_arg1)
  a2 : V (Proc.devRef .tc Cert.ReferenceIdeal.main_arg2) = U (Proc.devRef .tc Cert.KernelIdeal.main_arg2)
  a3 : V (Proc.devRef .tc Cert.ReferenceIdeal.main_arg3) = U (Proc.devRef .tc Cert.KernelIdeal.main_arg3)
  a4 : V (Proc.devRef .tc Cert.ReferenceIdeal.main_arg4) = U (Proc.devRef .tc Cert.KernelIdeal.main_arg4)
  a5 : V (Proc.devRef .tc Cert.ReferenceIdeal.main_arg5) = U (Proc.devRef .tc Cert.KernelIdeal.main_arg5)
  a6 : V (Proc.devRef .tc Cert.ReferenceIdeal.main_arg6) = U (Proc.devRef .tc Cert.KernelIdeal.main_arg6)
  a7 : V (Proc.devRef .tc Cert.ReferenceIdeal.main_arg7) = U (Proc.devRef .tc Cert.KernelIdeal.main_arg7)
  a8 : V (Proc.devRef .tc Cert.ReferenceIdeal.main_arg8) = U (Proc.devRef .tc Cert.KernelIdeal.main_arg8)
  a9 : V (Proc.devRef .tc Cert.ReferenceIdeal.main_arg9) = U (Proc.devRef .tc Cert.KernelIdeal.main_arg9)
  a10 : V (Proc.devRef .tc Cert.ReferenceIdeal.main_arg10) = U (Proc.devRef .tc Cert.KernelIdeal.main_arg10)

/-- No source word and no destination word is negative. -/
structure NonNeg (U : KV) : Prop where
  src : ∀ i, (0 : Int) ≤ ((U (Proc.devRef .tc Cert.KernelIdeal.main_arg8) : IVec Cert.KernelIdeal.S500000 32) i).toInt
  dst : ∀ i, (0 : Int) ≤ ((U (Proc.devRef .tc Cert.KernelIdeal.main_arg9) : IVec Cert.KernelIdeal.S500000 32) i).toInt

/-- The kernel program's host operations before its first region, as nested folds. -/
abbrev KA (U : KV) : KV :=
  after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 U))))

/-- The reference program's first layer. -/
abbrev R1 (V : RV) : RV := after Cert.ReferenceIdeal.RefRun.opsL1 V

end Cert.Proof.Bridge

end
-- ==== Proof.BridgeTac.lean ====
import proofs.«104171_j72722386256375_1_alg».proof.Proof.BridgeDefs

set_option maxRecDepth 65536

noncomputable section

namespace Cert.Proof.Bridge

open Idealize.ShloMosaic Idealize.ShloMosaic.TcCoe Idealize.SL.Sem Idealize.ShloMosaic.StableHlo Cert.Proof

/-- The rewriting loop of the library's results tactic without its opening step: reads what is left unread inside
    the operand list of a concatenation. -/
macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- jnp's negative-index wrap of an index array, as the host programs spell it (compare with the zero splat, add the
    extent's splat, select), is the identity when no word of the array is negative. -/
theorem wrap_bcast {s : Shape} (hb hb' : (⟨0, ![]⟩ : Shape).BroadcastsInDim s ![]) (a : IVec s 32) (N : BitVec 32)
    (h : ∀ i, (0 : Int) ≤ (a i).toInt) :
    select (cmpi .slt a (broadcastInDim s ![] hb (constantI (⟨0, ![]⟩ : Shape) 32 0#32)))
      (addi a (broadcastInDim s ![] hb' (constantI (⟨0, ![]⟩ : Shape) 32 N))) a = a :=
  Basics.wrap_eq a _ _ (fun _ => rfl) h

end Cert.Proof.Bridge

end
-- ==== Proof.KGroups.lean ====
import proofs.«104171_j72722386256375_1_alg».proof.Proof.BridgeTac

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! The kernel program's stretches of host lines between its regions, each as a fold over the contents it starts from, and
the reference's second layer; no host line writes an argument array, so every stretch keeps the agreement on the arguments. -/

abbrev KB (U : KV) : KV :=
  after Cert.KernelIdeal.Gen.hostOps1 U
abbrev KC (U : KV) : KV :=
  after Cert.KernelIdeal.Gen.hostOps2_1 (after Cert.KernelIdeal.Gen.hostOps2 U)
abbrev KD (U : KV) : KV :=
  after Cert.KernelIdeal.Gen.hostOps3_4 (after Cert.KernelIdeal.Gen.hostOps3_3 (after Cert.KernelIdeal.Gen.hostOps3_2 (after Cert.KernelIdeal.Gen.hostOps3_1 (after Cert.KernelIdeal.Gen.hostOps3 U))))
abbrev KE (U : KV) : KV :=
  after Cert.KernelIdeal.Gen.hostOps4 U
abbrev KF (U : KV) : KV :=
  after Cert.KernelIdeal.Gen.hostOps5_1 (after Cert.KernelIdeal.Gen.hostOps5 U)
abbrev KG (U : KV) : KV :=
  after Cert.KernelIdeal.Gen.hostOps6 U

/-- The reference program's second layer. -/
abbrev R2 (V : RV) : RV := after Cert.ReferenceIdeal.RefRun.opsL2 V

/-- No source word and no destination word of the reference's arguments is negative. -/
structure NonNegR (V : RV) : Prop where
  src : ∀ i, (0 : Int) ≤ ((V (Proc.devRef .tc Cert.ReferenceIdeal.main_arg8) : IVec Cert.ReferenceIdeal.S500000 32) i).toInt
  dst : ∀ i, (0 : Int) ≤ ((V (Proc.devRef .tc Cert.ReferenceIdeal.main_arg9) : IVec Cert.ReferenceIdeal.S500000 32) i).toInt

theorem pass_KA_0 (U : KV) : KA U (Proc.devRef .tc Cert.KernelIdeal.main_arg0) = U (Proc.devRef .tc Cert.KernelIdeal.main_arg0) := by
  simp only [KA]; after_results_simp
theorem pass_KA_1 (U : KV) : KA U (Proc.devRef .tc Cert.KernelIdeal.main_arg1) = U (Proc.devRef .tc Cert.KernelIdeal.main_arg1) := by
  simp only [KA]; after_results_simp
theorem pass_KA_2 (U : KV) : KA U (Proc.devRef .tc Cert.KernelIdeal.main_arg2) = U (Proc.devRef .tc Cert.KernelIdeal.main_arg2) := by
  simp only [KA]; after_results_simp
theorem pass_KA_3 (U : KV) : KA U (Proc.devRef .tc Cert.KernelIdeal.main_arg3) = U (Proc.devRef .tc Cert.KernelIdeal.main_arg3) := by
  simp only [KA]; after_results_simp
theorem pass_KA_4 (U : KV) : KA U (Proc.devRef .tc Cert.KernelIdeal.main_arg4) = U (Proc.devRef .tc Cert.KernelIdeal.main_arg4) := by
  simp only [KA]; after_results_simp
theorem pass_KA_5 (U : KV) : KA U (Proc.devRef .tc Cert.KernelIdeal.main_arg5) = U (Proc.devRef .tc Cert.KernelIdeal.main_arg5) := by
  simp only [KA]; after_results_simp
theorem pass_KA_6 (U : KV) : KA U (Proc.devRef .tc Cert.KernelIdeal.main_arg6) = U (Proc.devRef .tc Cert.KernelIdeal.main_arg6) := by
  simp only [KA]; after_results_simp
theorem pass_KA_7 (U : KV) : KA U (Proc.devRef .tc Cert.KernelIdeal.main_arg7) = U (Proc.devRef .tc Cert.KernelIdeal.main_arg7) := by
  simp only [KA]; after_results_simp
theorem pass_KA_8 (U : KV) : KA U (Proc.devRef .tc Cert.KernelIdeal.main_arg8) = U (Proc.devRef .tc Cert.KernelIdeal.main_arg8) := by
  simp only [KA]; after_results_simp
theorem pass_KA_9 (U : KV) : KA U (Proc.devRef .tc Cert.KernelIdeal.main_arg9) = U (Proc.devRef .tc Cert.KernelIdeal.main_arg9) := by
  simp only [KA]; after_results_simp
theorem pass_KA_10 (U : KV) : KA U (Proc.devRef .tc Cert.KernelIdeal.main_arg10) = U (Proc.devRef .tc Cert.KernelIdeal.main_arg10) := by
  simp only [KA]; after_results_simp
/-- The stretch keeps the agreement on the arguments. -/
theorem agree_KA {U : KV} {V : RV} (h : Agree U V) : Agree (KA U) V :=
  ⟨h.a0.trans (pass_KA_0 U).symm,
   h.a1.trans (pass_KA_1 U).symm,
   h.a2.trans (pass_KA_2 U).symm,
   h.a3.trans (pass_KA_3 U).symm,
   h.a4.trans (pass_KA_4 U).symm,
   h.a5.trans (pass_KA_5 U).symm,
   h.a6.trans (pass_KA_6 U).symm,
   h.a7.trans (pass_KA_7 U).symm,
   h.a8.trans (pass_KA_8 U).symm,
   h.a9.trans (pass_KA_9 U).symm,
   h.a10.trans (pass_KA_10 U).symm⟩

theorem pass_KB_0 (U : KV) : KB U (Proc.devRef .tc Cert.KernelIdeal.main_arg0) = U (Proc.devRef .tc Cert.KernelIdeal.main_arg0) := by
  simp only [KB]; after_results_simp
theorem pass_KB_1 (U : KV) : KB U (Proc.devRef .tc Cert.KernelIdeal.main_arg1) = U (Proc.devRef .tc Cert.KernelIdeal.main_arg1) := by
  simp only [KB]; after_results_simp
theorem pass_KB_2 (U : KV) : KB U (Proc.devRef .tc Cert.KernelIdeal.main_arg2) = U (Proc.devRef .tc Cert.KernelIdeal.main_arg2) := by
  simp only [KB]; after_results_simp
theorem pass_KB_3 (U : KV) : KB U (Proc.devRef .tc Cert.KernelIdeal.main_arg3) = U (Proc.devRef .tc Cert.KernelIdeal.main_arg3) := by
  simp only [KB]; after_results_simp
theorem pass_KB_4 (U : KV) : KB U (Proc.devRef .tc Cert.KernelIdeal.main_arg4) = U (Proc.devRef .tc Cert.KernelIdeal.main_arg4) := by
  simp only [KB]; after_results_simp
theorem pass_KB_5 (U : KV) : KB U (Proc.devRef .tc Cert.KernelIdeal.main_arg5) = U (Proc.devRef .tc Cert.KernelIdeal.main_arg5) := by
  simp only [KB]; after_results_simp
theorem pass_KB_6 (U : KV) : KB U (Proc.devRef .tc Cert.KernelIdeal.main_arg6) = U (Proc.devRef .tc Cert.KernelIdeal.main_arg6) := by
  simp only [KB]; after_results_simp
theorem pass_KB_7 (U : KV) : KB U (Proc.devRef .tc Cert.KernelIdeal.main_arg7) = U (Proc.devRef .tc Cert.KernelIdeal.main_arg7) := by
  simp only [KB]; after_results_simp
theorem pass_KB_8 (U : KV) : KB U (Proc.devRef .tc Cert.KernelIdeal.main_arg8) = U (Proc.devRef .tc Cert.KernelIdeal.main_arg8) := by
  simp only [KB]; after_results_simp
theorem pass_KB_9 (U : KV) : KB U (Proc.devRef .tc Cert.KernelIdeal.main_arg9) = U (Proc.devRef .tc Cert.KernelIdeal.main_arg9) := by
  simp only [KB]; after_results_simp
theorem pass_KB_10 (U : KV) : KB U (Proc.devRef .tc Cert.KernelIdeal.main_arg10) = U (Proc.devRef .tc Cert.KernelIdeal.main_arg10) := by
  simp only [KB]; after_results_simp
/-- The stretch keeps the agreement on the arguments. -/
theorem agree_KB {U : KV} {V : RV} (h : Agree U V) : Agree (KB U) V :=
  ⟨h.a0.trans (pass_KB_0 U).symm,
   h.a1.trans (pass_KB_1 U).symm,
   h.a2.trans (pass_KB_2 U).symm,
   h.a3.trans (pass_KB_3 U).symm,
   h.a4.trans (pass_KB_4 U).symm,
   h.a5.trans (pass_KB_5 U).symm,
   h.a6.trans (pass_KB_6 U).symm,
   h.a7.trans (pass_KB_7 U).symm,
   h.a8.trans (pass_KB_8 U).symm,
   h.a9.trans (pass_KB_9 U).symm,
   h.a10.trans (pass_KB_10 U).symm⟩

theorem pass_KC_0 (U : KV) : KC U (Proc.devRef .tc Cert.KernelIdeal.main_arg0) = U (Proc.devRef .tc Cert.KernelIdeal.main_arg0) := by
  simp only [KC]; after_results_simp
theorem pass_KC_1 (U : KV) : KC U (Proc.devRef .tc Cert.KernelIdeal.main_arg1) = U (Proc.devRef .tc Cert.KernelIdeal.main_arg1) := by
  simp only [KC]; after_results_simp
theorem pass_KC_2 (U : KV) : KC U (Proc.devRef .tc Cert.KernelIdeal.main_arg2) = U (Proc.devRef .tc Cert.KernelIdeal.main_arg2) := by
  simp only [KC]; after_results_simp
theorem pass_KC_3 (U : KV) : KC U (Proc.devRef .tc Cert.KernelIdeal.main_arg3) = U (Proc.devRef .tc Cert.KernelIdeal.main_arg3) := by
  simp only [KC]; after_results_simp
theorem pass_KC_4 (U : KV) : KC U (Proc.devRef .tc Cert.KernelIdeal.main_arg4) = U (Proc.devRef .tc Cert.KernelIdeal.main_arg4) := by
  simp only [KC]; after_results_simp
theorem pass_KC_5 (U : KV) : KC U (Proc.devRef .tc Cert.KernelIdeal.main_arg5) = U (Proc.devRef .tc Cert.KernelIdeal.main_arg5) := by
  simp only [KC]; after_results_simp
theorem pass_KC_6 (U : KV) : KC U (Proc.devRef .tc Cert.KernelIdeal.main_arg6) = U (Proc.devRef .tc Cert.KernelIdeal.main_arg6) := by
  simp only [KC]; after_results_simp
theorem pass_KC_7 (U : KV) : KC U (Proc.devRef .tc Cert.KernelIdeal.main_arg7) = U (Proc.devRef .tc Cert.KernelIdeal.main_arg7) := by
  simp only [KC]; after_results_simp
theorem pass_KC_8 (U : KV) : KC U (Proc.devRef .tc Cert.KernelIdeal.main_arg8) = U (Proc.devRef .tc Cert.KernelIdeal.main_arg8) := by
  simp only [KC]; after_results_simp
theorem pass_KC_9 (U : KV) : KC U (Proc.devRef .tc Cert.KernelIdeal.main_arg9) = U (Proc.devRef .tc Cert.KernelIdeal.main_arg9) := by
  simp only [KC]; after_results_simp
theorem pass_KC_10 (U : KV) : KC U (Proc.devRef .tc Cert.KernelIdeal.main_arg10) = U (Proc.devRef .tc Cert.KernelIdeal.main_arg10) := by
  simp only [KC]; after_results_simp
/-- The stretch keeps the agreement on the arguments. -/
theorem agree_KC {U : KV} {V : RV} (h : Agree U V) : Agree (KC U) V :=
  ⟨h.a0.trans (pass_KC_0 U).symm,
   h.a1.trans (pass_KC_1 U).symm,
   h.a2.trans (pass_KC_2 U).symm,
   h.a3.trans (pass_KC_3 U).symm,
   h.a4.trans (pass_KC_4 U).symm,
   h.a5.trans (pass_KC_5 U).symm,
   h.a6.trans (pass_KC_6 U).symm,
   h.a7.trans (pass_KC_7 U).symm,
   h.a8.trans (pass_KC_8 U).symm,
   h.a9.trans (pass_KC_9 U).symm,
   h.a10.trans (pass_KC_10 U).symm⟩

theorem pass_KD_0 (U : KV) : KD U (Proc.devRef .tc Cert.KernelIdeal.main_arg0) = U (Proc.devRef .tc Cert.KernelIdeal.main_arg0) := by
  simp only [KD]; after_results_simp
theorem pass_KD_1 (U : KV) : KD U (Proc.devRef .tc Cert.KernelIdeal.main_arg1) = U (Proc.devRef .tc Cert.KernelIdeal.main_arg1) := by
  simp only [KD]; after_results_simp
theorem pass_KD_2 (U : KV) : KD U (Proc.devRef .tc Cert.KernelIdeal.main_arg2) = U (Proc.devRef .tc Cert.KernelIdeal.main_arg2) := by
  simp only [KD]; after_results_simp
theorem pass_KD_3 (U : KV) : KD U (Proc.devRef .tc Cert.KernelIdeal.main_arg3) = U (Proc.devRef .tc Cert.KernelIdeal.main_arg3) := by
  simp only [KD]; after_results_simp
theorem pass_KD_4 (U : KV) : KD U (Proc.devRef .tc Cert.KernelIdeal.main_arg4) = U (Proc.devRef .tc Cert.KernelIdeal.main_arg4) := by
  simp only [KD]; after_results_simp
theorem pass_KD_5 (U : KV) : KD U (Proc.devRef .tc Cert.KernelIdeal.main_arg5) = U (Proc.devRef .tc Cert.KernelIdeal.main_arg5) := by
  simp only [KD]; after_results_simp
theorem pass_KD_6 (U : KV) : KD U (Proc.devRef .tc Cert.KernelIdeal.main_arg6) = U (Proc.devRef .tc Cert.KernelIdeal.main_arg6) := by
  simp only [KD]; after_results_simp
theorem pass_KD_7 (U : KV) : KD U (Proc.devRef .tc Cert.KernelIdeal.main_arg7) = U (Proc.devRef .tc Cert.KernelIdeal.main_arg7) := by
  simp only [KD]; after_results_simp
theorem pass_KD_8 (U : KV) : KD U (Proc.devRef .tc Cert.KernelIdeal.main_arg8) = U (Proc.devRef .tc Cert.KernelIdeal.main_arg8) := by
  simp only [KD]; after_results_simp
theorem pass_KD_9 (U : KV) : KD U (Proc.devRef .tc Cert.KernelIdeal.main_arg9) = U (Proc.devRef .tc Cert.KernelIdeal.main_arg9) := by
  simp only [KD]; after_results_simp
theorem pass_KD_10 (U : KV) : KD U (Proc.devRef .tc Cert.KernelIdeal.main_arg10) = U (Proc.devRef .tc Cert.KernelIdeal.main_arg10) := by
  simp only [KD]; after_results_simp
/-- The stretch keeps the agreement on the arguments. -/
theorem agree_KD {U : KV} {V : RV} (h : Agree U V) : Agree (KD U) V :=
  ⟨h.a0.trans (pass_KD_0 U).symm,
   h.a1.trans (pass_KD_1 U).symm,
   h.a2.trans (pass_KD_2 U).symm,
   h.a3.trans (pass_KD_3 U).symm,
   h.a4.trans (pass_KD_4 U).symm,
   h.a5.trans (pass_KD_5 U).symm,
   h.a6.trans (pass_KD_6 U).symm,
   h.a7.trans (pass_KD_7 U).symm,
   h.a8.trans (pass_KD_8 U).symm,
   h.a9.trans (pass_KD_9 U).symm,
   h.a10.trans (pass_KD_10 U).symm⟩

theorem pass_KE_0 (U : KV) : KE U (Proc.devRef .tc Cert.KernelIdeal.main_arg0) = U (Proc.devRef .tc Cert.KernelIdeal.main_arg0) := by
  simp only [KE]; after_results_simp
theorem pass_KE_1 (U : KV) : KE U (Proc.devRef .tc Cert.KernelIdeal.main_arg1) = U (Proc.devRef .tc Cert.KernelIdeal.main_arg1) := by
  simp only [KE]; after_results_simp
theorem pass_KE_2 (U : KV) : KE U (Proc.devRef .tc Cert.KernelIdeal.main_arg2) = U (Proc.devRef .tc Cert.KernelIdeal.main_arg2) := by
  simp only [KE]; after_results_simp
theorem pass_KE_3 (U : KV) : KE U (Proc.devRef .tc Cert.KernelIdeal.main_arg3) = U (Proc.devRef .tc Cert.KernelIdeal.main_arg3) := by
  simp only [KE]; after_results_simp
theorem pass_KE_4 (U : KV) : KE U (Proc.devRef .tc Cert.KernelIdeal.main_arg4) = U (Proc.devRef .tc Cert.KernelIdeal.main_arg4) := by
  simp only [KE]; after_results_simp
theorem pass_KE_5 (U : KV) : KE U (Proc.devRef .tc Cert.KernelIdeal.main_arg5) = U (Proc.devRef .tc Cert.KernelIdeal.main_arg5) := by
  simp only [KE]; after_results_simp
theorem pass_KE_6 (U : KV) : KE U (Proc.devRef .tc Cert.KernelIdeal.main_arg6) = U (Proc.devRef .tc Cert.KernelIdeal.main_arg6) := by
  simp only [KE]; after_results_simp
theorem pass_KE_7 (U : KV) : KE U (Proc.devRef .tc Cert.KernelIdeal.main_arg7) = U (Proc.devRef .tc Cert.KernelIdeal.main_arg7) := by
  simp only [KE]; after_results_simp
theorem pass_KE_8 (U : KV) : KE U (Proc.devRef .tc Cert.KernelIdeal.main_arg8) = U (Proc.devRef .tc Cert.KernelIdeal.main_arg8) := by
  simp only [KE]; after_results_simp
theorem pass_KE_9 (U : KV) : KE U (Proc.devRef .tc Cert.KernelIdeal.main_arg9) = U (Proc.devRef .tc Cert.KernelIdeal.main_arg9) := by
  simp only [KE]; after_results_simp
theorem pass_KE_10 (U : KV) : KE U (Proc.devRef .tc Cert.KernelIdeal.main_arg10) = U (Proc.devRef .tc Cert.KernelIdeal.main_arg10) := by
  simp only [KE]; after_results_simp
/-- The stretch keeps the agreement on the arguments. -/
theorem agree_KE {U : KV} {V : RV} (h : Agree U V) : Agree (KE U) V :=
  ⟨h.a0.trans (pass_KE_0 U).symm,
   h.a1.trans (pass_KE_1 U).symm,
   h.a2.trans (pass_KE_2 U).symm,
   h.a3.trans (pass_KE_3 U).symm,
   h.a4.trans (pass_KE_4 U).symm,
   h.a5.trans (pass_KE_5 U).symm,
   h.a6.trans (pass_KE_6 U).symm,
   h.a7.trans (pass_KE_7 U).symm,
   h.a8.trans (pass_KE_8 U).symm,
   h.a9.trans (pass_KE_9 U).symm,
   h.a10.trans (pass_KE_10 U).symm⟩

theorem pass_KF_0 (U : KV) : KF U (Proc.devRef .tc Cert.KernelIdeal.main_arg0) = U (Proc.devRef .tc Cert.KernelIdeal.main_arg0) := by
  simp only [KF]; after_results_simp
theorem pass_KF_1 (U : KV) : KF U (Proc.devRef .tc Cert.KernelIdeal.main_arg1) = U (Proc.devRef .tc Cert.KernelIdeal.main_arg1) := by
  simp only [KF]; after_results_simp
theorem pass_KF_2 (U : KV) : KF U (Proc.devRef .tc Cert.KernelIdeal.main_arg2) = U (Proc.devRef .tc Cert.KernelIdeal.main_arg2) := by
  simp only [KF]; after_results_simp
theorem pass_KF_3 (U : KV) : KF U (Proc.devRef .tc Cert.KernelIdeal.main_arg3) = U (Proc.devRef .tc Cert.KernelIdeal.main_arg3) := by
  simp only [KF]; after_results_simp
theorem pass_KF_4 (U : KV) : KF U (Proc.devRef .tc Cert.KernelIdeal.main_arg4) = U (Proc.devRef .tc Cert.KernelIdeal.main_arg4) := by
  simp only [KF]; after_results_simp
theorem pass_KF_5 (U : KV) : KF U (Proc.devRef .tc Cert.KernelIdeal.main_arg5) = U (Proc.devRef .tc Cert.KernelIdeal.main_arg5) := by
  simp only [KF]; after_results_simp
theorem pass_KF_6 (U : KV) : KF U (Proc.devRef .tc Cert.KernelIdeal.main_arg6) = U (Proc.devRef .tc Cert.KernelIdeal.main_arg6) := by
  simp only [KF]; after_results_simp
theorem pass_KF_7 (U : KV) : KF U (Proc.devRef .tc Cert.KernelIdeal.main_arg7) = U (Proc.devRef .tc Cert.KernelIdeal.main_arg7) := by
  simp only [KF]; after_results_simp
theorem pass_KF_8 (U : KV) : KF U (Proc.devRef .tc Cert.KernelIdeal.main_arg8) = U (Proc.devRef .tc Cert.KernelIdeal.main_arg8) := by
  simp only [KF]; after_results_simp
theorem pass_KF_9 (U : KV) : KF U (Proc.devRef .tc Cert.KernelIdeal.main_arg9) = U (Proc.devRef .tc Cert.KernelIdeal.main_arg9) := by
  simp only [KF]; after_results_simp
theorem pass_KF_10 (U : KV) : KF U (Proc.devRef .tc Cert.KernelIdeal.main_arg10) = U (Proc.devRef .tc Cert.KernelIdeal.main_arg10) := by
  simp only [KF]; after_results_simp
/-- The stretch keeps the agreement on the arguments. -/
theorem agree_KF {U : KV} {V : RV} (h : Agree U V) : Agree (KF U) V :=
  ⟨h.a0.trans (pass_KF_0 U).symm,
   h.a1.trans (pass_KF_1 U).symm,
   h.a2.trans (pass_KF_2 U).symm,
   h.a3.trans (pass_KF_3 U).symm,
   h.a4.trans (pass_KF_4 U).symm,
   h.a5.trans (pass_KF_5 U).symm,
   h.a6.trans (pass_KF_6 U).symm,
   h.a7.trans (pass_KF_7 U).symm,
   h.a8.trans (pass_KF_8 U).symm,
   h.a9.trans (pass_KF_9 U).symm,
   h.a10.trans (pass_KF_10 U).symm⟩

theorem pass_KG_0 (U : KV) : KG U (Proc.devRef .tc Cert.KernelIdeal.main_arg0) = U (Proc.devRef .tc Cert.KernelIdeal.main_arg0) := by
  simp only [KG]; after_results_simp
theorem pass_KG_1 (U : KV) : KG U (Proc.devRef .tc Cert.KernelIdeal.main_arg1) = U (Proc.devRef .tc Cert.KernelIdeal.main_arg1) := by
  simp only [KG]; after_results_simp
theorem pass_KG_2 (U : KV) : KG U (Proc.devRef .tc Cert.KernelIdeal.main_arg2) = U (Proc.devRef .tc Cert.KernelIdeal.main_arg2) := by
  simp only [KG]; after_results_simp
theorem pass_KG_3 (U : KV) : KG U (Proc.devRef .tc Cert.KernelIdeal.main_arg3) = U (Proc.devRef .tc Cert.KernelIdeal.main_arg3) := by
  simp only [KG]; after_results_simp
theorem pass_KG_4 (U : KV) : KG U (Proc.devRef .tc Cert.KernelIdeal.main_arg4) = U (Proc.devRef .tc Cert.KernelIdeal.main_arg4) := by
  simp only [KG]; after_results_simp
theorem pass_KG_5 (U : KV) : KG U (Proc.devRef .tc Cert.KernelIdeal.main_arg5) = U (Proc.devRef .tc Cert.KernelIdeal.main_arg5) := by
  simp only [KG]; after_results_simp
theorem pass_KG_6 (U : KV) : KG U (Proc.devRef .tc Cert.KernelIdeal.main_arg6) = U (Proc.devRef .tc Cert.KernelIdeal.main_arg6) := by
  simp only [KG]; after_results_simp
theorem pass_KG_7 (U : KV) : KG U (Proc.devRef .tc Cert.KernelIdeal.main_arg7) = U (Proc.devRef .tc Cert.KernelIdeal.main_arg7) := by
  simp only [KG]; after_results_simp
theorem pass_KG_8 (U : KV) : KG U (Proc.devRef .tc Cert.KernelIdeal.main_arg8) = U (Proc.devRef .tc Cert.KernelIdeal.main_arg8) := by
  simp only [KG]; after_results_simp
theorem pass_KG_9 (U : KV) : KG U (Proc.devRef .tc Cert.KernelIdeal.main_arg9) = U (Proc.devRef .tc Cert.KernelIdeal.main_arg9) := by
  simp only [KG]; after_results_simp
theorem pass_KG_10 (U : KV) : KG U (Proc.devRef .tc Cert.KernelIdeal.main_arg10) = U (Proc.devRef .tc Cert.KernelIdeal.main_arg10) := by
  simp only [KG]; after_results_simp
/-- The stretch keeps the agreement on the arguments. -/
theorem agree_KG {U : KV} {V : RV} (h : Agree U V) : Agree (KG U) V :=
  ⟨h.a0.trans (pass_KG_0 U).symm,
   h.a1.trans (pass_KG_1 U).symm,
   h.a2.trans (pass_KG_2 U).symm,
   h.a3.trans (pass_KG_3 U).symm,
   h.a4.trans (pass_KG_4 U).symm,
   h.a5.trans (pass_KG_5 U).symm,
   h.a6.trans (pass_KG_6 U).symm,
   h.a7.trans (pass_KG_7 U).symm,
   h.a8.trans (pass_KG_8 U).symm,
   h.a9.trans (pass_KG_9 U).symm,
   h.a10.trans (pass_KG_10 U).symm⟩

end Cert.Proof.Bridge

end
-- ==== Proof.ClaimParts.lean ====
/-
  The parts of the claim that need no value reasoning.

  The two kernel programs' frame claims are their generated frame certificates. The reference program's frame claim:
  its run ends with every buffer at the fold of its operations over the launch contents, and no operation of either
  half writes an argument array, so each argument array ends as it was launched. The idealization rewrote no
  operation, so there is nothing to preserve. From the precondition of the kernel program and the agreement of the
  two launch memories on the arguments: the reference's two edge-endpoint arrays have no negative word, and the two
  launch contents agree on the eleven argument arrays.
-/
import proofs.«104171_j72722386256375_1_alg».proof.Defs
import proofs.«104171_j72722386256375_1_alg».proof.Proof.Gen.Kernel.Frame
import proofs.«104171_j72722386256375_1_alg».proof.Proof.Gen.KernelIdeal.Frame
import proofs.«104171_j72722386256375_1_alg».proof.Proof.Gen.Kernel
import proofs.«104171_j72722386256375_1_alg».proof.Proof.Gen.KernelIdeal
import proofs.«104171_j72722386256375_1_alg».proof.Proof.Gen.ReferenceIdeal
import proofs.«104171_j72722386256375_1_alg».proof.Proof.Gen.Pre_finite_inputs
import proofs.«104171_j72722386256375_1_alg».proof.Proof.RefRun
import proofs.«104171_j72722386256375_1_alg».proof.Proof.RefFrame
import proofs.«104171_j72722386256375_1_alg».proof.Proof.PreIdx
import proofs.«104171_j72722386256375_1_alg».proof.Proof.KGroups

noncomputable section

namespace Cert.Proof.Parts

open Idealize.ShloMosaic Idealize.ShloMosaic.TcCoe Idealize.SL.Sem Idealize.ShloMosaic.StableHlo

/-- The kernel program's frame claim is its generated frame certificate. -/
theorem frame_p : @Cert.frame_Kernel Cert.Kernel.Gen.facts Cert.Pre_finite_inputs.Gen.facts :=
  fun m ρ _ => Cert.Kernel.Gen.frame m ρ

/-- The idealized kernel program's frame claim is its generated frame certificate. -/
theorem frame_pi : @Cert.frame_KernelIdeal Cert.KernelIdeal.Gen.facts Cert.Pre_finite_inputs.Gen.facts :=
  fun m ρ _ => Cert.KernelIdeal.Gen.frame m ρ

/-- A buffer that neither half of the reference's operations writes ends at its launch contents. -/
theorem keep (m : (ℓ : Loc Cert.ReferenceIdeal.nD Cert.ReferenceIdeal.τ Cert.ReferenceIdeal.sig) → Buf (Elt Ideal) ℓ) (c : Dev Cert.ReferenceIdeal.nD) (b : Ref Cert.ReferenceIdeal.sig .tc)
    (h1 : ∀ V : Valuation Cert.ReferenceIdeal.τ Cert.ReferenceIdeal.sig (Elt Ideal),
      after (Cert.ReferenceIdeal.RefRun.opsL1 (F := Ideal)) V (Proc.devRef .tc b) = V (Proc.devRef .tc b))
    (h2 : ∀ V : Valuation Cert.ReferenceIdeal.τ Cert.ReferenceIdeal.sig (Elt Ideal),
      after (Cert.ReferenceIdeal.RefRun.opsL2 (F := Ideal)) V (Proc.devRef .tc b) = V (Proc.devRef .tc b)) :
    after (Cert.ReferenceIdeal.RefRun.ops (F := Ideal)) (launchContents m c) (Proc.devRef .tc b)
      = m ((c.tc : Thread Cert.ReferenceIdeal.nD Cert.ReferenceIdeal.τ).loc b) :=
  (congrFun (Cert.ReferenceIdeal.RefRun.after_layers (launchContents m c)) (Proc.devRef .tc b)).trans ((h2 _).trans (h1 _))

/-! Each argument array of the reference, read back from the fold of all its operations, is its launch contents. -/

theorem refArg0 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg0)
      = m ((c.tc : Thread Cert.ReferenceIdeal.nD Cert.ReferenceIdeal.τ).loc Cert.ReferenceIdeal.main_arg0) :=
  keep m c Cert.ReferenceIdeal.main_arg0 Cert.ReferenceIdeal.RefRun.opsL1_arg0 Cert.ReferenceIdeal.RefRun.opsL2_arg0
theorem refArg1 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg1)
      = m ((c.tc : Thread Cert.ReferenceIdeal.nD Cert.ReferenceIdeal.τ).loc Cert.ReferenceIdeal.main_arg1) :=
  keep m c Cert.ReferenceIdeal.main_arg1 Cert.ReferenceIdeal.RefRun.opsL1_arg1 Cert.ReferenceIdeal.RefRun.opsL2_arg1
theorem refArg2 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg2)
      = m ((c.tc : Thread Cert.ReferenceIdeal.nD Cert.ReferenceIdeal.τ).loc Cert.ReferenceIdeal.main_arg2) :=
  keep m c Cert.ReferenceIdeal.main_arg2 Cert.ReferenceIdeal.RefRun.opsL1_arg2 Cert.ReferenceIdeal.RefRun.opsL2_arg2
theorem refArg3 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg3)
      = m ((c.tc : Thread Cert.ReferenceIdeal.nD Cert.ReferenceIdeal.τ).loc Cert.ReferenceIdeal.main_arg3) :=
  keep m c Cert.ReferenceIdeal.main_arg3 Cert.ReferenceIdeal.RefRun.opsL1_arg3 Cert.ReferenceIdeal.RefRun.opsL2_arg3
theorem refArg4 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg4)
      = m ((c.tc : Thread Cert.ReferenceIdeal.nD Cert.ReferenceIdeal.τ).loc Cert.ReferenceIdeal.main_arg4) :=
  keep m c Cert.ReferenceIdeal.main_arg4 Cert.ReferenceIdeal.RefRun.opsL1_arg4 Cert.ReferenceIdeal.RefRun.opsL2_arg4
theorem refArg5 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg5)
      = m ((c.tc : Thread Cert.ReferenceIdeal.nD Cert.ReferenceIdeal.τ).loc Cert.ReferenceIdeal.main_arg5) :=
  keep m c Cert.ReferenceIdeal.main_arg5 Cert.ReferenceIdeal.RefRun.opsL1_arg5 Cert.ReferenceIdeal.RefRun.opsL2_arg5
theorem refArg6 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg6)
      = m ((c.tc : Thread Cert.ReferenceIdeal.nD Cert.ReferenceIdeal.τ).loc Cert.ReferenceIdeal.main_arg6) :=
  keep m c Cert.ReferenceIdeal.main_arg6 Cert.ReferenceIdeal.RefRun.opsL1_arg6 Cert.ReferenceIdeal.RefRun.opsL2_arg6
theorem refArg7 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg7)
      = m ((c.tc : Thread Cert.ReferenceIdeal.nD Cert.ReferenceIdeal.τ).loc Cert.ReferenceIdeal.main_arg7) :=
  keep m c Cert.ReferenceIdeal.main_arg7 Cert.ReferenceIdeal.RefRun.opsL1_arg7 Cert.ReferenceIdeal.RefRun.opsL2_arg7
theorem refArg8 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg8)
      = m ((c.tc : Thread Cert.ReferenceIdeal.nD Cert.ReferenceIdeal.τ).loc Cert.ReferenceIdeal.main_arg8) :=
  keep m c Cert.ReferenceIdeal.main_arg8 Cert.ReferenceIdeal.RefRun.opsL1_arg8 Cert.ReferenceIdeal.RefRun.opsL2_arg8
theorem refArg9 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg9)
      = m ((c.tc : Thread Cert.ReferenceIdeal.nD Cert.ReferenceIdeal.τ).loc Cert.ReferenceIdeal.main_arg9) :=
  keep m c Cert.ReferenceIdeal.main_arg9 Cert.ReferenceIdeal.RefRun.opsL1_arg9 Cert.ReferenceIdeal.RefRun.opsL2_arg9
theorem refArg10 (m : (ℓ : Loc Cert.ReferenceIdeal.nD Cert.ReferenceIdeal.τ Cert.ReferenceIdeal.sig) → Buf (Elt Ideal) ℓ) (c : Dev Cert.ReferenceIdeal.nD) :
    after (Cert.ReferenceIdeal.RefRun.ops (F := Ideal)) (launchContents m c) (Proc.devRef .tc Cert.ReferenceIdeal.main_arg10)
      = m ((c.tc : Thread Cert.ReferenceIdeal.nD Cert.ReferenceIdeal.τ).loc Cert.ReferenceIdeal.main_arg10) :=
  keep m c Cert.ReferenceIdeal.main_arg10 Cert.ReferenceIdeal.RefRun.opsL1_arg10 Cert.ReferenceIdeal.RefRun.opsL2_arg10

/-- The idealized reference program runs and its argument arrays end unchanged. -/
theorem frame_ri : @Cert.frame_ReferenceIdeal Cert.ReferenceIdeal.Gen.facts Cert.Pre_finite_inputs.Gen.facts :=
  fun m ρ _ =>
    (θ_run (Cert.ReferenceIdeal.defs (F := Ideal)) _ _).mono
      (fun r h c => ⟨(h c Cert.ReferenceIdeal.main_arg0).trans (refArg0 m c),
        (h c Cert.ReferenceIdeal.main_arg1).trans (refArg1 m c),
        (h c Cert.ReferenceIdeal.main_arg2).trans (refArg2 m c),
        (h c Cert.ReferenceIdeal.main_arg3).trans (refArg3 m c),
        (h c Cert.ReferenceIdeal.main_arg4).trans (refArg4 m c),
        (h c Cert.ReferenceIdeal.main_arg5).trans (refArg5 m c),
        (h c Cert.ReferenceIdeal.main_arg6).trans (refArg6 m c),
        (h c Cert.ReferenceIdeal.main_arg7).trans (refArg7 m c),
        (h c Cert.ReferenceIdeal.main_arg8).trans (refArg8 m c),
        (h c Cert.ReferenceIdeal.main_arg9).trans (refArg9 m c),
        (h c Cert.ReferenceIdeal.main_arg10).trans (refArg10 m c)⟩)
      (Cert.ReferenceIdeal.RefRun.run_main (F := Ideal) m ρ)

/-- The idealization rewrote no operation. -/
theorem preserves : Cert.preserves_Kernel_KernelIdeal := trivial

/-- Under the kernel program's precondition and the agreement on the arguments, the reference's two edge-endpoint
    arrays have no negative word. -/
theorem nonnegR_of_pre (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : @Cert.Pre_KernelIdeal Cert.Pre_finite_inputs.Gen.facts m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)))
    (c : Dev Cert.KernelIdeal.nD) : Cert.Proof.Bridge.NonNegR (launchContents m' c) := by
  obtain ⟨h8, h9⟩ := Cert.Proof.PreIdx.nonneg_of_pre _ _ _ _ _ _ _ _ _ _ _ (hpre c)
  obtain ⟨-, -, -, -, -, -, -, -, e8, e9, -⟩ := hagree c
  refine ⟨fun i => ?_, fun i => ?_⟩
  · show (0 : Int) ≤ ((m' ((c.tc : Thread Cert.ReferenceIdeal.nD Cert.ReferenceIdeal.τ).loc Cert.ReferenceIdeal.main_arg8) : IVec Cert.ReferenceIdeal.S500000 32) i).toInt
    rw [e8]; exact h8 i
  · show (0 : Int) ≤ ((m' ((c.tc : Thread Cert.ReferenceIdeal.nD Cert.ReferenceIdeal.τ).loc Cert.ReferenceIdeal.main_arg9) : IVec Cert.ReferenceIdeal.S500000 32) i).toInt
    rw [e9]; exact h9 i

/-- Under the agreement on the arguments, the two programs' launch contents agree on the eleven argument arrays. -/
theorem agree_launch (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)))
    (c : Dev Cert.KernelIdeal.nD) :
    Cert.Proof.Bridge.Agree (Cert.KernelIdeal.Gen.W0 (F := Ideal) m ρ c) (launchContents m' c) := by
  obtain ⟨e0, e1, e2, e3, e4, e5, e6, e7, e8, e9, e10⟩ := hagree c
  exact ⟨e0, e1, e2, e3, e4, e5, e6, e7, e8, e9, e10⟩

end Cert.Proof.Parts

end
-- ==== Proof.L1A.lean ====
import proofs.«104171_j72722386256375_1_alg».proof.Proof.KGroups

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## Layer 1, before the edge kernel: each array the kernel program's host lines hand to the edge kernel is the array the
reference computes at the matching place, given equal arguments. -/

/-- Layer 1: the per-edge relation rows. -/
theorem A_relE (U : KV) (V : RV) (hag : Agree U V) (hnn : NonNegR V) :
    KA U (Proc.devRef .tc Cert.KernelIdeal.main_v9) = R1 V (Proc.devRef .tc Cert.ReferenceIdeal.main_v10) := by
  simp only [R1, KA, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the node rows gathered at the destinations. -/
theorem A_xdst (U : KV) (V : RV) (hag : Agree U V) (hnn : NonNegR V) :
    KA U (Proc.devRef .tc Cert.KernelIdeal.main_v16) = R1 V (Proc.devRef .tc Cert.ReferenceIdeal.main_v19) := by
  simp only [R1, KA, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the node rows gathered at the sources. -/
theorem A_xsrc (U : KV) (V : RV) (hag : Agree U V) (hnn : NonNegR V) :
    KA U (Proc.devRef .tc Cert.KernelIdeal.main_v23) = R1 V (Proc.devRef .tc Cert.ReferenceIdeal.main_v68) := by
  simp only [R1, KA, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the first layer's incoming weight matrix. -/
theorem A_win (U : KV) (V : RV) (hag : Agree U V) (hnn : NonNegR V) :
    KA U (Proc.devRef .tc Cert.KernelIdeal.main_v73) = R1 V (Proc.devRef .tc Cert.ReferenceIdeal.main_v12) := by
  simp only [R1, KA, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the first layer's outgoing weight matrix. -/
theorem A_wout (U : KV) (V : RV) (hag : Agree U V) (hnn : NonNegR V) :
    KA U (Proc.devRef .tc Cert.KernelIdeal.main_v75) = R1 V (Proc.devRef .tc Cert.ReferenceIdeal.main_v61) := by
  simp only [R1, KA, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the relation table with the self-loop row appended. -/
theorem A_rel (U : KV) (V : RV) (hag : Agree U V) (hnn : NonNegR V) :
    KA U (Proc.devRef .tc Cert.KernelIdeal.main_v2) = R1 V (Proc.devRef .tc Cert.ReferenceIdeal.main_v3) := by
  simp only [R1, KA, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

end Cert.Proof.Bridge

end
-- ==== Proof.L1An.lean ====
import proofs.«104171_j72722386256375_1_alg».proof.Proof.KGroups

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## Layer 1, before the edge kernel: the per-edge degree normalisations.  The kernel program counts degrees by scattering
ones at the raw endpoint words, the reference at the words after jnp's negative-index wrap: the same arrays when no endpoint
word is negative. -/

/-- Layer 1: the per-edge degree normalisation of the source direction. -/
theorem A_nin (U : KV) (V : RV) (hag : Agree U V) (hnn : NonNegR V) :
    KA U (Proc.devRef .tc Cert.KernelIdeal.main_v55) = R1 V (Proc.devRef .tc Cert.ReferenceIdeal.main_v49) := by
  simp only [R1, KA, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the per-edge degree normalisation of the destination direction. -/
theorem A_nout (U : KV) (V : RV) (hag : Agree U V) (hnn : NonNegR V) :
    KA U (Proc.devRef .tc Cert.KernelIdeal.main_v71) = R1 V (Proc.devRef .tc Cert.ReferenceIdeal.main_v98) := by
  simp only [R1, KA, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

end Cert.Proof.Bridge

end
-- ==== Proof.RefJunction.lean ====
/- Junctions of the first half of the idealized reference program: each of its main intermediate buffers, after the
   half has run, as ONE step of the program's own operations over other buffers read after the same run (or over the
   launch contents of an argument). Both sides are the same composition of the program's operations over the launch
   contents, by computation. -/
import proofs.«104171_j72722386256375_1_alg».proof.Proof.RefFrame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The column variances of a [100000, 128] array as @_var computes them: the column means (sums over the rows
    divided by 1e5), the squared deviations summed over the rows and divided by 1e5 − 0 (the correction is the
    integer 0 converted), and where that divisor is not positive the quiet NaN instead — the guard a scalar,
    broadcast over the columns. -/
def varRows (o : FVec F S100000x128 .f32) : FVec F S128 .f32 :=
  let m : FVec F S1x128 .f32 :=
    Host.divf (broadcastInDim S1x128 ![1] bcast_S128_S1x128_1 (Host.reduceAdd o (constant S_ .f32 0x00000000#32) reducesTo_S100000x128_S128_d0 h_S_))
      (broadcastInDim S1x128 ![] bcast_S_S1x128 (constant S_ .f32 0x47C35000#32))
  let d : FVec F S100000x128 .f32 := subf o (broadcastInDim S100000x128 ![0, 1] bcast_S1x128_S100000x128_0_1 m)
  let n : FVec F S_ .f32 := subf (constant S_ .f32 0x47C35000#32) (sitofp .f32 (constantI S_ 32 0#32))
  select (broadcastInDim S128 ![] bcast_S_S128 (cmpf .ogt n (constant S_ .f32 0x00000000#32)))
    (Host.divf (Host.reduceAdd (mulf d d) (constant S_ .f32 0x00000000#32) reducesTo_S100000x128_S128_d0 h_S_)
      (broadcastInDim S128 ![] bcast_S_S128 n))
    (broadcastInDim S128 ![] bcast_S_S128 (constant S_ .f32 0x7FC00000#32))

set_option maxRecDepth 16384 in
set_option maxHeartbeats 8000000 in
/-- The first edge type's messages: the gathered rows times the relation rows, through the weight, scaled edge by edge by the norm. -/
theorem J51 (V : Valuation τ sig (Elt F)) :
    after opsL1 V (Proc.devRef .tc main_v51)
      = mulf (Host.dotGeneral dot_S500000x128_S128x128_S500000x128_1_0_0_1_n_n none (mulf (after opsL1 V (Proc.devRef .tc main_v19)) (after opsL1 V (Proc.devRef .tc main_v10))) (after opsL1 V (Proc.devRef .tc main_v12)))
          (broadcastInDim S500000x128 ![0, 1] bcast_S500000x1_S500000x128_0_1 (after opsL1 V (Proc.devRef .tc main_v49))) := by
  rfl

set_option maxRecDepth 16384 in
set_option maxHeartbeats 8000000 in
/-- The second edge type's messages. -/
theorem J100 (V : Valuation τ sig (Elt F)) :
    after opsL1 V (Proc.devRef .tc main_v100)
      = mulf (Host.dotGeneral dot_S500000x128_S128x128_S500000x128_1_0_0_1_n_n none (mulf (after opsL1 V (Proc.devRef .tc main_v68)) (after opsL1 V (Proc.devRef .tc main_v10))) (after opsL1 V (Proc.devRef .tc main_v61)))
          (broadcastInDim S500000x128 ![0, 1] bcast_S500000x1_S500000x128_0_1 (after opsL1 V (Proc.devRef .tc main_v98))) := by
  rfl

set_option maxRecDepth 16384 in
set_option maxHeartbeats 8000000 in
/-- The first edge type's messages summed at their target rows (indices wrapped into range). -/
theorem J59 (V : Valuation τ sig (Elt F)) :
    after opsL1 V (Proc.devRef .tc main_v59)
      = Host.scatterAdd scatter_S100000x128_S500000x1_S500000x128_1_0_0_1
          (broadcastInDim S100000x128 ![] bcast_S_S100000x128 (constant S_ .f32 0x00000000#32))
          (broadcastInDim S500000x1 ![0] bcast_S500000_S500000x1_0
            (select (cmpi .slt (V (Proc.devRef .tc main_arg8) : (⟨S500000, .i32⟩ : BufTy).Contents (Elt F)) (broadcastInDim S500000 ![] bcast_S_S500000 (constantI S_ 32 0#32)))
              (addi (V (Proc.devRef .tc main_arg8) : (⟨S500000, .i32⟩ : BufTy).Contents (Elt F)) (broadcastInDim S500000 ![] bcast_S_S500000 (constantI S_ 32 100000#32))) (V (Proc.devRef .tc main_arg8) : (⟨S500000, .i32⟩ : BufTy).Contents (Elt F))))
          (after opsL1 V (Proc.devRef .tc main_v51)) := by
  rfl

set_option maxRecDepth 16384 in
set_option maxHeartbeats 8000000 in
/-- The second edge type's messages summed at their target rows. -/
theorem J108 (V : Valuation τ sig (Elt F)) :
    after opsL1 V (Proc.devRef .tc main_v108)
      = Host.scatterAdd scatter_S100000x128_S500000x1_S500000x128_1_0_0_1
          (broadcastInDim S100000x128 ![] bcast_S_S100000x128 (constant S_ .f32 0x00000000#32))
          (broadcastInDim S500000x1 ![0] bcast_S500000_S500000x1_0
            (select (cmpi .slt (V (Proc.devRef .tc main_arg9) : (⟨S500000, .i32⟩ : BufTy).Contents (Elt F)) (broadcastInDim S500000 ![] bcast_S_S500000 (constantI S_ 32 0#32)))
              (addi (V (Proc.devRef .tc main_arg9) : (⟨S500000, .i32⟩ : BufTy).Contents (Elt F)) (broadcastInDim S500000 ![] bcast_S_S500000 (constantI S_ 32 100000#32))) (V (Proc.devRef .tc main_arg9) : (⟨S500000, .i32⟩ : BufTy).Contents (Elt F))))
          (after opsL1 V (Proc.devRef .tc main_v100)) := by
  rfl

set_option maxRecDepth 16384 in
set_option maxHeartbeats 8000000 in
/-- The layer's pre-normalisation output: the two sums and the self-loop term, averaged, plus the bias. -/
theorem J124 (V : Valuation τ sig (Elt F)) :
    after opsL1 V (Proc.devRef .tc main_v124)
      = addf (mulf (addf (addf (after opsL1 V (Proc.devRef .tc main_v59)) (after opsL1 V (Proc.devRef .tc main_v108)))
            (Host.dotGeneral dot_S100000x128_S128x128_S100000x128_1_0_0_1_n_n none
              (mulf (V (Proc.devRef .tc main_arg0) : (⟨S100000x128, .f32⟩ : BufTy).Contents (Elt F)) (broadcastInDim S100000x128 ![0, 1] bcast_S1x128_S100000x128_0_1 (after opsL1 V (Proc.devRef .tc main_v110)))) (after opsL1 V (Proc.devRef .tc main_v114))))
          (broadcastInDim S100000x128 ![] bcast_S_S100000x128 (constant S_ .f32 0x3EAAAAAB#32)))
          (broadcastInDim S100000x128 ![0, 1] bcast_S1x128_S100000x128_0_1 (after opsL1 V (Proc.devRef .tc main_v122))) := by
  rfl

set_option maxRecDepth 16384 in
set_option maxHeartbeats 8000000 in
/-- Its column means. -/
theorem J127 (V : Valuation τ sig (Elt F)) :
    after opsL1 V (Proc.devRef .tc main_v127)
      = Host.divf (Host.reduceAdd (after opsL1 V (Proc.devRef .tc main_v124)) (constant S_ .f32 0x00000000#32) reducesTo_S100000x128_S128_d0 h_S_)
          (broadcastInDim S128 ![] bcast_S_S128 (constant S_ .f32 0x47C35000#32)) := by
  rfl

set_option maxRecDepth 16384 in
set_option maxHeartbeats 8000000 in
/-- Its column variances. -/
theorem J128 (V : Valuation τ sig (Elt F)) :
    after opsL1 V (Proc.devRef .tc main_v128)
      = varRows (after opsL1 V (Proc.devRef .tc main_v124)) := by
  rfl

set_option maxRecDepth 16384 in
set_option maxHeartbeats 8000000 in
/-- The layer's output: normalised by column, through tanh. -/
theorem J138 (V : Valuation τ sig (Elt F)) :
    after opsL1 V (Proc.devRef .tc main_v138)
      = Host.tanh (mulf
          (subf (after opsL1 V (Proc.devRef .tc main_v124)) (broadcastInDim S100000x128 ![0, 1] bcast_S1x128_S100000x128_0_1 (broadcastInDim S1x128 ![1] bcast_S128_S1x128_1 (after opsL1 V (Proc.devRef .tc main_v127)))))
          (broadcastInDim S100000x128 ![0, 1] bcast_S1x128_S100000x128_0_1 (broadcastInDim S1x128 ![1] bcast_S128_S1x128_1
            (Host.rsqrt (addf (after opsL1 V (Proc.devRef .tc main_v128)) (broadcastInDim S128 ![] bcast_S_S128 (constant S_ .f32 0x3727C5AC#32))))))) := by
  rfl

set_option maxRecDepth 16384 in
set_option maxHeartbeats 8000000 in
/-- The relation table's update: through its weight, the appended row dropped. -/
theorem J142 (V : Valuation τ sig (Elt F)) :
    after opsL1 V (Proc.devRef .tc main_v142)
      = extractStridedSlice S10x128 ![0, 0] (Host.dotGeneral dot_S11x128_S128x128_S11x128_1_0_0_1_n_n none (after opsL1 V (Proc.devRef .tc main_v3)) (after opsL1 V (Proc.devRef .tc main_v140))) slices_S11x128_S10x128_0_0 := by
  rfl

set_option maxRecDepth 16384 in
set_option maxHeartbeats 8000000 in
/-- The second layer's self-loop relation row, sliced from the argument. -/
theorem J143 (V : Valuation τ sig (Elt F)) :
    after opsL1 V (Proc.devRef .tc main_v143)
      = extractStridedSlice S1x1x128 ![1, 0, 0] (V (Proc.devRef .tc main_arg6) : (⟨S2x1x128, .f32⟩ : BufTy).Contents (Elt F)) slices_S2x1x128_S1x1x128_1_0_0 := by
  rfl

end Cert.ReferenceIdeal.RefRun

end
-- ==== Proof.L1B.lean ====
import proofs.«104171_j72722386256375_1_alg».proof.Proof.KGroups
import proofs.«104171_j72722386256375_1_alg».proof.Proof.RefJunction

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## Layer 1, between the edge kernel and the combine kernel: the two scatter-adds of the edge messages and the rows the
combine kernel reads (bias, self-loop relation, self-loop weights). -/

/-- Layer 1: the bias row. -/
theorem B_bias (U : KV) (V : RV) (hag : Agree U V) (hnn : NonNegR V) :
    KB U (Proc.devRef .tc Cert.KernelIdeal.main_v85) = R1 V (Proc.devRef .tc Cert.ReferenceIdeal.main_v122) := by
  simp only [R1, KB, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the self-loop relation row. -/
theorem B_lr (U : KV) (V : RV) (hag : Agree U V) (hnn : NonNegR V) :
    KB U (Proc.devRef .tc Cert.KernelIdeal.main_v87) = R1 V (Proc.devRef .tc Cert.ReferenceIdeal.main_v110) := by
  simp only [R1, KB, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the self-loop weight matrix. -/
theorem B_wl (U : KV) (V : RV) (hag : Agree U V) (hnn : NonNegR V) :
    KB U (Proc.devRef .tc Cert.KernelIdeal.main_v89) = R1 V (Proc.devRef .tc Cert.ReferenceIdeal.main_v114) := by
  simp only [R1, KB, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the messages of the source direction, summed at their source rows. -/
theorem B_in (U : KV) (V : RV) (hag : Agree U V) (hnn : NonNegR V)
    (hm : U (Proc.devRef .tc Cert.KernelIdeal.main_v76_0) = R1 V (Proc.devRef .tc Cert.ReferenceIdeal.main_v51)) :
    KB U (Proc.devRef .tc Cert.KernelIdeal.main_v79) = R1 V (Proc.devRef .tc Cert.ReferenceIdeal.main_v59) := by
  simp only [R1] at hm ⊢
  rw [Cert.ReferenceIdeal.RefRun.J59 V, ← hm]
  simp only [KB]
  after_results_simp
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the messages of the destination direction, summed at their destination rows. -/
theorem B_out (U : KV) (V : RV) (hag : Agree U V) (hnn : NonNegR V)
    (hm : U (Proc.devRef .tc Cert.KernelIdeal.main_v76_1) = R1 V (Proc.devRef .tc Cert.ReferenceIdeal.main_v100)) :
    KB U (Proc.devRef .tc Cert.KernelIdeal.main_v82) = R1 V (Proc.devRef .tc Cert.ReferenceIdeal.main_v108) := by
  simp only [R1] at hm ⊢
  rw [Cert.ReferenceIdeal.RefRun.J108 V, ← hm]
  simp only [KB]
  after_results_simp
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  rfl

/-- Layer 1: the relation table passes these host lines unchanged. -/
theorem B_rel (U : KV) : KB U (Proc.devRef .tc Cert.KernelIdeal.main_v2) = U (Proc.devRef .tc Cert.KernelIdeal.main_v2) := by
  simp only [KB]; after_results_simp

end Cert.Proof.Bridge

end
-- ==== Proof.L1C.lean ====
import proofs.«104171_j72722386256375_1_alg».proof.Proof.KGroups
import proofs.«104171_j72722386256375_1_alg».proof.Proof.RefJunction
import proofs.«104171_j72722386256375_1_alg».proof.Proof.LibTypedRef

set_option maxRecDepth 65536
set_option maxHeartbeats 4000000
set_option maxHeartbeats 4000000

noncomputable section

namespace Cert.Proof.Bridge

open Idealize.ShloMosaic Idealize.ShloMosaic.TcCoe Idealize.SL.Sem Idealize.ShloMosaic.StableHlo Cert.Proof

/-! ## Layer 1, between the combine kernel and the normalize kernel: the column means and variances.  The kernel program keeps
them as [1,128] rows (keepdims), the reference as length-128 vectors that it then places as a row: the row IS the vector
placed as a row, entry by entry (the divisor, the guard and the fill are splats of scalars, the same in both shapes). -/

/-- Layer 1: the pre-normalisation array passes the host lines unchanged. -/
theorem C_pre (U : KV) : KC U (Proc.devRef .tc Cert.KernelIdeal.main_v90) = U (Proc.devRef .tc Cert.KernelIdeal.main_v90) := by
  simp only [KC]; after_results_simp

/-- Layer 1: the kept-dimension mean row is the reference's mean vector placed as a row. -/
theorem C_mean (U : KV) (V : RV)
    (hv : U (Proc.devRef .tc Cert.KernelIdeal.main_v90) = R1 V (Proc.devRef .tc Cert.ReferenceIdeal.main_v124)) :
    KC U (Proc.devRef .tc Cert.KernelIdeal.main_v94)
      = broadcastInDim Cert.ReferenceIdeal.S1x128 ![1] Cert.ReferenceIdeal.Gen.bcast_S128_S1x128_1 (R1 V (Proc.devRef .tc Cert.ReferenceIdeal.main_v127)) := by
  simp only [R1] at hv ⊢
  rw [Cert.ReferenceIdeal.RefRun.J127 V, ← hv]
  simp only [KC]
  after_results_simp
  funext j
  rfl

/-- Layer 1: the kept-dimension variance row is the reference's variance vector placed as a row. -/
theorem C_var (U : KV) (V : RV)
    (hv : U (Proc.devRef .tc Cert.KernelIdeal.main_v90) = R1 V (Proc.devRef .tc Cert.ReferenceIdeal.main_v124)) :
    KC U (Proc.devRef .tc Cert.KernelIdeal.main_v95)
      = broadcastInDim Cert.ReferenceIdeal.S1x128 ![1] Cert.ReferenceIdeal.Gen.bcast_S128_S1x128_1 (R1 V (Proc.devRef .tc Cert.ReferenceIdeal.main_v128)) := by
  simp only [R1] at hv ⊢
  rw [Cert.ReferenceIdeal.RefRun.J128 V, ← hv]
  simp only [KC]
  after_results_simp
  funext j
  rfl

/-- Layer 1: the relation table passes these host lines unchanged. -/
theorem C_rel (U : KV) : KC U (Proc.devRef .tc Cert.KernelIdeal.main_v2) = U (Proc.devRef .tc Cert.KernelIdeal.main_v2) := by
  simp only [KC]; after_results_simp

end Cert.Proof.Bridge

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.RegionSpec.lean ====
/-
  The three whole-array functions the program computes between its gathers, scatters and statistics, on the
  extended reals.

  edgeMsg x rel w nrm : the per-edge message. Row e of x and of rel are multiplied entry by entry, the row is
  multiplied by the 128×128 matrix w, and the result is scaled by the edge's weight nrm[e, 0].

  combineRows x lr w a b bias : the per-node combination. Row n of x is multiplied entry by entry by the one row lr,
  the row is multiplied by the matrix w, the two aggregates a and b are added in front, the sum is multiplied by
  the 32-bit constant nearest to one third and the bias row is added.

  normRows o mean var : the per-node normalisation. Each entry has its column's mean subtracted and is multiplied
  by the reciprocal square root of its column's variance plus a small 32-bit constant; the hyperbolic tangent of that
  is the result.

  The order of the operations is the one both programs print; no operation is reassociated.
-/
import Idealize.ShloMosaic.Lib.ValueIdx
import Idealize.ShloMosaic.PureOps.Ideal

noncomputable section

open scoped BigOperators

namespace Cert.RegionSpec

open Idealize.ShloMosaic Idealize.ShloMosaic.ValueIdx

/-- The 32-bit constant nearest to one third, as the programs print it. -/
def third : EReal := Ideal.ofBits .f32 0x3EAAAAAB#32

/-- The small 32-bit constant added to a variance, as the programs print it. -/
def eps : EReal := Ideal.ofBits .f32 0x3727C5AC#32

/-- The per-edge message: ((x ∘ rel) · w) scaled row by row. -/
def edgeMsg (x rel : (⟨2, ![500000, 128]⟩ : Shape).Idx → EReal) (w : (⟨2, ![128, 128]⟩ : Shape).Idx → EReal)
    (nrm : (⟨2, ![500000, 1]⟩ : Shape).Idx → EReal) : (⟨2, ![500000, 128]⟩ : Shape).Idx → EReal :=
  fun i => (∑ k : Fin 128, (x (ix2 (i 0) k) * rel (ix2 (i 0) k)) * w (ix2 k (i 1))) * nrm (ix2 (i 0) 0)

theorem edgeMsg_apply (x rel : (⟨2, ![500000, 128]⟩ : Shape).Idx → EReal) (w : (⟨2, ![128, 128]⟩ : Shape).Idx → EReal)
    (nrm : (⟨2, ![500000, 1]⟩ : Shape).Idx → EReal) (e : Fin 500000) (j : Fin 128) :
    edgeMsg x rel w nrm (ix2 e j) = (∑ k : Fin 128, (x (ix2 e k) * rel (ix2 e k)) * w (ix2 k j)) * nrm (ix2 e 0) := rfl

/-- The per-node combination: ((a + b) + (x ∘ lr) · w) · third + bias. -/
def combineRows (x : (⟨2, ![100000, 128]⟩ : Shape).Idx → EReal) (lr : (⟨2, ![1, 128]⟩ : Shape).Idx → EReal)
    (w : (⟨2, ![128, 128]⟩ : Shape).Idx → EReal) (a b : (⟨2, ![100000, 128]⟩ : Shape).Idx → EReal)
    (bias : (⟨2, ![1, 128]⟩ : Shape).Idx → EReal) : (⟨2, ![100000, 128]⟩ : Shape).Idx → EReal :=
  fun i => ((a i + b i) + ∑ k : Fin 128, (x (ix2 (i 0) k) * lr (ix2 0 k)) * w (ix2 k (i 1))) * third + bias (ix2 0 (i 1))

theorem combineRows_apply (x : (⟨2, ![100000, 128]⟩ : Shape).Idx → EReal) (lr : (⟨2, ![1, 128]⟩ : Shape).Idx → EReal)
    (w : (⟨2, ![128, 128]⟩ : Shape).Idx → EReal) (a b : (⟨2, ![100000, 128]⟩ : Shape).Idx → EReal)
    (bias : (⟨2, ![1, 128]⟩ : Shape).Idx → EReal) (n : Fin 100000) (j : Fin 128) :
    combineRows x lr w a b bias (ix2 n j)
      = ((a (ix2 n j) + b (ix2 n j)) + ∑ k : Fin 128, (x (ix2 n k) * lr (ix2 0 k)) * w (ix2 k j)) * third + bias (ix2 0 j) := rfl

/-- The per-node normalisation: tanh ((o − mean) · rsqrt (var + eps)). -/
def normRows (o : (⟨2, ![100000, 128]⟩ : Shape).Idx → EReal) (mean var : (⟨2, ![1, 128]⟩ : Shape).Idx → EReal) :
    (⟨2, ![100000, 128]⟩ : Shape).Idx → EReal :=
  fun i => Ideal.tanh ((o i - mean (ix2 0 (i 1))) * Ideal.rsqrt (var (ix2 0 (i 1)) + eps))

theorem normRows_apply (o : (⟨2, ![100000, 128]⟩ : Shape).Idx → EReal) (mean var : (⟨2, ![1, 128]⟩ : Shape).Idx → EReal)
    (n : Fin 100000) (j : Fin 128) :
    normRows o mean var (ix2 n j) = Ideal.tanh ((o (ix2 n j) - mean (ix2 0 j)) * Ideal.rsqrt (var (ix2 0 j) + eps)) := rfl

end Cert.RegionSpec

end
-- ==== Proof.RegionPay.lean ====
/-
  What each kernel body stores, read at one index of its block, on the extended reals.

  A body loads whole blocks, computes one array from them and stores it. Read at the entry (p, q) of the block:
  the edge kernel's array is (∑ₖ (x[p,k] · rel[p,k]) · w[k,q]) · nrm[p,0]; the combine kernel's is
  ((a[p,q] + b[p,q]) + ∑ₖ (x[p,k] · lr[0,k]) · w[k,q]) · third + bias[0,q]; the normalize kernel's is
  tanh ((o[p,q] − mean[0,q]) · rsqrt (var[0,q] + eps)). The narrowing to 16 bits before a product is the identity
  on the extended reals, a product into the zero array is the plain sum over the shared coordinate, and a column or a
  row broadcast over the block reads the column's or the row's entry.
-/
import proofs.«104171_j72722386256375_1_alg».proof.Proof.Gen.KernelIdeal.Skeleton
import proofs.«104171_j72722386256375_1_alg».proof.Proof.LibPlainDot
import proofs.«104171_j72722386256375_1_alg».proof.Proof.RegionSpec
import Idealize.ShloMosaic.Lib.Pipeline.Value

noncomputable section

open scoped BigOperators

namespace Cert.KernelIdeal.RegionValue

open Idealize.ShloMosaic Idealize.ShloMosaic.ValueIdx Cert.KernelIdeal Cert.KernelIdeal.Gen Cert.RegionSpec

/-- Payload 2 of the edge kernel of region 0 at an index: the block of x times the block of rel, entry by entry,
    times the matrix, scaled by the row's weight. -/
theorem edge_pay0_2 (rel : Vec Ideal S5000x128 .f32) (w : Vec Ideal S128x128 .f32) (x : Vec Ideal S5000x128 .f32)
    (nrm : Vec Ideal S5000x1 .f32) (j : S5000x128.Idx) :
    k0_pay2 rel w x nrm j
      = (∑ k : Fin 128, (x (ix2 (j 0) k) * rel (ix2 (j 0) k)) * w (ix2 k (j 1))) * nrm (ix2 (j 0) (0 : Fin 1)) := by
  obtain ⟨p, q, rfl⟩ : ∃ (p : Fin 5000) (q : Fin 128), j = ix2 p q := ⟨j 0, j 1, eq_ix2 j⟩
  unfold k0_pay2 k0_pay1
  simp only [shapeCast_self]
  rw [mulf_apply]
  refine congrArg₂ (· * ·) ?_ ?_
  · exact PlainDot.matmul_zero_apply 5000 128 128 none (truncf .bf16 (mulf x rel) bitsLt_bf16_f32)
      (truncf .bf16 w bitsLt_bf16_f32) p q
  · exact broadcastTo_apply nrm broadcasts_S5000x1_S5000x128 (ix2 p q) (ix2 p (0 : Fin 1)) (fun a => by match a with | ⟨0, _⟩ => rfl | ⟨1, _⟩ => rfl)

/-- Payload 3 of the edge kernel of region 0 at an index: the block of x times the block of rel, entry by entry,
    times the matrix, scaled by the row's weight. -/
theorem edge_pay0_3 (rel : Vec Ideal S5000x128 .f32) (w : Vec Ideal S128x128 .f32) (x : Vec Ideal S5000x128 .f32)
    (nrm : Vec Ideal S5000x1 .f32) (j : S5000x128.Idx) :
    k0_pay3 rel w x nrm j
      = (∑ k : Fin 128, (x (ix2 (j 0) k) * rel (ix2 (j 0) k)) * w (ix2 k (j 1))) * nrm (ix2 (j 0) (0 : Fin 1)) := by
  obtain ⟨p, q, rfl⟩ : ∃ (p : Fin 5000) (q : Fin 128), j = ix2 p q := ⟨j 0, j 1, eq_ix2 j⟩
  unfold k0_pay3 k0_pay1
  simp only [shapeCast_self]
  rw [mulf_apply]
  refine congrArg₂ (· * ·) ?_ ?_
  · exact PlainDot.matmul_zero_apply 5000 128 128 none (truncf .bf16 (mulf x rel) bitsLt_bf16_f32)
      (truncf .bf16 w bitsLt_bf16_f32) p q
  · exact broadcastTo_apply nrm broadcasts_S5000x1_S5000x128 (ix2 p q) (ix2 p (0 : Fin 1)) (fun a => by match a with | ⟨0, _⟩ => rfl | ⟨1, _⟩ => rfl)

/-- The payload of the combine kernel of region 1 at an index. -/
theorem combine_pay1 (x : Vec Ideal S5000x128 .f32) (lr : Vec Ideal S1x128 .f32) (w : Vec Ideal S128x128 .f32)
    (a b : Vec Ideal S5000x128 .f32) (bias : Vec Ideal S1x128 .f32) (j : S5000x128.Idx) :
    k1_pay1 x lr w a b bias j
      = ((a j + b j) + ∑ k : Fin 128, (x (ix2 (j 0) k) * lr (ix2 (0 : Fin 1) k)) * w (ix2 k (j 1))) * third
        + bias (ix2 (0 : Fin 1) (j 1)) := by
  obtain ⟨p, q, rfl⟩ : ∃ (p : Fin 5000) (q : Fin 128), j = ix2 p q := ⟨j 0, j 1, eq_ix2 j⟩
  unfold k1_pay1
  simp only [shapeCast_self]
  simp only [addf_apply, mulf_apply, broadcast_apply]
  refine congrArg₂ (· + ·) (congrArg₂ (· * ·) (congrArg₂ (· + ·) rfl ?_) rfl) ?_
  · refine (PlainDot.matmul_zero_apply 5000 128 128 none
      (truncf .bf16 (mulf x (broadcastTo S5000x128 lr broadcasts_S1x128_S5000x128)) bitsLt_bf16_f32)
      (truncf .bf16 w bitsLt_bf16_f32) p q).trans (Finset.sum_congr rfl fun k _ => ?_)
    show x (ix2 p k) * broadcastTo S5000x128 lr broadcasts_S1x128_S5000x128 (ix2 p k) * w (ix2 k q) = _
    rw [broadcastTo_apply lr broadcasts_S1x128_S5000x128 (ix2 p k) (ix2 (0 : Fin 1) k) (fun a => by match a with | ⟨0, _⟩ => rfl | ⟨1, _⟩ => rfl)]
  · exact broadcastTo_apply bias broadcasts_S1x128_S5000x128 (ix2 p q) (ix2 (0 : Fin 1) q) (fun a => by match a with | ⟨0, _⟩ => rfl | ⟨1, _⟩ => rfl)

/-- The payload of the normalize kernel of region 2 at an index. -/
theorem norm_pay2 (var : Vec Ideal S1x128 .f32) (o : Vec Ideal S5000x128 .f32) (mean : Vec Ideal S1x128 .f32)
    (j : S5000x128.Idx) :
    k2_pay1 var o mean j
      = Ideal.tanh ((o j - mean (ix2 (0 : Fin 1) (j 1))) * Ideal.rsqrt (var (ix2 (0 : Fin 1) (j 1)) + eps)) := by
  obtain ⟨p, q, rfl⟩ : ∃ (p : Fin 5000) (q : Fin 128), j = ix2 p q := ⟨j 0, j 1, eq_ix2 j⟩
  unfold k2_pay1
  simp only [shapeCast_self]
  show Ideal.tanh ((_ - _) * _) = _
  refine congrArg Ideal.tanh (congrArg₂ (· * ·) (congrArg₂ (· - ·) rfl ?_) ?_)
  · exact broadcastTo_apply mean broadcasts_S1x128_S5000x128 (ix2 p q) (ix2 (0 : Fin 1) q) (fun a => by match a with | ⟨0, _⟩ => rfl | ⟨1, _⟩ => rfl)
  · exact broadcastTo_apply _ broadcasts_S1x128_S5000x128 (ix2 p q) (ix2 (0 : Fin 1) q) (fun a => by match a with | ⟨0, _⟩ => rfl | ⟨1, _⟩ => rfl)

/-- Payload 2 of the edge kernel of region 3 at an index: the block of x times the block of rel, entry by entry,
    times the matrix, scaled by the row's weight. -/
theorem edge_pay3_2 (rel : Vec Ideal S5000x128 .f32) (w : Vec Ideal S128x128 .f32) (x : Vec Ideal S5000x128 .f32)
    (nrm : Vec Ideal S5000x1 .f32) (j : S5000x128.Idx) :
    k3_pay2 rel w x nrm j
      = (∑ k : Fin 128, (x (ix2 (j 0) k) * rel (ix2 (j 0) k)) * w (ix2 k (j 1))) * nrm (ix2 (j 0) (0 : Fin 1)) := by
  obtain ⟨p, q, rfl⟩ : ∃ (p : Fin 5000) (q : Fin 128), j = ix2 p q := ⟨j 0, j 1, eq_ix2 j⟩
  unfold k3_pay2 k3_pay1
  simp only [shapeCast_self]
  rw [mulf_apply]
  refine congrArg₂ (· * ·) ?_ ?_
  · exact PlainDot.matmul_zero_apply 5000 128 128 none (truncf .bf16 (mulf x rel) bitsLt_bf16_f32)
      (truncf .bf16 w bitsLt_bf16_f32) p q
  · exact broadcastTo_apply nrm broadcasts_S5000x1_S5000x128 (ix2 p q) (ix2 p (0 : Fin 1)) (fun a => by match a with | ⟨0, _⟩ => rfl | ⟨1, _⟩ => rfl)

/-- Payload 3 of the edge kernel of region 3 at an index: the block of x times the block of rel, entry by entry,
    times the matrix, scaled by the row's weight. -/
theorem edge_pay3_3 (rel : Vec Ideal S5000x128 .f32) (w : Vec Ideal S128x128 .f32) (x : Vec Ideal S5000x128 .f32)
    (nrm : Vec Ideal S5000x1 .f32) (j : S5000x128.Idx) :
    k3_pay3 rel w x nrm j
      = (∑ k : Fin 128, (x (ix2 (j 0) k) * rel (ix2 (j 0) k)) * w (ix2 k (j 1))) * nrm (ix2 (j 0) (0 : Fin 1)) := by
  obtain ⟨p, q, rfl⟩ : ∃ (p : Fin 5000) (q : Fin 128), j = ix2 p q := ⟨j 0, j 1, eq_ix2 j⟩
  unfold k3_pay3 k3_pay1
  simp only [shapeCast_self]
  rw [mulf_apply]
  refine congrArg₂ (· * ·) ?_ ?_
  · exact PlainDot.matmul_zero_apply 5000 128 128 none (truncf .bf16 (mulf x rel) bitsLt_bf16_f32)
      (truncf .bf16 w bitsLt_bf16_f32) p q
  · exact broadcastTo_apply nrm broadcasts_S5000x1_S5000x128 (ix2 p q) (ix2 p (0 : Fin 1)) (fun a => by match a with | ⟨0, _⟩ => rfl | ⟨1, _⟩ => rfl)

/-- The payload of the combine kernel of region 4 at an index. -/
theorem combine_pay4 (x : Vec Ideal S5000x128 .f32) (lr : Vec Ideal S1x128 .f32) (w : Vec Ideal S128x128 .f32)
    (a b : Vec Ideal S5000x128 .f32) (bias : Vec Ideal S1x128 .f32) (j : S5000x128.Idx) :
    k4_pay1 x lr w a b bias j
      = ((a j + b j) + ∑ k : Fin 128, (x (ix2 (j 0) k) * lr (ix2 (0 : Fin 1) k)) * w (ix2 k (j 1))) * third
        + bias (ix2 (0 : Fin 1) (j 1)) := by
  obtain ⟨p, q, rfl⟩ : ∃ (p : Fin 5000) (q : Fin 128), j = ix2 p q := ⟨j 0, j 1, eq_ix2 j⟩
  unfold k4_pay1
  simp only [shapeCast_self]
  simp only [addf_apply, mulf_apply, broadcast_apply]
  refine congrArg₂ (· + ·) (congrArg₂ (· * ·) (congrArg₂ (· + ·) rfl ?_) rfl) ?_
  · refine (PlainDot.matmul_zero_apply 5000 128 128 none
      (truncf .bf16 (mulf x (broadcastTo S5000x128 lr broadcasts_S1x128_S5000x128)) bitsLt_bf16_f32)
      (truncf .bf16 w bitsLt_bf16_f32) p q).trans (Finset.sum_congr rfl fun k _ => ?_)
    show x (ix2 p k) * broadcastTo S5000x128 lr broadcasts_S1x128_S5000x128 (ix2 p k) * w (ix2 k q) = _
    rw [broadcastTo_apply lr broadcasts_S1x128_S5000x128 (ix2 p k) (ix2 (0 : Fin 1) k) (fun a => by match a with | ⟨0, _⟩ => rfl | ⟨1, _⟩ => rfl)]
  · exact broadcastTo_apply bias broadcasts_S1x128_S5000x128 (ix2 p q) (ix2 (0 : Fin 1) q) (fun a => by match a with | ⟨0, _⟩ => rfl | ⟨1, _⟩ => rfl)

/-- The payload of the normalize kernel of region 5 at an index. -/
theorem norm_pay5 (var : Vec Ideal S1x128 .f32) (o : Vec Ideal S5000x128 .f32) (mean : Vec Ideal S1x128 .f32)
    (j : S5000x128.Idx) :
    k5_pay1 var o mean j
      = Ideal.tanh ((o j - mean (ix2 (0 : Fin 1) (j 1))) * Ideal.rsqrt (var (ix2 (0 : Fin 1) (j 1)) + eps)) := by
  obtain ⟨p, q, rfl⟩ : ∃ (p : Fin 5000) (q : Fin 128), j = ix2 p q := ⟨j 0, j 1, eq_ix2 j⟩
  unfold k5_pay1
  simp only [shapeCast_self]
  show Ideal.tanh ((_ - _) * _) = _
  refine congrArg Ideal.tanh (congrArg₂ (· * ·) (congrArg₂ (· - ·) rfl ?_) ?_)
  · exact broadcastTo_apply mean broadcasts_S1x128_S5000x128 (ix2 p q) (ix2 (0 : Fin 1) q) (fun a => by match a with | ⟨0, _⟩ => rfl | ⟨1, _⟩ => rfl)
  · exact broadcastTo_apply _ broadcasts_S1x128_S5000x128 (ix2 p q) (ix2 (0 : Fin 1) q) (fun a => by match a with | ⟨0, _⟩ => rfl | ⟨1, _⟩ => rfl)

end Cert.KernelIdeal.RegionValue

end
-- ==== Proof.RegionValue0.lean ====
/-
  Region 0 (the edge kernel over 100 blocks of 5000 edges): what its two output arrays hold afterwards.

  Each grid point t reads block t of the relation rows, of the two gathered node-feature arrays and of the two
  weight columns, and the two whole 128×128 matrices; it writes block t of each output. The block it writes is
  the per-edge message restricted to rows 5000·t … 5000·t + 4999, so after the 100 points, whose blocks cover
  the 500000 rows, each output array is the per-edge message of the arrays the region was entered with.
-/
import proofs.«104171_j72722386256375_1_alg».proof.Proof.Gen.KernelIdeal.Frame
import proofs.«104171_j72722386256375_1_alg».proof.Proof.RegionPay

set_option maxRecDepth 16384

noncomputable section

open scoped BigOperators

namespace Cert.KernelIdeal.RegionValue

open Idealize.ShloMosaic Idealize.ShloMosaic.TcCoe Idealize.ShloMosaic.ValueIdx Cert.KernelIdeal Cert.KernelIdeal.Gen Cert.RegionSpec
open Idealize.ShloMosaic.Pipeline (Dat Cfg Window)

variable (V : (c : Dev nD) → (b : Ref sig .tc) → Buf (Elt Ideal) ((c : Thread nD τ).loc b))

theorem zero2r0 : (![0, 0] : Fin 2 → Nat) = fun _ => 0 := funext fun a => by fin_cases a <;> rfl

/-- The arrays the region's windows are over. -/
theorem arrRef0 : Pipeline.arrRef spec0 0 = main_v9
    ∧ Pipeline.arrRef spec0 1 = main_v16
    ∧ Pipeline.arrRef spec0 2 = main_v23
    ∧ Pipeline.arrRef spec0 3 = main_v55
    ∧ Pipeline.arrRef spec0 4 = main_v71
    ∧ Pipeline.arrRef spec0 5 = main_v73
    ∧ Pipeline.arrRef spec0 6 = main_v75
    ∧ Pipeline.arrRef spec0 7 = main_v76_0
    ∧ Pipeline.arrRef spec0 8 = main_v76_1 :=
  ⟨rfl, rfl, rfl, rfl, rfl, rfl, rfl, rfl, rfl⟩

/-- The printed index maps, decided over the grid: a row-tiled window's block index at point t is (t, 0), a whole
    window's is (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- What point t writes back through output window 7 is block t of the per-edge message of the arrays as the
    region finds them. -/
theorem flushed0_7_eq (c : Dev nD) (t : Fin cfg0.N) :
    (dat0 (F := Ideal) V c).flushed 7 t
      = ((cfg0.win 7).blk t).view.read (Elt Ideal) (edgeMsg (V c main_v16) (V c main_v9) (V c main_v73) (V c main_v55)) := by
  show (cfg0.win 7).cut (grid0.coords t) ((dat0 V c).after 7 t) = _
  rw [after0_7]
  unfold out0_7
  rw [View.canon_unit_zero zero2r0]
  simp only [View.ld_unit_zero (S := S5000x128) zero2r0, View.ld_unit_zero (S := S128x128) zero2r0,
    View.ld_unit_zero (S := S5000x1) zero2r0]
  funext j
  refine (edge_pay0_2 (iblk0 V c 0 t) (iblk0 V c 5 t) (iblk0 V c 1 t) (iblk0 V c 3 t) j).trans ?_
  obtain ⟨a0, b0, a1, b1, a2, b2, a3, b3, a4, b4, a5, b5, a6, b6, a7, b7, a8, b8⟩ := idx_facts0 t
  have hrel : ∀ k : Fin 128, ((cfg0.win 0).blk t).view.emb (ix2 (j 0) k) = ix2 ((((cfg0.win 7).blk t).view.emb j) 0) k := by
    intro k; funext a; apply Fin.ext
    match a with
    | ⟨0, _⟩ => show win0_0.index t (0 : Fin 2) * 5000 + 1 * (j 0).val = win0_7.index t (0 : Fin 2) * 5000 + 1 * (j 0).val; omega
    | ⟨1, _⟩ => show win0_0.index t (1 : Fin 2) * 128 + 1 * k.val = k.val; omega
  have hx : ∀ k : Fin 128, ((cfg0.win 1).blk t).view.emb (ix2 (j 0) k) = ix2 ((((cfg0.win 7).blk t).view.emb j) 0) k := by
    intro k; funext a; apply Fin.ext
    match a with
    | ⟨0, _⟩ => show win0_1.index t (0 : Fin 2) * 5000 + 1 * (j 0).val = win0_7.index t (0 : Fin 2) * 5000 + 1 * (j 0).val; omega
    | ⟨1, _⟩ => show win0_1.index t (1 : Fin 2) * 128 + 1 * k.val = k.val; omega
  have hw : ∀ k : Fin 128, ((cfg0.win 5).blk t).view.emb (ix2 k (j 1)) = ix2 k ((((cfg0.win 7).blk t).view.emb j) 1) := by
    intro k; funext a; apply Fin.ext
    match a with
    | ⟨0, _⟩ => show win0_5.index t (0 : Fin 2) * 128 + 1 * k.val = k.val; omega
    | ⟨1, _⟩ => show win0_5.index t (1 : Fin 2) * 128 + 1 * (j 1).val = win0_7.index t (1 : Fin 2) * 128 + 1 * (j 1).val; omega
  have hn : ((cfg0.win 3).blk t).view.emb (ix2 (j 0) (0 : Fin 1)) = ix2 ((((cfg0.win 7).blk t).view.emb j) 0) (0 : Fin 1) := by
    funext a; apply Fin.ext
    match a with
    | ⟨0, _⟩ => show win0_3.index t (0 : Fin 2) * 5000 + 1 * (j 0).val = win0_7.index t (0 : Fin 2) * 5000 + 1 * (j 0).val; omega
    | ⟨1, _⟩ => show win0_3.index t (1 : Fin 2) * 1 + 1 * 0 = 0; omega
  have rrel : ∀ k : Fin 128, iblk0 V c 0 t (ix2 (j 0) k) = V c main_v9 (ix2 ((((cfg0.win 7).blk t).view.emb j) 0) k) :=
    fun k => congrArg (V c main_v9) (hrel k)
  have rx : ∀ k : Fin 128, iblk0 V c 1 t (ix2 (j 0) k) = V c main_v16 (ix2 ((((cfg0.win 7).blk t).view.emb j) 0) k) :=
    fun k => congrArg (V c main_v16) (hx k)
  have rw_ : ∀ k : Fin 128, iblk0 V c 5 t (ix2 k (j 1)) = V c main_v73 (ix2 k ((((cfg0.win 7).blk t).view.emb j) 1)) :=
    fun k => congrArg (V c main_v73) (hw k)
  have rn : iblk0 V c 3 t (ix2 (j 0) (0 : Fin 1)) = V c main_v55 (ix2 ((((cfg0.win 7).blk t).view.emb j) 0) (0 : Fin 1)) :=
    congrArg (V c main_v55) hn
  rw [rn]
  simp only [rrel, rx, rw_]
  rfl

/-- What point t writes back through output window 8 is block t of the per-edge message of the arrays as the
    region finds them. -/
theorem flushed0_8_eq (c : Dev nD) (t : Fin cfg0.N) :
    (dat0 (F := Ideal) V c).flushed 8 t
      = ((cfg0.win 8).blk t).view.read (Elt Ideal) (edgeMsg (V c main_v23) (V c main_v9) (V c main_v75) (V c main_v71)) := by
  show (cfg0.win 8).cut (grid0.coords t) ((dat0 V c).after 8 t) = _
  rw [after0_8]
  unfold out0_8
  rw [View.canon_unit_zero zero2r0]
  simp only [View.ld_unit_zero (S := S5000x128) zero2r0, View.ld_unit_zero (S := S128x128) zero2r0,
    View.ld_unit_zero (S := S5000x1) zero2r0]
  funext j
  refine (edge_pay0_3 (iblk0 V c 0 t) (iblk0 V c 6 t) (iblk0 V c 2 t) (iblk0 V c 4 t) j).trans ?_
  obtain ⟨a0, b0, a1, b1, a2, b2, a3, b3, a4, b4, a5, b5, a6, b6, a7, b7, a8, b8⟩ := idx_facts0 t
  have hrel : ∀ k : Fin 128, ((cfg0.win 0).blk t).view.emb (ix2 (j 0) k) = ix2 ((((cfg0.win 8).blk t).view.emb j) 0) k := by
    intro k; funext a; apply Fin.ext
    match a with
    | ⟨0, _⟩ => show win0_0.index t (0 : Fin 2) * 5000 + 1 * (j 0).val = win0_8.index t (0 : Fin 2) * 5000 + 1 * (j 0).val; omega
    | ⟨1, _⟩ => show win0_0.index t (1 : Fin 2) * 128 + 1 * k.val = k.val; omega
  have hx : ∀ k : Fin 128, ((cfg0.win 2).blk t).view.emb (ix2 (j 0) k) = ix2 ((((cfg0.win 8).blk t).view.emb j) 0) k := by
    intro k; funext a; apply Fin.ext
    match a with
    | ⟨0, _⟩ => show win0_2.index t (0 : Fin 2) * 5000 + 1 * (j 0).val = win0_8.index t (0 : Fin 2) * 5000 + 1 * (j 0).val; omega
    | ⟨1, _⟩ => show win0_2.index t (1 : Fin 2) * 128 + 1 * k.val = k.val; omega
  have hw : ∀ k : Fin 128, ((cfg0.win 6).blk t).view.emb (ix2 k (j 1)) = ix2 k ((((cfg0.win 8).blk t).view.emb j) 1) := by
    intro k; funext a; apply Fin.ext
    match a with
    | ⟨0, _⟩ => show win0_6.index t (0 : Fin 2) * 128 + 1 * k.val = k.val; omega
    | ⟨1, _⟩ => show win0_6.index t (1 : Fin 2) * 128 + 1 * (j 1).val = win0_8.index t (1 : Fin 2) * 128 + 1 * (j 1).val; omega
  have hn : ((cfg0.win 4).blk t).view.emb (ix2 (j 0) (0 : Fin 1)) = ix2 ((((cfg0.win 8).blk t).view.emb j) 0) (0 : Fin 1) := by
    funext a; apply Fin.ext
    match a with
    | ⟨0, _⟩ => show win0_4.index t (0 : Fin 2) * 5000 + 1 * (j 0).val = win0_8.index t (0 : Fin 2) * 5000 + 1 * (j 0).val; omega
    | ⟨1, _⟩ => show win0_4.index t (1 : Fin 2) * 1 + 1 * 0 = 0; omega
  have rrel : ∀ k : Fin 128, iblk0 V c 0 t (ix2 (j 0) k) = V c main_v9 (ix2 ((((cfg0.win 8).blk t).view.emb j) 0) k) :=
    fun k => congrArg (V c main_v9) (hrel k)
  have rx : ∀ k : Fin 128, iblk0 V c 2 t (ix2 (j 0) k) = V c main_v23 (ix2 ((((cfg0.win 8).blk t).view.emb j) 0) k) :=
    fun k => congrArg (V c main_v23) (hx k)
  have rw_ : ∀ k : Fin 128, iblk0 V c 6 t (ix2 k (j 1)) = V c main_v75 (ix2 k ((((cfg0.win 8).blk t).view.emb j) 1)) :=
    fun k => congrArg (V c main_v75) (hw k)
  have rn : iblk0 V c 4 t (ix2 (j 0) (0 : Fin 1)) = V c main_v71 (ix2 ((((cfg0.win 8).blk t).view.emb j) 0) (0 : Fin 1)) :=
    congrArg (V c main_v71) hn
  rw [rn]
  simp only [rrel, rx, rw_]
  rfl

/-- An index of the array is in point t's block iff each coordinate is in the block's range on its axis. -/
theorem mem_blk0_7 (t : Fin cfg0.N) (i : S500000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v76_0).slice (win0_7.rect t)).set ↔ _
  rw [View.set_slice_whole, Rect.mem_set_unit]
  exact Iff.rfl

/-- An index of the array is in point t's block iff each coordinate is in the block's range on its axis. -/
theorem mem_blk0_8 (t : Fin cfg0.N) (i : S500000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v76_1).slice (win0_8.rect t)).set ↔ _
  rw [View.set_slice_whole, Rect.mem_set_unit]
  exact Iff.rfl

/-- The blocks of 5000 rows cover the array: row r is in the block of point r / 5000. -/
theorem cover0_7 (i : S500000x128.Idx) :
    ∃ t : Fin cfg0.N, (cfg0.win 7).flush t = true ∧ i ∈ ((cfg0.win 7).blk t).view.set := by
  have hi0 : (i 0).val < 500000 := (i 0).isLt
  have hi1 : (i 1).val < 128 := (i 1).isLt
  have hN : grid0.N = 100 := N_0
  have ht : (i 0).val / 5000 < grid0.N := by omega
  refine ⟨⟨(i 0).val / 5000, ht⟩, flush0_7 _, ?_⟩
  rw [mem_blk0_7]
  obtain ⟨a0, b0, a1, b1, a2, b2, a3, b3, a4, b4, a5, b5, a6, b6, a7, b7, a8, b8⟩ := idx_facts0 ⟨(i 0).val / 5000, ht⟩
  have e0 : win0_7.index ⟨(i 0).val / 5000, ht⟩ (0 : Fin 2) = (i 0).val / 5000 := a7
  have e1 : win0_7.index ⟨(i 0).val / 5000, ht⟩ (1 : Fin 2) = 0 := b7
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    omega

/-- The blocks of 5000 rows cover the array: row r is in the block of point r / 5000. -/
theorem cover0_8 (i : S500000x128.Idx) :
    ∃ t : Fin cfg0.N, (cfg0.win 8).flush t = true ∧ i ∈ ((cfg0.win 8).blk t).view.set := by
  have hi0 : (i 0).val < 500000 := (i 0).isLt
  have hi1 : (i 1).val < 128 := (i 1).isLt
  have hN : grid0.N = 100 := N_0
  have ht : (i 0).val / 5000 < grid0.N := by omega
  refine ⟨⟨(i 0).val / 5000, ht⟩, flush0_8 _, ?_⟩
  rw [mem_blk0_8]
  obtain ⟨a0, b0, a1, b1, a2, b2, a3, b3, a4, b4, a5, b5, a6, b6, a7, b7, a8, b8⟩ := idx_facts0 ⟨(i 0).val / 5000, ht⟩
  have e0 : win0_8.index ⟨(i 0).val / 5000, ht⟩ (0 : Fin 2) = (i 0).val / 5000 := a8
  have e1 : win0_8.index ⟨(i 0).val / 5000, ht⟩ (1 : Fin 2) = 0 := b8
  intro a
  match a with
  | ⟨0, _⟩ =>
    show win0_8.index ⟨(i 0).val / 5000, ht⟩ (0 : Fin 2) * 5000 ≤ (i 0).val
      ∧ (i 0).val < win0_8.index ⟨(i 0).val / 5000, ht⟩ (0 : Fin 2) * 5000 + 5000
    omega
  | ⟨1, _⟩ =>
    show win0_8.index ⟨(i 0).val / 5000, ht⟩ (1 : Fin 2) * 128 ≤ (i 1).val
      ∧ (i 1).val < win0_8.index ⟨(i 0).val / 5000, ht⟩ (1 : Fin 2) * 128 + 128
    omega

/-- The array behind output window 7 after the region: the per-edge message of the arrays as the region finds them. -/
theorem arr0_7 (c : Dev nD) :
    (dat0 (F := Ideal) V c).arrAt 7 cfg0.N = edgeMsg (V c main_v16) (V c main_v9) (V c main_v73) (V c main_v55) :=
  (dat0 V c).arrAt_eq_of_cover 7 _ (fun t _ => flushed0_7_eq V c t) cover0_7

/-- The array behind output window 8 after the region: the per-edge message of the arrays as the region finds them. -/
theorem arr0_8 (c : Dev nD) :
    (dat0 (F := Ideal) V c).arrAt 8 cfg0.N = edgeMsg (V c main_v23) (V c main_v9) (V c main_v75) (V c main_v71) :=
  (dat0 V c).arrAt_eq_of_cover 8 _ (fun t _ => flushed0_8_eq V c t) cover0_8

end Cert.KernelIdeal.RegionValue

end
-- ==== Proof.RegionValue1.lean ====
/-
  Region 1 (the combine kernel over 20 blocks of 5000 nodes): what its output array holds afterwards.

  Each grid point t reads block t of the node features and of the two aggregates, and the whole relation row, matrix
  and bias row; it writes block t of the output. The block it writes is the per-node combination restricted to rows
  5000·t … 5000·t + 4999, so after the 20 points, whose blocks cover the 100000 rows, the output array is the
  per-node combination of the arrays the region was entered with.
-/
import proofs.«104171_j72722386256375_1_alg».proof.Proof.Gen.KernelIdeal.Frame
import proofs.«104171_j72722386256375_1_alg».proof.Proof.RegionPay

set_option maxRecDepth 16384

noncomputable section

open scoped BigOperators

namespace Cert.KernelIdeal.RegionValue

open Idealize.ShloMosaic Idealize.ShloMosaic.TcCoe Idealize.ShloMosaic.ValueIdx Cert.KernelIdeal Cert.KernelIdeal.Gen Cert.RegionSpec
open Idealize.ShloMosaic.Pipeline (Dat Cfg Window)

variable (V : (c : Dev nD) → (b : Ref sig .tc) → Buf (Elt Ideal) ((c : Thread nD τ).loc b))

theorem zero2r1 : (![0, 0] : Fin 2 → Nat) = fun _ => 0 := funext fun a => by fin_cases a <;> rfl

/-- The arrays the region's windows are over. -/
theorem arrRef1 : Pipeline.arrRef spec1 0 = main_arg0
    ∧ Pipeline.arrRef spec1 1 = main_v87
    ∧ Pipeline.arrRef spec1 2 = main_v89
    ∧ Pipeline.arrRef spec1 3 = main_v79
    ∧ Pipeline.arrRef spec1 4 = main_v82
    ∧ Pipeline.arrRef spec1 5 = main_v85
    ∧ Pipeline.arrRef spec1 6 = main_v90 :=
  ⟨rfl, rfl, rfl, rfl, rfl, rfl, rfl⟩

/-- The printed index maps, decided over the grid: a row-tiled window's block index at point t is (t, 0), a whole
    window's is (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the per-node combination of the arrays as the region finds them. -/
theorem flushed1_6_eq (c : Dev nD) (t : Fin cfg1.N) :
    (dat1 (F := Ideal) V c).flushed 6 t
      = ((cfg1.win 6).blk t).view.read (Elt Ideal)
          (combineRows (V c main_arg0) (V c main_v87) (V c main_v89) (V c main_v79) (V c main_v82) (V c main_v85)) := by
  show (cfg1.win 6).cut (grid1.coords t) ((dat1 V c).after 6 t) = _
  rw [after1_6]
  unfold out1_6
  rw [View.canon_unit_zero zero2r1]
  simp only [View.ld_unit_zero (S := S5000x128) zero2r1, View.ld_unit_zero (S := S128x128) zero2r1,
    View.ld_unit_zero (S := S1x128) zero2r1]
  funext j
  refine (combine_pay1 (iblk1 V c 0 t) (iblk1 V c 1 t) (iblk1 V c 2 t) (iblk1 V c 3 t) (iblk1 V c 4 t)
    (iblk1 V c 5 t) j).trans ?_
  obtain ⟨a0, b0, a1, b1, a2, b2, a3, b3, a4, b4, a5, b5, a6, b6⟩ := idx_facts1 t
  have hx : ∀ k : Fin 128, ((cfg1.win 0).blk t).view.emb (ix2 (j 0) k) = ix2 ((((cfg1.win 6).blk t).view.emb j) 0) k := by
    intro k; funext a; apply Fin.ext
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  have hlr : ∀ k : Fin 128, ((cfg1.win 1).blk t).view.emb (ix2 (0 : Fin 1) k) = ix2 (0 : Fin 1) k := by
    intro k; funext a; apply Fin.ext
    match a with
    | ⟨0, _⟩ => show win1_1.index t (0 : Fin 2) * 1 + 1 * 0 = 0; omega
    | ⟨1, _⟩ => show win1_1.index t (1 : Fin 2) * 128 + 1 * k.val = k.val; omega
  have hw : ∀ k : Fin 128, ((cfg1.win 2).blk t).view.emb (ix2 k (j 1)) = ix2 k ((((cfg1.win 6).blk t).view.emb j) 1) := by
    intro k; funext a; apply Fin.ext
    match a with
    | ⟨0, _⟩ => show win1_2.index t (0 : Fin 2) * 128 + 1 * k.val = k.val; omega
    | ⟨1, _⟩ => show win1_2.index t (1 : Fin 2) * 128 + 1 * (j 1).val = win1_6.index t (1 : Fin 2) * 128 + 1 * (j 1).val; omega
  have ha : ((cfg1.win 3).blk t).view.emb j = ((cfg1.win 6).blk t).view.emb j := by
    funext a; apply Fin.ext
    match a with
    | ⟨0, _⟩ => show win1_3.index t (0 : Fin 2) * 5000 + 1 * (j 0).val = win1_6.index t (0 : Fin 2) * 5000 + 1 * (j 0).val; omega
    | ⟨1, _⟩ => show win1_3.index t (1 : Fin 2) * 128 + 1 * (j 1).val = win1_6.index t (1 : Fin 2) * 128 + 1 * (j 1).val; omega
  have hb : ((cfg1.win 4).blk t).view.emb j = ((cfg1.win 6).blk t).view.emb j := by
    funext a; apply Fin.ext
    match a with
    | ⟨0, _⟩ => show win1_4.index t (0 : Fin 2) * 5000 + 1 * (j 0).val = win1_6.index t (0 : Fin 2) * 5000 + 1 * (j 0).val; omega
    | ⟨1, _⟩ => show win1_4.index t (1 : Fin 2) * 128 + 1 * (j 1).val = win1_6.index t (1 : Fin 2) * 128 + 1 * (j 1).val; omega
  have hbias : ((cfg1.win 5).blk t).view.emb (ix2 (0 : Fin 1) (j 1)) = ix2 (0 : Fin 1) ((((cfg1.win 6).blk t).view.emb j) 1) := by
    funext a; apply Fin.ext
    match a with
    | ⟨0, _⟩ => show win1_5.index t (0 : Fin 2) * 1 + 1 * 0 = 0; omega
    | ⟨1, _⟩ => show win1_5.index t (1 : Fin 2) * 128 + 1 * (j 1).val = win1_6.index t (1 : Fin 2) * 128 + 1 * (j 1).val; omega
  have rx : ∀ k : Fin 128, iblk1 V c 0 t (ix2 (j 0) k) = V c main_arg0 (ix2 ((((cfg1.win 6).blk t).view.emb j) 0) k) :=
    fun k => congrArg (V c main_arg0) (hx k)
  have rlr : ∀ k : Fin 128, iblk1 V c 1 t (ix2 (0 : Fin 1) k) = V c main_v87 (ix2 (0 : Fin 1) k) :=
    fun k => congrArg (V c main_v87) (hlr k)
  have rw_ : ∀ k : Fin 128, iblk1 V c 2 t (ix2 k (j 1)) = V c main_v89 (ix2 k ((((cfg1.win 6).blk t).view.emb j) 1)) :=
    fun k => congrArg (V c main_v89) (hw k)
  have ra : iblk1 V c 3 t j = V c main_v79 (((cfg1.win 6).blk t).view.emb j) := congrArg (V c main_v79) ha
  have rb : iblk1 V c 4 t j = V c main_v82 (((cfg1.win 6).blk t).view.emb j) := congrArg (V c main_v82) hb
  have rbias : iblk1 V c 5 t (ix2 (0 : Fin 1) (j 1)) = V c main_v85 (ix2 (0 : Fin 1) ((((cfg1.win 6).blk t).view.emb j) 1)) :=
    congrArg (V c main_v85) hbias
  rw [ra, rb, rbias]
  simp only [rx, rlr, rw_]
  rfl

/-- An index of the array is in point t's block iff each coordinate is in the block's range on its axis. -/
theorem mem_blk1_6 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v90).slice (win1_6.rect t)).set ↔ _
  rw [View.set_slice_whole, Rect.mem_set_unit]
  exact Iff.rfl

/-- The blocks of 5000 rows cover the array: row r is in the block of point r / 5000. -/
theorem cover1_6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 20 := N_1
  have ht : (i 0).val / 5000 < grid1.N := by omega
  refine ⟨⟨(i 0).val / 5000, ht⟩, flush1_6 _, ?_⟩
  rw [mem_blk1_6]
  obtain ⟨a0, b0, a1, b1, a2, b2, a3, b3, a4, b4, a5, b5, a6, b6⟩ := idx_facts1 ⟨(i 0).val / 5000, ht⟩
  have e0 : win1_6.index ⟨(i 0).val / 5000, ht⟩ (0 : Fin 2) = (i 0).val / 5000 := a6
  have e1 : win1_6.index ⟨(i 0).val / 5000, ht⟩ (1 : Fin 2) = 0 := b6
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    omega

/-- The output array after the region: the per-node combination of the arrays as the region finds them. -/
theorem arr1_6 (c : Dev nD) :
    (dat1 (F := Ideal) V c).arrAt 6 cfg1.N
      = combineRows (V c main_arg0) (V c main_v87) (V c main_v89) (V c main_v79) (V c main_v82) (V c main_v85) :=
  (dat1 V c).arrAt_eq_of_cover 6 _ (fun t _ => flushed1_6_eq V c t) cover1_6

end Cert.KernelIdeal.RegionValue

end
-- ==== Proof.RegionValue2.lean ====
/-
  Region 2 (the normalize kernel over 20 blocks of 5000 nodes): what its output array holds afterwards.

  Each grid point t reads block t of the combined features and the whole mean and variance rows; it writes block t
  of the output. The block it writes is the per-node normalisation restricted to rows 5000·t … 5000·t + 4999, so
  after the 20 points, whose blocks cover the 100000 rows, the output array is the per-node normalisation of the
  arrays the region was entered with.
-/
import proofs.«104171_j72722386256375_1_alg».proof.Proof.Gen.KernelIdeal.Frame
import proofs.«104171_j72722386256375_1_alg».proof.Proof.RegionPay

set_option maxRecDepth 16384

noncomputable section

open scoped BigOperators

namespace Cert.KernelIdeal.RegionValue

open Idealize.ShloMosaic Idealize.ShloMosaic.TcCoe Idealize.ShloMosaic.ValueIdx Cert.KernelIdeal Cert.KernelIdeal.Gen Cert.RegionSpec
open Idealize.ShloMosaic.Pipeline (Dat Cfg Window)

variable (V : (c : Dev nD) → (b : Ref sig .tc) → Buf (Elt Ideal) ((c : Thread nD τ).loc b))

theorem zero2r2 : (![0, 0] : Fin 2 → Nat) = fun _ => 0 := funext fun a => by fin_cases a <;> rfl

/-- The arrays the region's windows are over. -/
theorem arrRef2 : Pipeline.arrRef spec2 0 = main_v90
    ∧ Pipeline.arrRef spec2 1 = main_v94
    ∧ Pipeline.arrRef spec2 2 = main_v95
    ∧ Pipeline.arrRef spec2 3 = main_v96 :=
  ⟨rfl, rfl, rfl, rfl⟩

/-- The printed index maps, decided over the grid: a row-tiled window's block index at point t is (t, 0), a whole
    window's is (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the per-node normalisation of the arrays as the region finds them. -/
theorem flushed2_3_eq (c : Dev nD) (t : Fin cfg2.N) :
    (dat2 (F := Ideal) V c).flushed 3 t
      = ((cfg2.win 3).blk t).view.read (Elt Ideal) (normRows (V c main_v90) (V c main_v94) (V c main_v95)) := by
  show (cfg2.win 3).cut (grid2.coords t) ((dat2 V c).after 3 t) = _
  rw [after2_3]
  unfold out2_3
  rw [View.canon_unit_zero zero2r2]
  simp only [View.ld_unit_zero (S := S5000x128) zero2r2, View.ld_unit_zero (S := S1x128) zero2r2]
  funext j
  refine (norm_pay2 (iblk2 V c 2 t) (iblk2 V c 0 t) (iblk2 V c 1 t) j).trans ?_
  obtain ⟨a0, b0, a1, b1, a2, b2, a3, b3⟩ := idx_facts2 t
  have ho : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * (j 1).val = win2_3.index t (1 : Fin 2) * 128 + 1 * (j 1).val; omega
  have hmean : ((cfg2.win 1).blk t).view.emb (ix2 (0 : Fin 1) (j 1)) = ix2 (0 : Fin 1) ((((cfg2.win 3).blk t).view.emb j) 1) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_3.index t (1 : Fin 2) * 128 + 1 * (j 1).val; omega
  have hvar : ((cfg2.win 2).blk t).view.emb (ix2 (0 : Fin 1) (j 1)) = ix2 (0 : Fin 1) ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega
  have ro : iblk2 V c 0 t j = V c main_v90 (((cfg2.win 3).blk t).view.emb j) := congrArg (V c main_v90) ho
  have rmean : iblk2 V c 1 t (ix2 (0 : Fin 1) (j 1)) = V c main_v94 (ix2 (0 : Fin 1) ((((cfg2.win 3).blk t).view.emb j) 1)) :=
    congrArg (V c main_v94) hmean
  have rvar : iblk2 V c 2 t (ix2 (0 : Fin 1) (j 1)) = V c main_v95 (ix2 (0 : Fin 1) ((((cfg2.win 3).blk t).view.emb j) 1)) :=
    congrArg (V c main_v95) hvar
  rw [ro, rmean, rvar]
  rfl

/-- An index of the array is in point t's block iff each coordinate is in the block's range on its axis. -/
theorem mem_blk2_3 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v96).slice (win2_3.rect t)).set ↔ _
  rw [View.set_slice_whole, Rect.mem_set_unit]
  exact Iff.rfl

/-- The blocks of 5000 rows cover the array: row r is in the block of point r / 5000. -/
theorem cover2_3 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 20 := N_2
  have ht : (i 0).val / 5000 < grid2.N := by omega
  refine ⟨⟨(i 0).val / 5000, ht⟩, flush2_3 _, ?_⟩
  rw [mem_blk2_3]
  obtain ⟨a0, b0, a1, b1, a2, b2, a3, b3⟩ := idx_facts2 ⟨(i 0).val / 5000, ht⟩
  have e0 : win2_3.index ⟨(i 0).val / 5000, ht⟩ (0 : Fin 2) = (i 0).val / 5000 := a3
  have e1 : win2_3.index ⟨(i 0).val / 5000, ht⟩ (1 : Fin 2) = 0 := b3
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    omega

/-- The output array after the region: the per-node normalisation of the arrays as the region finds them. -/
theorem arr2_3 (c : Dev nD) :
    (dat2 (F := Ideal) V c).arrAt 3 cfg2.N = normRows (V c main_v90) (V c main_v94) (V c main_v95) :=
  (dat2 V c).arrAt_eq_of_cover 3 _ (fun t _ => flushed2_3_eq V c t) cover2_3

end Cert.KernelIdeal.RegionValue

end
-- ==== Proof.RegionValue3.lean ====
/-
  Region 3 (the edge kernel over 100 blocks of 5000 edges): what its two output arrays hold afterwards.

  Each grid point t reads block t of the relation rows, of the two gathered node-feature arrays and of the two
  weight columns, and the two whole 128×128 matrices; it writes block t of each output. The block it writes is
  the per-edge message restricted to rows 5000·t … 5000·t + 4999, so after the 100 points, whose blocks cover
  the 500000 rows, each output array is the per-edge message of the arrays the region was entered with.
-/
import proofs.«104171_j72722386256375_1_alg».proof.Proof.Gen.KernelIdeal.Frame
import proofs.«104171_j72722386256375_1_alg».proof.Proof.RegionPay

set_option maxRecDepth 16384

noncomputable section

open scoped BigOperators

namespace Cert.KernelIdeal.RegionValue

open Idealize.ShloMosaic Idealize.ShloMosaic.TcCoe Idealize.ShloMosaic.ValueIdx Cert.KernelIdeal Cert.KernelIdeal.Gen Cert.RegionSpec
open Idealize.ShloMosaic.Pipeline (Dat Cfg Window)

variable (V : (c : Dev nD) → (b : Ref sig .tc) → Buf (Elt Ideal) ((c : Thread nD τ).loc b))

theorem zero2r3 : (![0, 0] : Fin 2 → Nat) = fun _ => 0 := funext fun a => by fin_cases a <;> rfl

/-- The arrays the region's windows are over. -/
theorem arrRef3 : Pipeline.arrRef spec3 0 = main_v110
    ∧ Pipeline.arrRef spec3 1 = main_v117
    ∧ Pipeline.arrRef spec3 2 = main_v124
    ∧ Pipeline.arrRef spec3 3 = main_v156
    ∧ Pipeline.arrRef spec3 4 = main_v172
    ∧ Pipeline.arrRef spec3 5 = main_v174
    ∧ Pipeline.arrRef spec3 6 = main_v176
    ∧ Pipeline.arrRef spec3 7 = main_v177_0
    ∧ Pipeline.arrRef spec3 8 = main_v177_1 :=
  ⟨rfl, rfl, rfl, rfl, rfl, rfl, rfl, rfl, rfl⟩

/-- The printed index maps, decided over the grid: a row-tiled window's block index at point t is (t, 0), a whole
    window's is (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

/-- What point t writes back through output window 7 is block t of the per-edge message of the arrays as the
    region finds them. -/
theorem flushed3_7_eq (c : Dev nD) (t : Fin cfg3.N) :
    (dat3 (F := Ideal) V c).flushed 7 t
      = ((cfg3.win 7).blk t).view.read (Elt Ideal) (edgeMsg (V c main_v117) (V c main_v110) (V c main_v174) (V c main_v156)) := by
  show (cfg3.win 7).cut (grid3.coords t) ((dat3 V c).after 7 t) = _
  rw [after3_7]
  unfold out3_7
  rw [View.canon_unit_zero zero2r3]
  simp only [View.ld_unit_zero (S := S5000x128) zero2r3, View.ld_unit_zero (S := S128x128) zero2r3,
    View.ld_unit_zero (S := S5000x1) zero2r3]
  funext j
  refine (edge_pay3_2 (iblk3 V c 0 t) (iblk3 V c 5 t) (iblk3 V c 1 t) (iblk3 V c 3 t) j).trans ?_
  obtain ⟨a0, b0, a1, b1, a2, b2, a3, b3, a4, b4, a5, b5, a6, b6, a7, b7, a8, b8⟩ := idx_facts3 t
  have hrel : ∀ k : Fin 128, ((cfg3.win 0).blk t).view.emb (ix2 (j 0) k) = ix2 ((((cfg3.win 7).blk t).view.emb j) 0) k := by
    intro k; funext a; apply Fin.ext
    match a with
    | ⟨0, _⟩ => show win3_0.index t (0 : Fin 2) * 5000 + 1 * (j 0).val = win3_7.index t (0 : Fin 2) * 5000 + 1 * (j 0).val; omega
    | ⟨1, _⟩ => show win3_0.index t (1 : Fin 2) * 128 + 1 * k.val = k.val; omega
  have hx : ∀ k : Fin 128, ((cfg3.win 1).blk t).view.emb (ix2 (j 0) k) = ix2 ((((cfg3.win 7).blk t).view.emb j) 0) k := by
    intro k; funext a; apply Fin.ext
    match a with
    | ⟨0, _⟩ => show win3_1.index t (0 : Fin 2) * 5000 + 1 * (j 0).val = win3_7.index t (0 : Fin 2) * 5000 + 1 * (j 0).val; omega
    | ⟨1, _⟩ => show win3_1.index t (1 : Fin 2) * 128 + 1 * k.val = k.val; omega
  have hw : ∀ k : Fin 128, ((cfg3.win 5).blk t).view.emb (ix2 k (j 1)) = ix2 k ((((cfg3.win 7).blk t).view.emb j) 1) := by
    intro k; funext a; apply Fin.ext
    match a with
    | ⟨0, _⟩ => show win3_5.index t (0 : Fin 2) * 128 + 1 * k.val = k.val; omega
    | ⟨1, _⟩ => show win3_5.index t (1 : Fin 2) * 128 + 1 * (j 1).val = win3_7.index t (1 : Fin 2) * 128 + 1 * (j 1).val; omega
  have hn : ((cfg3.win 3).blk t).view.emb (ix2 (j 0) (0 : Fin 1)) = ix2 ((((cfg3.win 7).blk t).view.emb j) 0) (0 : Fin 1) := by
    funext a; apply Fin.ext
    match a with
    | ⟨0, _⟩ => show win3_3.index t (0 : Fin 2) * 5000 + 1 * (j 0).val = win3_7.index t (0 : Fin 2) * 5000 + 1 * (j 0).val; omega
    | ⟨1, _⟩ => show win3_3.index t (1 : Fin 2) * 1 + 1 * 0 = 0; omega
  have rrel : ∀ k : Fin 128, iblk3 V c 0 t (ix2 (j 0) k) = V c main_v110 (ix2 ((((cfg3.win 7).blk t).view.emb j) 0) k) :=
    fun k => congrArg (V c main_v110) (hrel k)
  have rx : ∀ k : Fin 128, iblk3 V c 1 t (ix2 (j 0) k) = V c main_v117 (ix2 ((((cfg3.win 7).blk t).view.emb j) 0) k) :=
    fun k => congrArg (V c main_v117) (hx k)
  have rw_ : ∀ k : Fin 128, iblk3 V c 5 t (ix2 k (j 1)) = V c main_v174 (ix2 k ((((cfg3.win 7).blk t).view.emb j) 1)) :=
    fun k => congrArg (V c main_v174) (hw k)
  have rn : iblk3 V c 3 t (ix2 (j 0) (0 : Fin 1)) = V c main_v156 (ix2 ((((cfg3.win 7).blk t).view.emb j) 0) (0 : Fin 1)) :=
    congrArg (V c main_v156) hn
  rw [rn]
  simp only [rrel, rx, rw_]
  rfl

/-- What point t writes back through output window 8 is block t of the per-edge message of the arrays as the
    region finds them. -/
theorem flushed3_8_eq (c : Dev nD) (t : Fin cfg3.N) :
    (dat3 (F := Ideal) V c).flushed 8 t
      = ((cfg3.win 8).blk t).view.read (Elt Ideal) (edgeMsg (V c main_v124) (V c main_v110) (V c main_v176) (V c main_v172)) := by
  show (cfg3.win 8).cut (grid3.coords t) ((dat3 V c).after 8 t) = _
  rw [after3_8]
  unfold out3_8
  rw [View.canon_unit_zero zero2r3]
  simp only [View.ld_unit_zero (S := S5000x128) zero2r3, View.ld_unit_zero (S := S128x128) zero2r3,
    View.ld_unit_zero (S := S5000x1) zero2r3]
  funext j
  refine (edge_pay3_3 (iblk3 V c 0 t) (iblk3 V c 6 t) (iblk3 V c 2 t) (iblk3 V c 4 t) j).trans ?_
  obtain ⟨a0, b0, a1, b1, a2, b2, a3, b3, a4, b4, a5, b5, a6, b6, a7, b7, a8, b8⟩ := idx_facts3 t
  have hrel : ∀ k : Fin 128, ((cfg3.win 0).blk t).view.emb (ix2 (j 0) k) = ix2 ((((cfg3.win 8).blk t).view.emb j) 0) k := by
    intro k; funext a; apply Fin.ext
    match a with
    | ⟨0, _⟩ => show win3_0.index t (0 : Fin 2) * 5000 + 1 * (j 0).val = win3_8.index t (0 : Fin 2) * 5000 + 1 * (j 0).val; omega
    | ⟨1, _⟩ => show win3_0.index t (1 : Fin 2) * 128 + 1 * k.val = k.val; omega
  have hx : ∀ k : Fin 128, ((cfg3.win 2).blk t).view.emb (ix2 (j 0) k) = ix2 ((((cfg3.win 8).blk t).view.emb j) 0) k := by
    intro k; funext a; apply Fin.ext
    match a with
    | ⟨0, _⟩ => show win3_2.index t (0 : Fin 2) * 5000 + 1 * (j 0).val = win3_8.index t (0 : Fin 2) * 5000 + 1 * (j 0).val; omega
    | ⟨1, _⟩ => show win3_2.index t (1 : Fin 2) * 128 + 1 * k.val = k.val; omega
  have hw : ∀ k : Fin 128, ((cfg3.win 6).blk t).view.emb (ix2 k (j 1)) = ix2 k ((((cfg3.win 8).blk t).view.emb j) 1) := by
    intro k; funext a; apply Fin.ext
    match a with
    | ⟨0, _⟩ => show win3_6.index t (0 : Fin 2) * 128 + 1 * k.val = k.val; omega
    | ⟨1, _⟩ => show win3_6.index t (1 : Fin 2) * 128 + 1 * (j 1).val = win3_8.index t (1 : Fin 2) * 128 + 1 * (j 1).val; omega
  have hn : ((cfg3.win 4).blk t).view.emb (ix2 (j 0) (0 : Fin 1)) = ix2 ((((cfg3.win 8).blk t).view.emb j) 0) (0 : Fin 1) := by
    funext a; apply Fin.ext
    match a with
    | ⟨0, _⟩ => show win3_4.index t (0 : Fin 2) * 5000 + 1 * (j 0).val = win3_8.index t (0 : Fin 2) * 5000 + 1 * (j 0).val; omega
    | ⟨1, _⟩ => show win3_4.index t (1 : Fin 2) * 1 + 1 * 0 = 0; omega
  have rrel : ∀ k : Fin 128, iblk3 V c 0 t (ix2 (j 0) k) = V c main_v110 (ix2 ((((cfg3.win 8).blk t).view.emb j) 0) k) :=
    fun k => congrArg (V c main_v110) (hrel k)
  have rx : ∀ k : Fin 128, iblk3 V c 2 t (ix2 (j 0) k) = V c main_v124 (ix2 ((((cfg3.win 8).blk t).view.emb j) 0) k) :=
    fun k => congrArg (V c main_v124) (hx k)
  have rw_ : ∀ k : Fin 128, iblk3 V c 6 t (ix2 k (j 1)) = V c main_v176 (ix2 k ((((cfg3.win 8).blk t).view.emb j) 1)) :=
    fun k => congrArg (V c main_v176) (hw k)
  have rn : iblk3 V c 4 t (ix2 (j 0) (0 : Fin 1)) = V c main_v172 (ix2 ((((cfg3.win 8).blk t).view.emb j) 0) (0 : Fin 1)) :=
    congrArg (V c main_v172) hn
  rw [rn]
  simp only [rrel, rx, rw_]
  rfl

/-- An index of the array is in point t's block iff each coordinate is in the block's range on its axis. -/
theorem mem_blk3_7 (t : Fin cfg3.N) (i : S500000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v177_0).slice (win3_7.rect t)).set ↔ _
  rw [View.set_slice_whole, Rect.mem_set_unit]
  exact Iff.rfl

/-- An index of the array is in point t's block iff each coordinate is in the block's range on its axis. -/
theorem mem_blk3_8 (t : Fin cfg3.N) (i : S500000x128.Idx) :
    i ∈ ((cfg3.win 8).blk t).view.set ↔ ∀ a : Fin 2, win3_8.index t a * S5000x128.size a ≤ (i a).val
      ∧ (i a).val < win3_8.index t a * S5000x128.size a + S5000x128.size a := by
  show i ∈ ((View.whole main_v177_1).slice (win3_8.rect t)).set ↔ _
  rw [View.set_slice_whole, Rect.mem_set_unit]
  exact Iff.rfl

/-- The blocks of 5000 rows cover the array: row r is in the block of point r / 5000. -/
theorem cover3_7 (i : S500000x128.Idx) :
    ∃ t : Fin cfg3.N, (cfg3.win 7).flush t = true ∧ i ∈ ((cfg3.win 7).blk t).view.set := by
  have hi0 : (i 0).val < 500000 := (i 0).isLt
  have hi1 : (i 1).val < 128 := (i 1).isLt
  have hN : grid3.N = 100 := N_3
  have ht : (i 0).val / 5000 < grid3.N := by omega
  refine ⟨⟨(i 0).val / 5000, ht⟩, flush3_7 _, ?_⟩
  rw [mem_blk3_7]
  obtain ⟨a0, b0, a1, b1, a2, b2, a3, b3, a4, b4, a5, b5, a6, b6, a7, b7, a8, b8⟩ := idx_facts3 ⟨(i 0).val / 5000, ht⟩
  have e0 : win3_7.index ⟨(i 0).val / 5000, ht⟩ (0 : Fin 2) = (i 0).val / 5000 := a7
  have e1 : win3_7.index ⟨(i 0).val / 5000, ht⟩ (1 : Fin 2) = 0 := b7
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    omega
  | ⟨1, _⟩ =>
    show win3_7.index ⟨(i 0).val / 5000, ht⟩ (1 : Fin 2) * 128 ≤ (i 1).val
      ∧ (i 1).val < win3_7.index ⟨(i 0).val / 5000, ht⟩ (1 : Fin 2) * 128 + 128
    omega

/-- The blocks of 5000 rows cover the array: row r is in the block of point r / 5000. -/
theorem cover3_8 (i : S500000x128.Idx) :
    ∃ t : Fin cfg3.N, (cfg3.win 8).flush t = true ∧ i ∈ ((cfg3.win 8).blk t).view.set := by
  have hi0 : (i 0).val < 500000 := (i 0).isLt
  have hi1 : (i 1).val < 128 := (i 1).isLt
  have hN : grid3.N = 100 := N_3
  have ht : (i 0).val / 5000 < grid3.N := by omega
  refine ⟨⟨(i 0).val / 5000, ht⟩, flush3_8 _, ?_⟩
  rw [mem_blk3_8]
  obtain ⟨a0, b0, a1, b1, a2, b2, a3, b3, a4, b4, a5, b5, a6, b6, a7, b7, a8, b8⟩ := idx_facts3 ⟨(i 0).val / 5000, ht⟩
  have e0 : win3_8.index ⟨(i 0).val / 5000, ht⟩ (0 : Fin 2) = (i 0).val / 5000 := a8
  have e1 : win3_8.index ⟨(i 0).val / 5000, ht⟩ (1 : Fin 2) = 0 := b8
  intro a
  match a with
  | ⟨0, _⟩ =>
    show win3_8.index ⟨(i 0).val / 5000, ht⟩ (0 : Fin 2) * 5000 ≤ (i 0).val
      ∧ (i 0).val < win3_8.index ⟨(i 0).val / 5000, ht⟩ (0 : Fin 2) * 5000 + 5000
    omega
  | ⟨1, _⟩ =>
    show win3_8.index ⟨(i 0).val / 5000, ht⟩ (1 : Fin 2) * 128 ≤ (i 1).val
      ∧ (i 1).val < win3_8.index ⟨(i 0).val / 5000, ht⟩ (1 : Fin 2) * 128 + 128
    omega

/-- The array behind output window 7 after the region: the per-edge message of the arrays as the region finds them. -/
theorem arr3_7 (c : Dev nD) :
    (dat3 (F := Ideal) V c).arrAt 7 cfg3.N = edgeMsg (V c main_v117) (V c main_v110) (V c main_v174) (V c main_v156) :=
  (dat3 V c).arrAt_eq_of_cover 7 _ (fun t _ => flushed3_7_eq V c t) cover3_7

/-- The array behind output window 8 after the region: the per-edge message of the arrays as the region finds them. -/
theorem arr3_8 (c : Dev nD) :
    (dat3 (F := Ideal) V c).arrAt 8 cfg3.N = edgeMsg (V c main_v124) (V c main_v110) (V c main_v176) (V c main_v172) :=
  (dat3 V c).arrAt_eq_of_cover 8 _ (fun t _ => flushed3_8_eq V c t) cover3_8

end Cert.KernelIdeal.RegionValue

end
-- ==== Proof.RegionValue4.lean ====
/-
  Region 4 (the combine kernel over 20 blocks of 5000 nodes): what its output array holds afterwards.

  Each grid point t reads block t of the node features and of the two aggregates, and the whole relation row, matrix
  and bias row; it writes block t of the output. The block it writes is the per-node combination restricted to rows
  5000·t … 5000·t + 4999, so after the 20 points, whose blocks cover the 100000 rows, the output array is the
  per-node combination of the arrays the region was entered with.
-/
import proofs.«104171_j72722386256375_1_alg».proof.Proof.Gen.KernelIdeal.Frame
import proofs.«104171_j72722386256375_1_alg».proof.Proof.RegionPay

set_option maxRecDepth 16384

noncomputable section

open scoped BigOperators

namespace Cert.KernelIdeal.RegionValue

open Idealize.ShloMosaic Idealize.ShloMosaic.TcCoe Idealize.ShloMosaic.ValueIdx Cert.KernelIdeal Cert.KernelIdeal.Gen Cert.RegionSpec
open Idealize.ShloMosaic.Pipeline (Dat Cfg Window)

variable (V : (c : Dev nD) → (b : Ref sig .tc) → Buf (Elt Ideal) ((c : Thread nD τ).loc b))

theorem zero2r4 : (![0, 0] : Fin 2 → Nat) = fun _ => 0 := funext fun a => by fin_cases a <;> rfl

/-- The arrays the region's windows are over. -/
theorem arrRef4 : Pipeline.arrRef spec4 0 = main_v96
    ∧ Pipeline.arrRef spec4 1 = main_v188
    ∧ Pipeline.arrRef spec4 2 = main_v190
    ∧ Pipeline.arrRef spec4 3 = main_v180
    ∧ Pipeline.arrRef spec4 4 = main_v183
    ∧ Pipeline.arrRef spec4 5 = main_v186
    ∧ Pipeline.arrRef spec4 6 = main_v191 :=
  ⟨rfl, rfl, rfl, rfl, rfl, rfl, rfl⟩

/-- The printed index maps, decided over the grid: a row-tiled window's block index at point t is (t, 0), a whole
    window's is (0, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- What point t writes back is block t of the per-node combination of the arrays as the region finds them. -/
theorem flushed4_6_eq (c : Dev nD) (t : Fin cfg4.N) :
    (dat4 (F := Ideal) V c).flushed 6 t
      = ((cfg4.win 6).blk t).view.read (Elt Ideal)
          (combineRows (V c main_v96) (V c main_v188) (V c main_v190) (V c main_v180) (V c main_v183) (V c main_v186)) := by
  show (cfg4.win 6).cut (grid4.coords t) ((dat4 V c).after 6 t) = _
  rw [after4_6]
  unfold out4_6
  rw [View.canon_unit_zero zero2r4]
  simp only [View.ld_unit_zero (S := S5000x128) zero2r4, View.ld_unit_zero (S := S128x128) zero2r4,
    View.ld_unit_zero (S := S1x128) zero2r4]
  funext j
  refine (combine_pay4 (iblk4 V c 0 t) (iblk4 V c 1 t) (iblk4 V c 2 t) (iblk4 V c 3 t) (iblk4 V c 4 t)
    (iblk4 V c 5 t) j).trans ?_
  obtain ⟨a0, b0, a1, b1, a2, b2, a3, b3, a4, b4, a5, b5, a6, b6⟩ := idx_facts4 t
  have hx : ∀ k : Fin 128, ((cfg4.win 0).blk t).view.emb (ix2 (j 0) k) = ix2 ((((cfg4.win 6).blk t).view.emb j) 0) k := by
    intro k; funext a; apply Fin.ext
    match a with
    | ⟨0, _⟩ => show win4_0.index t (0 : Fin 2) * 5000 + 1 * (j 0).val = win4_6.index t (0 : Fin 2) * 5000 + 1 * (j 0).val; omega
    | ⟨1, _⟩ => show win4_0.index t (1 : Fin 2) * 128 + 1 * k.val = k.val; omega
  have hlr : ∀ k : Fin 128, ((cfg4.win 1).blk t).view.emb (ix2 (0 : Fin 1) k) = ix2 (0 : Fin 1) k := by
    intro k; funext a; apply Fin.ext
    match a with
    | ⟨0, _⟩ => show win4_1.index t (0 : Fin 2) * 1 + 1 * 0 = 0; omega
    | ⟨1, _⟩ => show win4_1.index t (1 : Fin 2) * 128 + 1 * k.val = k.val; omega
  have hw : ∀ k : Fin 128, ((cfg4.win 2).blk t).view.emb (ix2 k (j 1)) = ix2 k ((((cfg4.win 6).blk t).view.emb j) 1) := by
    intro k; funext a; apply Fin.ext
    match a with
    | ⟨0, _⟩ => show win4_2.index t (0 : Fin 2) * 128 + 1 * k.val = k.val; omega
    | ⟨1, _⟩ => show win4_2.index t (1 : Fin 2) * 128 + 1 * (j 1).val = win4_6.index t (1 : Fin 2) * 128 + 1 * (j 1).val; omega
  have ha : ((cfg4.win 3).blk t).view.emb j = ((cfg4.win 6).blk t).view.emb j := by
    funext a; apply Fin.ext
    match a with
    | ⟨0, _⟩ => show win4_3.index t (0 : Fin 2) * 5000 + 1 * (j 0).val = win4_6.index t (0 : Fin 2) * 5000 + 1 * (j 0).val; omega
    | ⟨1, _⟩ => show win4_3.index t (1 : Fin 2) * 128 + 1 * (j 1).val = win4_6.index t (1 : Fin 2) * 128 + 1 * (j 1).val; omega
  have hb : ((cfg4.win 4).blk t).view.emb j = ((cfg4.win 6).blk t).view.emb j := by
    funext a; apply Fin.ext
    match a with
    | ⟨0, _⟩ => show win4_4.index t (0 : Fin 2) * 5000 + 1 * (j 0).val = win4_6.index t (0 : Fin 2) * 5000 + 1 * (j 0).val; omega
    | ⟨1, _⟩ => show win4_4.index t (1 : Fin 2) * 128 + 1 * (j 1).val = win4_6.index t (1 : Fin 2) * 128 + 1 * (j 1).val; omega
  have hbias : ((cfg4.win 5).blk t).view.emb (ix2 (0 : Fin 1) (j 1)) = ix2 (0 : Fin 1) ((((cfg4.win 6).blk t).view.emb j) 1) := by
    funext a; apply Fin.ext
    match a with
    | ⟨0, _⟩ => show win4_5.index t (0 : Fin 2) * 1 + 1 * 0 = 0; omega
    | ⟨1, _⟩ => show win4_5.index t (1 : Fin 2) * 128 + 1 * (j 1).val = win4_6.index t (1 : Fin 2) * 128 + 1 * (j 1).val; omega
  have rx : ∀ k : Fin 128, iblk4 V c 0 t (ix2 (j 0) k) = V c main_v96 (ix2 ((((cfg4.win 6).blk t).view.emb j) 0) k) :=
    fun k => congrArg (V c main_v96) (hx k)
  have rlr : ∀ k : Fin 128, iblk4 V c 1 t (ix2 (0 : Fin 1) k) = V c main_v188 (ix2 (0 : Fin 1) k) :=
    fun k => congrArg (V c main_v188) (hlr k)
  have rw_ : ∀ k : Fin 128, iblk4 V c 2 t (ix2 k (j 1)) = V c main_v190 (ix2 k ((((cfg4.win 6).blk t).view.emb j) 1)) :=
    fun k => congrArg (V c main_v190) (hw k)
  have ra : iblk4 V c 3 t j = V c main_v180 (((cfg4.win 6).blk t).view.emb j) := congrArg (V c main_v180) ha
  have rb : iblk4 V c 4 t j = V c main_v183 (((cfg4.win 6).blk t).view.emb j) := congrArg (V c main_v183) hb
  have rbias : iblk4 V c 5 t (ix2 (0 : Fin 1) (j 1)) = V c main_v186 (ix2 (0 : Fin 1) ((((cfg4.win 6).blk t).view.emb j) 1)) :=
    congrArg (V c main_v186) hbias
  rw [ra, rb, rbias]
  simp only [rx, rlr, rw_]
  rfl

/-- An index of the array is in point t's block iff each coordinate is in the block's range on its axis. -/
theorem mem_blk4_6 (t : Fin cfg4.N) (i : S100000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v191).slice (win4_6.rect t)).set ↔ _
  rw [View.set_slice_whole, Rect.mem_set_unit]
  exact Iff.rfl

/-- The blocks of 5000 rows cover the array: row r is in the block of point r / 5000. -/
theorem cover4_6 (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hN : grid4.N = 20 := N_4
  have ht : (i 0).val / 5000 < grid4.N := by omega
  refine ⟨⟨(i 0).val / 5000, ht⟩, flush4_6 _, ?_⟩
  rw [mem_blk4_6]
  obtain ⟨a0, b0, a1, b1, a2, b2, a3, b3, a4, b4, a5, b5, a6, b6⟩ := idx_facts4 ⟨(i 0).val / 5000, ht⟩
  have e0 : win4_6.index ⟨(i 0).val / 5000, ht⟩ (0 : Fin 2) = (i 0).val / 5000 := a6
  have e1 : win4_6.index ⟨(i 0).val / 5000, ht⟩ (1 : Fin 2) = 0 := b6
  intro a
  match a with
  | ⟨0, _⟩ =>
    show win4_6.index ⟨(i 0).val / 5000, ht⟩ (0 : Fin 2) * 5000 ≤ (i 0).val
      ∧ (i 0).val < win4_6.index ⟨(i 0).val / 5000, ht⟩ (0 : Fin 2) * 5000 + 5000
    omega
  | ⟨1, _⟩ =>
    show win4_6.index ⟨(i 0).val / 5000, ht⟩ (1 : Fin 2) * 128 ≤ (i 1).val
      ∧ (i 1).val < win4_6.index ⟨(i 0).val / 5000, ht⟩ (1 : Fin 2) * 128 + 128
    omega

/-- The output array after the region: the per-node combination of the arrays as the region finds them. -/
theorem arr4_6 (c : Dev nD) :
    (dat4 (F := Ideal) V c).arrAt 6 cfg4.N
      = combineRows (V c main_v96) (V c main_v188) (V c main_v190) (V c main_v180) (V c main_v183) (V c main_v186) :=
  (dat4 V c).arrAt_eq_of_cover 6 _ (fun t _ => flushed4_6_eq V c t) cover4_6

end Cert.KernelIdeal.RegionValue

end
-- ==== Proof.RegionValue5.lean ====
/-
  Region 5 (the normalize kernel over 20 blocks of 5000 nodes): what its output array holds afterwards.

  Each grid point t reads block t of the combined features and the whole mean and variance rows; it writes block t
  of the output. The block it writes is the per-node normalisation restricted to rows 5000·t … 5000·t + 4999, so
  after the 20 points, whose blocks cover the 100000 rows, the output array is the per-node normalisation of the
  arrays the region was entered with.
-/
import proofs.«104171_j72722386256375_1_alg».proof.Proof.Gen.KernelIdeal.Frame
import proofs.«104171_j72722386256375_1_alg».proof.Proof.RegionPay

set_option maxRecDepth 16384

noncomputable section

open scoped BigOperators

namespace Cert.KernelIdeal.RegionValue

open Idealize.ShloMosaic Idealize.ShloMosaic.TcCoe Idealize.ShloMosaic.ValueIdx Cert.KernelIdeal Cert.KernelIdeal.Gen Cert.RegionSpec
open Idealize.ShloMosaic.Pipeline (Dat Cfg Window)

variable (V : (c : Dev nD) → (b : Ref sig .tc) → Buf (Elt Ideal) ((c : Thread nD τ).loc b))

theorem zero2r5 : (![0, 0] : Fin 2 → Nat) = fun _ => 0 := funext fun a => by fin_cases a <;> rfl

/-- The arrays the region's windows are over. -/
theorem arrRef5 : Pipeline.arrRef spec5 0 = main_v191
    ∧ Pipeline.arrRef spec5 1 = main_v195
    ∧ Pipeline.arrRef spec5 2 = main_v196
    ∧ Pipeline.arrRef spec5 3 = main_v197 :=
  ⟨rfl, rfl, rfl, rfl⟩

/-- The printed index maps, decided over the grid: a row-tiled window's block index at point t is (t, 0), a whole
    window's is (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the per-node normalisation of the arrays as the region finds them. -/
theorem flushed5_3_eq (c : Dev nD) (t : Fin cfg5.N) :
    (dat5 (F := Ideal) V c).flushed 3 t
      = ((cfg5.win 3).blk t).view.read (Elt Ideal) (normRows (V c main_v191) (V c main_v195) (V c main_v196)) := by
  show (cfg5.win 3).cut (grid5.coords t) ((dat5 V c).after 3 t) = _
  rw [after5_3]
  unfold out5_3
  rw [View.canon_unit_zero zero2r5]
  simp only [View.ld_unit_zero (S := S5000x128) zero2r5, View.ld_unit_zero (S := S1x128) zero2r5]
  funext j
  refine (norm_pay5 (iblk5 V c 2 t) (iblk5 V c 0 t) (iblk5 V c 1 t) j).trans ?_
  obtain ⟨a0, b0, a1, b1, a2, b2, a3, b3⟩ := idx_facts5 t
  have ho : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  have hmean : ((cfg5.win 1).blk t).view.emb (ix2 (0 : Fin 1) (j 1)) = ix2 (0 : Fin 1) ((((cfg5.win 3).blk t).view.emb j) 1) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_3.index t (1 : Fin 2) * 128 + 1 * (j 1).val; omega
  have hvar : ((cfg5.win 2).blk t).view.emb (ix2 (0 : Fin 1) (j 1)) = ix2 (0 : Fin 1) ((((cfg5.win 3).blk t).view.emb j) 1) := by
    funext a; apply Fin.ext
    match a with
    | ⟨0, _⟩ => show win5_2.index t (0 : Fin 2) * 1 + 1 * 0 = 0; omega
    | ⟨1, _⟩ => show win5_2.index t (1 : Fin 2) * 128 + 1 * (j 1).val = win5_3.index t (1 : Fin 2) * 128 + 1 * (j 1).val; omega
  have ro : iblk5 V c 0 t j = V c main_v191 (((cfg5.win 3).blk t).view.emb j) := congrArg (V c main_v191) ho
  have rmean : iblk5 V c 1 t (ix2 (0 : Fin 1) (j 1)) = V c main_v195 (ix2 (0 : Fin 1) ((((cfg5.win 3).blk t).view.emb j) 1)) :=
    congrArg (V c main_v195) hmean
  have rvar : iblk5 V c 2 t (ix2 (0 : Fin 1) (j 1)) = V c main_v196 (ix2 (0 : Fin 1) ((((cfg5.win 3).blk t).view.emb j) 1)) :=
    congrArg (V c main_v196) hvar
  rw [ro, rmean, rvar]
  rfl

/-- An index of the array is in point t's block iff each coordinate is in the block's range on its axis. -/
theorem mem_blk5_3 (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v197).slice (win5_3.rect t)).set ↔ _
  rw [View.set_slice_whole, Rect.mem_set_unit]
  exact Iff.rfl

/-- The blocks of 5000 rows cover the array: row r is in the block of point r / 5000. -/
theorem cover5_3 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : grid5.N = 20 := N_5
  have ht : (i 0).val / 5000 < grid5.N := by omega
  refine ⟨⟨(i 0).val / 5000, ht⟩, flush5_3 _, ?_⟩
  rw [mem_blk5_3]
  obtain ⟨a0, b0, a1, b1, a2, b2, a3, b3⟩ := idx_facts5 ⟨(i 0).val / 5000, ht⟩
  have e0 : win5_3.index ⟨(i 0).val / 5000, ht⟩ (0 : Fin 2) = (i 0).val / 5000 := a3
  have e1 : win5_3.index ⟨(i 0).val / 5000, ht⟩ (1 : Fin 2) = 0 := b3
  intro a
  match a with
  | ⟨0, _⟩ =>
    show win5_3.index ⟨(i 0).val / 5000, ht⟩ (0 : Fin 2) * 5000 ≤ (i 0).val
      ∧ (i 0).val < win5_3.index ⟨(i 0).val / 5000, ht⟩ (0 : Fin 2) * 5000 + 5000
    omega
  | ⟨1, _⟩ =>
    show win5_3.index ⟨(i 0).val / 5000, ht⟩ (1 : Fin 2) * 128 ≤ (i 1).val
      ∧ (i 1).val < win5_3.index ⟨(i 0).val / 5000, ht⟩ (1 : Fin 2) * 128 + 128
    omega

/-- The output array after the region: the per-node normalisation of the arrays as the region finds them. -/
theorem arr5_3 (c : Dev nD) :
    (dat5 (F := Ideal) V c).arrAt 3 cfg5.N = normRows (V c main_v191) (V c main_v195) (V c main_v196) :=
  (dat5 V c).arrAt_eq_of_cover 3 _ (fun t _ => flushed5_3_eq V c t) cover5_3

end Cert.KernelIdeal.RegionValue

end
-- ==== Proof.RegionValue.lean ====
/-
  What every region of the kernel program leaves in its output arrays, as functions of the arrays it was entered with:
  the six region modules together.
-/
import proofs.«104171_j72722386256375_1_alg».proof.Proof.RegionValue0
import proofs.«104171_j72722386256375_1_alg».proof.Proof.RegionValue1
import proofs.«104171_j72722386256375_1_alg».proof.Proof.RegionValue2
import proofs.«104171_j72722386256375_1_alg».proof.Proof.RegionValue3
import proofs.«104171_j72722386256375_1_alg».proof.Proof.RegionValue4
import proofs.«104171_j72722386256375_1_alg».proof.Proof.RegionValue5
-- ==== Proof.ReferenceRegion.lean ====
/-
  The reference's three whole-array expressions are the three spec functions.

  The host program computes, between its gathers, scatters and statistics, exactly three kinds of whole-array
  expression: the per-edge message (a product of two gathered arrays, a matrix product and a row scaling), the per-node
  combination (a row scaling, a matrix product, two sums, a constant factor and a bias row) and the per-node
  normalisation (a mean row subtracted, the reciprocal square root of a variance row, a hyperbolic tangent). Read at
  an index, each is the corresponding function of the spec module: a plain matrix product is the sum over the shared
  coordinate, a row or a column placed over the array reads the row's or the column's entry, and a splat constant
  reads its word.
-/
import proofs.«104171_j72722386256375_1_alg».proof.ReferenceIdeal
import proofs.«104171_j72722386256375_1_alg».proof.Proof.LibPlainDot
import proofs.«104171_j72722386256375_1_alg».proof.Proof.RegionSpec
import Idealize.ShloMosaic.Lib.Pipeline.Value

noncomputable section

open scoped BigOperators

namespace Cert.ReferenceIdeal.RegionValue

open Idealize.ShloMosaic Idealize.ShloMosaic.ValueIdx Cert.ReferenceIdeal Cert.RegionSpec

variable [Facts]
open Facts₀ Facts

/-- The per-edge message, as the reference prints it. -/
theorem ref_edge (x rel : FVec Ideal S500000x128 .f32) (w : FVec Ideal S128x128 .f32) (nrm : FVec Ideal S500000x1 .f32) :
    mulf (Host.dotGeneral dot_S500000x128_S128x128_S500000x128_1_0_0_1_n_n none (mulf x rel) w)
        (broadcastInDim S500000x128 ![0, 1] bcast_S500000x1_S500000x128_0_1 nrm)
      = edgeMsg x rel w nrm := by
  funext i
  obtain ⟨e, j, rfl⟩ : ∃ (e : Fin 500000) (j : Fin 128), i = ix2 e j := ⟨i 0, i 1, eq_ix2 i⟩
  rw [mulf_apply, edgeMsg_apply]
  refine congrArg₂ (· * ·) ?_ ?_
  · exact PlainDot.dotGeneral_apply 500000 128 128 none _ (mulf x rel) w e j
  · exact broadcastInDim_apply ![0, 1] bcast_S500000x1_S500000x128_0_1 nrm (ix2 e j) (ix2 e (0 : Fin 1)) (fun a => by match a with | ⟨0, _⟩ => rfl | ⟨1, _⟩ => rfl)

/-- The combination with the three placed rows and constants left abstract: sums and products entry by entry around a
    plain matrix product. -/
theorem combine_core (x L : FVec Ideal S100000x128 .f32) (w : FVec Ideal S128x128 .f32)
    (a b C Bi : FVec Ideal S100000x128 .f32) (n : Fin 100000) (j : Fin 128) :
    addf (mulf (addf (addf a b)
        (Host.dotGeneral dot_S100000x128_S128x128_S100000x128_1_0_0_1_n_n none (mulf x L) w)) C) Bi (ix2 n j)
      = ((a (ix2 n j) + b (ix2 n j)) + ∑ k : Fin 128, (x (ix2 n k) * L (ix2 n k)) * w (ix2 k j)) * C (ix2 n j)
        + Bi (ix2 n j) := by
  simp only [addf_apply, mulf_apply]
  refine congrArg₂ (· + ·) (congrArg₂ (· * ·) (congrArg₂ (· + ·) rfl ?_) rfl) rfl
  exact PlainDot.dotGeneral_apply 100000 128 128 none _ _ _ n j

/-- The per-node combination, as the reference prints it. -/
theorem ref_combine (x : FVec Ideal S100000x128 .f32) (lr : FVec Ideal S1x128 .f32) (w : FVec Ideal S128x128 .f32)
    (a b : FVec Ideal S100000x128 .f32) (bias : FVec Ideal S1x128 .f32) :
    addf (mulf (addf (addf a b)
          (Host.dotGeneral dot_S100000x128_S128x128_S100000x128_1_0_0_1_n_n none
            (mulf x (broadcastInDim S100000x128 ![0, 1] bcast_S1x128_S100000x128_0_1 lr)) w))
          (broadcastInDim S100000x128 ![] bcast_S_S100000x128 (constant (F := Ideal) S_ .f32 0x3EAAAAAB#32)))
        (broadcastInDim S100000x128 ![0, 1] bcast_S1x128_S100000x128_0_1 bias)
      = combineRows x lr w a b bias := by
  funext i
  obtain ⟨n, j, rfl⟩ : ∃ (n : Fin 100000) (j : Fin 128), i = ix2 n j := ⟨i 0, i 1, eq_ix2 i⟩
  rw [combineRows_apply]
  refine (combine_core x _ w a b _ _ n j).trans ?_
  rw [broadcastInDim_apply _ _ _ (ix2 n j) ix0 (fun a => a.elim0),
    broadcastInDim_apply _ _ _ (ix2 n j) (ix2 (0 : Fin 1) j) (fun a => by match a with | ⟨0, _⟩ => rfl | ⟨1, _⟩ => rfl)]
  refine congrArg₂ (· + ·) (congrArg₂ (· * ·) (congrArg₂ (· + ·) rfl (Finset.sum_congr rfl fun k _ => ?_)) rfl) rfl
  rw [broadcastInDim_apply _ _ _ (ix2 n k) (ix2 (0 : Fin 1) k) (fun a => by match a with | ⟨0, _⟩ => rfl | ⟨1, _⟩ => rfl)]

/-- The per-node normalisation, as the reference prints it: the mean arrives as a row, the variance as a vector that
    the reference makes a row after taking the reciprocal square root. -/
theorem ref_norm (o : FVec Ideal S100000x128 .f32) (mean : FVec Ideal S1x128 .f32) (v : FVec Ideal S128 .f32) :
    Host.tanh (mulf (subf o (broadcastInDim S100000x128 ![0, 1] bcast_S1x128_S100000x128_0_1 mean))
        (broadcastInDim S100000x128 ![0, 1] bcast_S1x128_S100000x128_0_1
          (broadcastInDim S1x128 ![1] bcast_S128_S1x128_1
            (Host.rsqrt (addf v (broadcastInDim S128 ![] bcast_S_S128 (constant (F := Ideal) S_ .f32 0x3727C5AC#32)))))))
      = normRows o mean (broadcastInDim S1x128 ![1] bcast_S128_S1x128_1 v) := by
  funext i
  obtain ⟨n, j, rfl⟩ : ∃ (n : Fin 100000) (j : Fin 128), i = ix2 n j := ⟨i 0, i 1, eq_ix2 i⟩
  rw [normRows_apply]
  show Ideal.tanh ((_ - _) * _) = _
  refine congrArg Ideal.tanh (congrArg₂ (· * ·) (congrArg₂ (· - ·) rfl ?_) ?_)
  · exact broadcastInDim_apply ![0, 1] bcast_S1x128_S100000x128_0_1 mean (ix2 n j) (ix2 (0 : Fin 1) j) (fun a => by match a with | ⟨0, _⟩ => rfl | ⟨1, _⟩ => rfl)
  · rw [broadcastInDim_apply ![0, 1] bcast_S1x128_S100000x128_0_1 _ (ix2 n j) (ix2 (0 : Fin 1) j) (fun a => by match a with | ⟨0, _⟩ => rfl | ⟨1, _⟩ => rfl),
      broadcastInDim_apply ![1] bcast_S128_S1x128_1 _ (ix2 (0 : Fin 1) j) (ix1 j) (fun a => by match a with | ⟨0, _⟩ => rfl),
      broadcastInDim_apply ![1] bcast_S128_S1x128_1 v (ix2 (0 : Fin 1) j) (ix1 j) (fun a => by match a with | ⟨0, _⟩ => rfl)]
    show Ideal.rsqrt (v (ix1 j) + broadcastInDim S128 ![] bcast_S_S128 (constant (F := Ideal) S_ .f32 0x3727C5AC#32) (ix1 j)) = _
    rw [broadcastInDim_apply ![] bcast_S_S128 (constant (F := Ideal) S_ .f32 0x3727C5AC#32) (ix1 j) ix0 (fun a => a.elim0)]
    rfl

end Cert.ReferenceIdeal.RegionValue

end
-- ==== Proof.L1Asm.lean ====
import proofs.«104171_j72722386256375_1_alg».proof.Proof.L1A
import proofs.«104171_j72722386256375_1_alg».proof.Proof.L1An
import proofs.«104171_j72722386256375_1_alg».proof.Proof.L1B
import proofs.«104171_j72722386256375_1_alg».proof.Proof.L1C
import proofs.«104171_j72722386256375_1_alg».proof.Proof.RegionValue
import proofs.«104171_j72722386256375_1_alg».proof.Proof.ReferenceRegion

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## Layer 1 assembled: through the three regions.  Each region's output array is the region's function of its input arrays
(the kernel side's value lemmas); its inputs are the reference's arrays (the lemmas of the host stretches); and the
reference's own lines at that place compute the same function (its junction lemmas and the reference-side forms). -/

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD) (V : RV)

/-- The agreement on the arguments at the edge kernel's exit. -/
theorem agree6 (hag : Agree (Cert.KernelIdeal.Gen.W0 (F := Ideal) m ρ c) V) : Agree (Cert.KernelIdeal.Gen.W6 (F := Ideal) m ρ c) V :=
  have h : Agree (Cert.KernelIdeal.Gen.W5 (F := Ideal) m ρ c) V := agree_KA hag
  ⟨h.a0.trans (Cert.KernelIdeal.Gen.W6_of_ne m ρ c Cert.KernelIdeal.main_arg0 (by decide)).symm,
   h.a1.trans (Cert.KernelIdeal.Gen.W6_of_ne m ρ c Cert.KernelIdeal.main_arg1 (by decide)).symm,
   h.a2.trans (Cert.KernelIdeal.Gen.W6_of_ne m ρ c Cert.KernelIdeal.main_arg2 (by decide)).symm,
   h.a3.trans (Cert.KernelIdeal.Gen.W6_of_ne m ρ c Cert.KernelIdeal.main_arg3 (by decide)).symm,
   h.a4.trans (Cert.KernelIdeal.Gen.W6_of_ne m ρ c Cert.KernelIdeal.main_arg4 (by decide)).symm,
   h.a5.trans (Cert.KernelIdeal.Gen.W6_of_ne m ρ c Cert.KernelIdeal.main_arg5 (by decide)).symm,
   h.a6.trans (Cert.KernelIdeal.Gen.W6_of_ne m ρ c Cert.KernelIdeal.main_arg6 (by decide)).symm,
   h.a7.trans (Cert.KernelIdeal.Gen.W6_of_ne m ρ c Cert.KernelIdeal.main_arg7 (by decide)).symm,
   h.a8.trans (Cert.KernelIdeal.Gen.W6_of_ne m ρ c Cert.KernelIdeal.main_arg8 (by decide)).symm,
   h.a9.trans (Cert.KernelIdeal.Gen.W6_of_ne m ρ c Cert.KernelIdeal.main_arg9 (by decide)).symm,
   h.a10.trans (Cert.KernelIdeal.Gen.W6_of_ne m ρ c Cert.KernelIdeal.main_arg10 (by decide)).symm⟩

/-- Layer 1: the edge kernel's first output is the reference's scaled messages of the source direction. -/
theorem s0_in (hag : Agree (Cert.KernelIdeal.Gen.W0 (F := Ideal) m ρ c) V) (hnn : NonNegR V) :
    Cert.KernelIdeal.Gen.W6 (F := Ideal) m ρ c (Proc.devRef .tc Cert.KernelIdeal.main_v76_0) = R1 V (Proc.devRef .tc Cert.ReferenceIdeal.main_v51) := by
  refine (Cert.KernelIdeal.Gen.W6_arr m ρ c 7).trans ?_
  refine (Cert.KernelIdeal.RegionValue.arr0_7 _ c).trans ?_
  have h1 : Cert.KernelIdeal.Gen.V5 (F := Ideal) m ρ c Cert.KernelIdeal.main_v16 = R1 V (Proc.devRef .tc Cert.ReferenceIdeal.main_v19) := A_xdst _ V hag hnn
  have h2 : Cert.KernelIdeal.Gen.V5 (F := Ideal) m ρ c Cert.KernelIdeal.main_v9 = R1 V (Proc.devRef .tc Cert.ReferenceIdeal.main_v10) := A_relE _ V hag hnn
  have h3 : Cert.KernelIdeal.Gen.V5 (F := Ideal) m ρ c Cert.KernelIdeal.main_v73 = R1 V (Proc.devRef .tc Cert.ReferenceIdeal.main_v12) := A_win _ V hag hnn
  have h4 : Cert.KernelIdeal.Gen.V5 (F := Ideal) m ρ c Cert.KernelIdeal.main_v55 = R1 V (Proc.devRef .tc Cert.ReferenceIdeal.main_v49) := A_nin _ V hag hnn
  rw [h1, h2, h3, h4]
  simp only [R1]
  rw [Cert.ReferenceIdeal.RefRun.J51 V]
  exact (Cert.ReferenceIdeal.RegionValue.ref_edge _ _ _ _).symm

/-- Layer 1: the edge kernel's second output is the reference's scaled messages of the destination direction. -/
theorem s0_out (hag : Agree (Cert.KernelIdeal.Gen.W0 (F := Ideal) m ρ c) V) (hnn : NonNegR V) :
    Cert.KernelIdeal.Gen.W6 (F := Ideal) m ρ c (Proc.devRef .tc Cert.KernelIdeal.main_v76_1) = R1 V (Proc.devRef .tc Cert.ReferenceIdeal.main_v100) := by
  refine (Cert.KernelIdeal.Gen.W6_arr m ρ c 8).trans ?_
  refine (Cert.KernelIdeal.RegionValue.arr0_8 _ c).trans ?_
  have h1 : Cert.KernelIdeal.Gen.V5 (F := Ideal) m ρ c Cert.KernelIdeal.main_v23 = R1 V (Proc.devRef .tc Cert.ReferenceIdeal.main_v68) := A_xsrc _ V hag hnn
  have h2 : Cert.KernelIdeal.Gen.V5 (F := Ideal) m ρ c Cert.KernelIdeal.main_v9 = R1 V (Proc.devRef .tc Cert.ReferenceIdeal.main_v10) := A_relE _ V hag hnn
  have h3 : Cert.KernelIdeal.Gen.V5 (F := Ideal) m ρ c Cert.KernelIdeal.main_v75 = R1 V (Proc.devRef .tc Cert.ReferenceIdeal.main_v61) := A_wout _ V hag hnn
  have h4 : Cert.KernelIdeal.Gen.V5 (F := Ideal) m ρ c Cert.KernelIdeal.main_v71 = R1 V (Proc.devRef .tc Cert.ReferenceIdeal.main_v98) := A_nout _ V hag hnn
  rw [h1, h2, h3, h4]
  simp only [R1]
  rw [Cert.ReferenceIdeal.RefRun.J100 V]
  exact (Cert.ReferenceIdeal.RegionValue.ref_edge _ _ _ _).symm

/-- Layer 1: the combine kernel's output is the reference's pre-normalisation array. -/
theorem s1 (hag : Agree (Cert.KernelIdeal.Gen.W0 (F := Ideal) m ρ c) V) (hnn : NonNegR V) :
    Cert.KernelIdeal.Gen.W8 (F := Ideal) m ρ c (Proc.devRef .tc Cert.KernelIdeal.main_v90) = R1 V (Proc.devRef .tc Cert.ReferenceIdeal.main_v124) := by
  have hag6 := agree6 m ρ c V hag
  have hag7 : Agree (Cert.KernelIdeal.Gen.W7 (F := Ideal) m ρ c) V := agree_KB hag6
  refine (Cert.KernelIdeal.Gen.W8_arr m ρ c 6).trans ?_
  refine (Cert.KernelIdeal.RegionValue.arr1_6 _ c).trans ?_
  have h0 : Cert.KernelIdeal.Gen.V7 (F := Ideal) m ρ c Cert.KernelIdeal.main_arg0 = V (Proc.devRef .tc Cert.ReferenceIdeal.main_arg0) := hag7.a0.symm
  have h1 : Cert.KernelIdeal.Gen.V7 (F := Ideal) m ρ c Cert.KernelIdeal.main_v87 = R1 V (Proc.devRef .tc Cert.ReferenceIdeal.main_v110) := B_lr _ V hag6 hnn
  have h2 : Cert.KernelIdeal.Gen.V7 (F := Ideal) m ρ c Cert.KernelIdeal.main_v89 = R1 V (Proc.devRef .tc Cert.ReferenceIdeal.main_v114) := B_wl _ V hag6 hnn
  have h3 : Cert.KernelIdeal.Gen.V7 (F := Ideal) m ρ c Cert.KernelIdeal.main_v79 = R1 V (Proc.devRef .tc Cert.ReferenceIdeal.main_v59) := B_in _ V hag6 hnn (s0_in m ρ c V hag hnn)
  have h4 : Cert.KernelIdeal.Gen.V7 (F := Ideal) m ρ c Cert.KernelIdeal.main_v82 = R1 V (Proc.devRef .tc Cert.ReferenceIdeal.main_v108) := B_out _ V hag6 hnn (s0_out m ρ c V hag hnn)
  have h5 : Cert.KernelIdeal.Gen.V7 (F := Ideal) m ρ c Cert.KernelIdeal.main_v85 = R1 V (Proc.devRef .tc Cert.ReferenceIdeal.main_v122) := B_bias _ V hag6 hnn
  rw [h0, h1, h2, h3, h4, h5]
  simp only [R1]
  rw [Cert.ReferenceIdeal.RefRun.J124 V]
  exact (Cert.ReferenceIdeal.RegionValue.ref_combine _ _ _ _ _ _).symm

/-- The agreement on the arguments at the combine kernel's exit. -/
theorem agree8 (hag : Agree (Cert.KernelIdeal.Gen.W0 (F := Ideal) m ρ c) V) : Agree (Cert.KernelIdeal.Gen.W8 (F := Ideal) m ρ c) V :=
  have h : Agree (Cert.KernelIdeal.Gen.W7 (F := Ideal) m ρ c) V := agree_KB (agree6 m ρ c V hag)
  ⟨h.a0.trans ((Cert.KernelIdeal.Gen.W8_arr m ρ c 0).trans (((Cert.KernelIdeal.Gen.dat1 (Cert.KernelIdeal.Gen.V7 (F := Ideal) m ρ) c).arrAt_in 0 rfl _).trans (Cert.KernelIdeal.Gen.A_eq1 (Cert.KernelIdeal.Gen.V7 (F := Ideal) m ρ) c 0))).symm,
   h.a1.trans (Cert.KernelIdeal.Gen.W8_of_ne m ρ c Cert.KernelIdeal.main_arg1 (by decide)).symm,
   h.a2.trans (Cert.KernelIdeal.Gen.W8_of_ne m ρ c Cert.KernelIdeal.main_arg2 (by decide)).symm,
   h.a3.trans (Cert.KernelIdeal.Gen.W8_of_ne m ρ c Cert.KernelIdeal.main_arg3 (by decide)).symm,
   h.a4.trans (Cert.KernelIdeal.Gen.W8_of_ne m ρ c Cert.KernelIdeal.main_arg4 (by decide)).symm,
   h.a5.trans (Cert.KernelIdeal.Gen.W8_of_ne m ρ c Cert.KernelIdeal.main_arg5 (by decide)).symm,
   h.a6.trans (Cert.KernelIdeal.Gen.W8_of_ne m ρ c Cert.KernelIdeal.main_arg6 (by decide)).symm,
   h.a7.trans (Cert.KernelIdeal.Gen.W8_of_ne m ρ c Cert.KernelIdeal.main_arg7 (by decide)).symm,
   h.a8.trans (Cert.KernelIdeal.Gen.W8_of_ne m ρ c Cert.KernelIdeal.main_arg8 (by decide)).symm,
   h.a9.trans (Cert.KernelIdeal.Gen.W8_of_ne m ρ c Cert.KernelIdeal.main_arg9 (by decide)).symm,
   h.a10.trans (Cert.KernelIdeal.Gen.W8_of_ne m ρ c Cert.KernelIdeal.main_arg10 (by decide)).symm⟩

/-- Layer 1: the normalize kernel's output is the reference's first-layer node array. -/
theorem s2 (hag : Agree (Cert.KernelIdeal.Gen.W0 (F := Ideal) m ρ c) V) (hnn : NonNegR V) :
    Cert.KernelIdeal.Gen.W11 (F := Ideal) m ρ c (Proc.devRef .tc Cert.KernelIdeal.main_v96) = R1 V (Proc.devRef .tc Cert.ReferenceIdeal.main_v138) := by
  have hs1 := s1 m ρ c V hag hnn
  refine (Cert.KernelIdeal.Gen.W11_arr m ρ c 3).trans ?_
  refine (Cert.KernelIdeal.RegionValue.arr2_3 _ c).trans ?_
  have h0 : Cert.KernelIdeal.Gen.V10 (F := Ideal) m ρ c Cert.KernelIdeal.main_v90 = R1 V (Proc.devRef .tc Cert.ReferenceIdeal.main_v124) := (C_pre _).trans hs1
  have h1 : Cert.KernelIdeal.Gen.V10 (F := Ideal) m ρ c Cert.KernelIdeal.main_v94 = _ := C_mean _ V hs1
  have h2 : Cert.KernelIdeal.Gen.V10 (F := Ideal) m ρ c Cert.KernelIdeal.main_v95 = _ := C_var _ V hs1
  rw [h0, h1, h2]
  simp only [R1]
  rw [Cert.ReferenceIdeal.RefRun.J138 V]
  exact (Cert.ReferenceIdeal.RegionValue.ref_norm _ _ _).symm

/-- The agreement on the arguments at the normalize kernel's exit. -/
theorem agree11 (hag : Agree (Cert.KernelIdeal.Gen.W0 (F := Ideal) m ρ c) V) : Agree (Cert.KernelIdeal.Gen.W11 (F := Ideal) m ρ c) V :=
  have h : Agree (Cert.KernelIdeal.Gen.W10 (F := Ideal) m ρ c) V := agree_KC (agree8 m ρ c V hag)
  ⟨h.a0.trans (Cert.KernelIdeal.Gen.W11_of_ne m ρ c Cert.KernelIdeal.main_arg0 (by decide)).symm,
   h.a1.trans (Cert.KernelIdeal.Gen.W11_of_ne m ρ c Cert.KernelIdeal.main_arg1 (by decide)).symm,
   h.a2.trans (Cert.KernelIdeal.Gen.W11_of_ne m ρ c Cert.KernelIdeal.main_arg2 (by decide)).symm,
   h.a3.trans (Cert.KernelIdeal.Gen.W11_of_ne m ρ c Cert.KernelIdeal.main_arg3 (by decide)).symm,
   h.a4.trans (Cert.KernelIdeal.Gen.W11_of_ne m ρ c Cert.KernelIdeal.main_arg4 (by decide)).symm,
   h.a5.trans (Cert.KernelIdeal.Gen.W11_of_ne m ρ c Cert.KernelIdeal.main_arg5 (by decide)).symm,
   h.a6.trans (Cert.KernelIdeal.Gen.W11_of_ne m ρ c Cert.KernelIdeal.main_arg6 (by decide)).symm,
   h.a7.trans (Cert.KernelIdeal.Gen.W11_of_ne m ρ c Cert.KernelIdeal.main_arg7 (by decide)).symm,
   h.a8.trans (Cert.KernelIdeal.Gen.W11_of_ne m ρ c Cert.KernelIdeal.main_arg8 (by decide)).symm,
   h.a9.trans (Cert.KernelIdeal.Gen.W11_of_ne m ρ c Cert.KernelIdeal.main_arg9 (by decide)).symm,
   h.a10.trans (Cert.KernelIdeal.Gen.W11_of_ne m ρ c Cert.KernelIdeal.main_arg10 (by decide)).symm⟩

/-- Layer 1: the relation table, computed before the first region, is still in place after the third. -/
theorem rel11 (hag : Agree (Cert.KernelIdeal.Gen.W0 (F := Ideal) m ρ c) V) (hnn : NonNegR V) :
    Cert.KernelIdeal.Gen.W11 (F := Ideal) m ρ c (Proc.devRef .tc Cert.KernelIdeal.main_v2) = R1 V (Proc.devRef .tc Cert.ReferenceIdeal.main_v3) :=
  (Cert.KernelIdeal.Gen.W11_of_ne m ρ c Cert.KernelIdeal.main_v2 (by decide)).trans <|
    (C_rel _).trans <| (Cert.KernelIdeal.Gen.W8_of_ne m ρ c Cert.KernelIdeal.main_v2 (by decide)).trans <|
    (B_rel _).trans <| (Cert.KernelIdeal.Gen.W6_of_ne m ρ c Cert.KernelIdeal.main_v2 (by decide)).trans <| A_rel _ V hag hnn

end Cert.Proof.Bridge

end
-- ==== Proof.L2X.lean ====
import proofs.«104171_j72722386256375_1_alg».proof.Proof.KGroups
import proofs.«104171_j72722386256375_1_alg».proof.Proof.RefJunction

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## Across the layers: the kernel program updates the relation table of layer 1 at the start of its layer-2 host lines,
the reference at the end of its layer 1.  The kernel side's update and its slice of the second self-loop row are the
reference's layer-1 results. -/

/-- The kernel program's first-layer relation update (computed among its layer-2 host lines) is the reference's. -/
theorem D_r1 (U : KV) (V : RV) (hag : Agree U V) (hnn : NonNegR V)
    (hrel : U (Proc.devRef .tc Cert.KernelIdeal.main_v2) = R1 V (Proc.devRef .tc Cert.ReferenceIdeal.main_v3)) :
    KD U (Proc.devRef .tc Cert.KernelIdeal.main_v100) = R1 V (Proc.devRef .tc Cert.ReferenceIdeal.main_v142) := by
  simp only [R1] at hrel ⊢
  rw [Cert.ReferenceIdeal.RefRun.J142 V, ← hrel]
  simp only [KD, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  all_goals rfl

/-- The second layer's self-loop relation row, sliced out of the argument. -/
theorem D_s143 (U : KV) (V : RV) (hag : Agree U V) (hnn : NonNegR V) :
    KD U (Proc.devRef .tc Cert.KernelIdeal.main_v101) = R1 V (Proc.devRef .tc Cert.ReferenceIdeal.main_v143) := by
  simp only [R1, KD, Cert.ReferenceIdeal.RefRun.opsL1, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  all_goals rfl

end Cert.Proof.Bridge

end
-- ==== Proof.RefJunction2.lean ====
/- Junctions of the second half of the idealized reference program, over the contents the first half leaves: each of
   its main intermediate buffers and its two results, after the half has run, as ONE step of the program's own
   operations over other buffers read after the same run (or over the contents it starts from: an argument, or the
   first half's results main_v138, main_v142, main_v143). Both sides are the same composition, by computation. -/
import proofs.«104171_j72722386256375_1_alg».proof.Proof.RefJunction

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- The second layer's relation table: the first layer's update with the second self-loop row appended. -/
theorem J145 (V : Valuation τ sig (Elt F)) :
    after opsL2 V (Proc.devRef .tc main_v145)
      = concatenate S11x128 0 [⟨S10x128, (V (Proc.devRef .tc main_v142) : (⟨S10x128, .f32⟩ : BufTy).Contents (Elt F))⟩,
          ⟨S1x128, shapeCast S1x128 (V (Proc.devRef .tc main_v143) : (⟨S1x1x128, .f32⟩ : BufTy).Contents (Elt F)) shapeCasts_S1x1x128_S1x128⟩]
          concatenates_S10x128_S1x128_S11x128_d0 := by
  rfl

set_option maxRecDepth 16384 in
set_option maxHeartbeats 8000000 in
/-- The first edge type's messages of the second layer. -/
theorem J193 (V : Valuation τ sig (Elt F)) :
    after opsL2 V (Proc.devRef .tc main_v193)
      = mulf (Host.dotGeneral dot_S500000x128_S128x128_S500000x128_1_0_0_1_n_n none (mulf (after opsL2 V (Proc.devRef .tc main_v161)) (after opsL2 V (Proc.devRef .tc main_v152))) (after opsL2 V (Proc.devRef .tc main_v154)))
          (broadcastInDim S500000x128 ![0, 1] bcast_S500000x1_S500000x128_0_1 (after opsL2 V (Proc.devRef .tc main_v191))) := by
  rfl

set_option maxRecDepth 16384 in
set_option maxHeartbeats 8000000 in
/-- The second edge type's messages of the second layer. -/
theorem J242 (V : Valuation τ sig (Elt F)) :
    after opsL2 V (Proc.devRef .tc main_v242)
      = mulf (Host.dotGeneral dot_S500000x128_S128x128_S500000x128_1_0_0_1_n_n none (mulf (after opsL2 V (Proc.devRef .tc main_v210)) (after opsL2 V (Proc.devRef .tc main_v152))) (after opsL2 V (Proc.devRef .tc main_v203)))
          (broadcastInDim S500000x128 ![0, 1] bcast_S500000x1_S500000x128_0_1 (after opsL2 V (Proc.devRef .tc main_v240))) := by
  rfl

set_option maxRecDepth 16384 in
set_option maxHeartbeats 8000000 in
/-- The first edge type's messages summed at their target rows. -/
theorem J201 (V : Valuation τ sig (Elt F)) :
    after opsL2 V (Proc.devRef .tc main_v201)
      = Host.scatterAdd scatter_S100000x128_S500000x1_S500000x128_1_0_0_1
          (broadcastInDim S100000x128 ![] bcast_S_S100000x128 (constant S_ .f32 0x00000000#32))
          (broadcastInDim S500000x1 ![0] bcast_S500000_S500000x1_0
            (select (cmpi .slt (V (Proc.devRef .tc main_arg8) : (⟨S500000, .i32⟩ : BufTy).Contents (Elt F)) (broadcastInDim S500000 ![] bcast_S_S500000 (constantI S_ 32 0#32)))
              (addi (V (Proc.devRef .tc main_arg8) : (⟨S500000, .i32⟩ : BufTy).Contents (Elt F)) (broadcastInDim S500000 ![] bcast_S_S500000 (constantI S_ 32 100000#32))) (V (Proc.devRef .tc main_arg8) : (⟨S500000, .i32⟩ : BufTy).Contents (Elt F))))
          (after opsL2 V (Proc.devRef .tc main_v193)) := by
  rfl

set_option maxRecDepth 16384 in
set_option maxHeartbeats 8000000 in
/-- The second edge type's messages summed at their target rows. -/
theorem J250 (V : Valuation τ sig (Elt F)) :
    after opsL2 V (Proc.devRef .tc main_v250)
      = Host.scatterAdd scatter_S100000x128_S500000x1_S500000x128_1_0_0_1
          (broadcastInDim S100000x128 ![] bcast_S_S100000x128 (constant S_ .f32 0x00000000#32))
          (broadcastInDim S500000x1 ![0] bcast_S500000_S500000x1_0
            (select (cmpi .slt (V (Proc.devRef .tc main_arg9) : (⟨S500000, .i32⟩ : BufTy).Contents (Elt F)) (broadcastInDim S500000 ![] bcast_S_S500000 (constantI S_ 32 0#32)))
              (addi (V (Proc.devRef .tc main_arg9) : (⟨S500000, .i32⟩ : BufTy).Contents (Elt F)) (broadcastInDim S500000 ![] bcast_S_S500000 (constantI S_ 32 100000#32))) (V (Proc.devRef .tc main_arg9) : (⟨S500000, .i32⟩ : BufTy).Contents (Elt F))))
          (after opsL2 V (Proc.devRef .tc main_v242)) := by
  rfl

set_option maxRecDepth 16384 in
set_option maxHeartbeats 8000000 in
/-- The second layer's pre-normalisation output: the two sums and the self-loop term over the first layer's output, averaged, plus the bias. -/
theorem J266 (V : Valuation τ sig (Elt F)) :
    after opsL2 V (Proc.devRef .tc main_v266)
      = addf (mulf (addf (addf (after opsL2 V (Proc.devRef .tc main_v201)) (after opsL2 V (Proc.devRef .tc main_v250)))
            (Host.dotGeneral dot_S100000x128_S128x128_S100000x128_1_0_0_1_n_n none
              (mulf (V (Proc.devRef .tc main_v138) : (⟨S100000x128, .f32⟩ : BufTy).Contents (Elt F)) (broadcastInDim S100000x128 ![0, 1] bcast_S1x128_S100000x128_0_1 (after opsL2 V (Proc.devRef .tc main_v252)))) (after opsL2 V (Proc.devRef .tc main_v256))))
          (broadcastInDim S100000x128 ![] bcast_S_S100000x128 (constant S_ .f32 0x3EAAAAAB#32)))
          (broadcastInDim S100000x128 ![0, 1] bcast_S1x128_S100000x128_0_1 (after opsL2 V (Proc.devRef .tc main_v264))) := by
  rfl

set_option maxRecDepth 16384 in
set_option maxHeartbeats 8000000 in
/-- Its column means. -/
theorem J269 (V : Valuation τ sig (Elt F)) :
    after opsL2 V (Proc.devRef .tc main_v269)
      = Host.divf (Host.reduceAdd (after opsL2 V (Proc.devRef .tc main_v266)) (constant S_ .f32 0x00000000#32) reducesTo_S100000x128_S128_d0 h_S_)
          (broadcastInDim S128 ![] bcast_S_S128 (constant S_ .f32 0x47C35000#32)) := by
  rfl

set_option maxRecDepth 16384 in
set_option maxHeartbeats 8000000 in
/-- Its column variances. -/
theorem J270 (V : Valuation τ sig (Elt F)) :
    after opsL2 V (Proc.devRef .tc main_v270)
      = varRows (after opsL2 V (Proc.devRef .tc main_v266)) := by
  rfl

set_option maxRecDepth 16384 in
set_option maxHeartbeats 8000000 in
/-- The program's first result: normalised by column, through tanh. -/
theorem J280 (V : Valuation τ sig (Elt F)) :
    after opsL2 V (Proc.devRef .tc main_v280)
      = Host.tanh (mulf
          (subf (after opsL2 V (Proc.devRef .tc main_v266)) (broadcastInDim S100000x128 ![0, 1] bcast_S1x128_S100000x128_0_1 (broadcastInDim S1x128 ![1] bcast_S128_S1x128_1 (after opsL2 V (Proc.devRef .tc main_v269)))))
          (broadcastInDim S100000x128 ![0, 1] bcast_S1x128_S100000x128_0_1 (broadcastInDim S1x128 ![1] bcast_S128_S1x128_1
            (Host.rsqrt (addf (after opsL2 V (Proc.devRef .tc main_v270)) (broadcastInDim S128 ![] bcast_S_S128 (constant S_ .f32 0x3727C5AC#32))))))) := by
  rfl

set_option maxRecDepth 16384 in
set_option maxHeartbeats 8000000 in
/-- The program's second result: the relation table through its second weight, the appended row dropped. -/
theorem J284 (V : Valuation τ sig (Elt F)) :
    after opsL2 V (Proc.devRef .tc main_v284)
      = extractStridedSlice S10x128 ![0, 0] (Host.dotGeneral dot_S11x128_S128x128_S11x128_1_0_0_1_n_n none (after opsL2 V (Proc.devRef .tc main_v145)) (after opsL2 V (Proc.devRef .tc main_v282))) slices_S11x128_S10x128_0_0 := by
  rfl

end Cert.ReferenceIdeal.RefRun

end
-- ==== Proof.L2D.lean ====
/- Layer 2, before the edge kernel: each array the kernel program's host lines hand to the second edge kernel is the
   array the reference computes at the matching place of its second half, given equal arguments and the first layer's
   results equal where the second layer reads them. Each side's array is first written as one step of its program's
   own operations over the arrays before it (by computation, for any float values); the two steps then meet after the
   hypotheses are rewritten in. -/
import proofs.«104171_j72722386256375_1_alg».proof.Proof.KGroups
import proofs.«104171_j72722386256375_1_alg».proof.Proof.RefJunction2

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## The kernel program's stretch, step by step -/

section K
open Cert.KernelIdeal Cert.KernelIdeal.Gen
variable {F : FTy → Type} [FloatOps F]

/-- The stretch's fold over the contents it starts from. -/
local notation "kd[" U "]" => after hostOps3_4 (after hostOps3_3 (after hostOps3_2 (after hostOps3_1 (after hostOps3 U))))

/-- The first layer's output passes the stretch unchanged. -/
theorem kd_v96 (U : Valuation τ sig (Elt F)) :
    kd[U] (Proc.devRef .tc main_v96)
      = U (Proc.devRef .tc main_v96) := by
  rfl

/-- The relation table of the second layer: the updated table with the self-loop row appended. -/
theorem kd_v103 (U : Valuation τ sig (Elt F)) :
    kd[U] (Proc.devRef .tc main_v103)
      = concatenate S11x128 0 [⟨S10x128, (kd[U] (Proc.devRef .tc main_v100))⟩, ⟨S1x128, shapeCast S1x128 (kd[U] (Proc.devRef .tc main_v101)) shapeCasts_S1x1x128_S1x128⟩] concatenates_S10x128_S1x128_S11x128_d0 := by
  rfl

/-- The node rows gathered at the destinations. -/
theorem kd_v117 (U : Valuation τ sig (Elt F)) :
    kd[U] (Proc.devRef .tc main_v117)
      = Host.gather gather_S100000x128_S500000x1_S500000x128_1_0_n_n_0_1_1128 (U (Proc.devRef .tc main_v96)) (broadcastInDim S500000x1 ![0] bcast_S500000_S500000x1_0 (select (cmpi .slt (U (Proc.devRef .tc main_arg9) : IVec S500000 32) (broadcastInDim S500000 ![] bcast_S_S500000 (constantI S_ 32 0#32))) (addi (U (Proc.devRef .tc main_arg9) : IVec S500000 32) (broadcastInDim S500000 ![] bcast_S_S500000 (constantI S_ 32 100000#32))) (U (Proc.devRef .tc main_arg9) : IVec S500000 32))) := by
  rfl

/-- The node rows gathered at the sources. -/
theorem kd_v124 (U : Valuation τ sig (Elt F)) :
    kd[U] (Proc.devRef .tc main_v124)
      = Host.gather gather_S100000x128_S500000x1_S500000x128_1_0_n_n_0_1_1128 (U (Proc.devRef .tc main_v96)) (broadcastInDim S500000x1 ![0] bcast_S500000_S500000x1_0 (select (cmpi .slt (U (Proc.devRef .tc main_arg8) : IVec S500000 32) (broadcastInDim S500000 ![] bcast_S_S500000 (constantI S_ 32 0#32))) (addi (U (Proc.devRef .tc main_arg8) : IVec S500000 32) (broadcastInDim S500000 ![] bcast_S_S500000 (constantI S_ 32 100000#32))) (U (Proc.devRef .tc main_arg8) : IVec S500000 32))) := by
  rfl

/-- The second layer's incoming weight matrix. -/
theorem kd_v174 (U : Valuation τ sig (Elt F)) :
    kd[U] (Proc.devRef .tc main_v174)
      = shapeCast S128x128 (extractStridedSlice S1x128x128 ![1, 0, 0] (U (Proc.devRef .tc main_arg2)) slices_S2x128x128_S1x128x128_1_0_0) shapeCasts_S1x128x128_S128x128 := by
  rfl

/-- The second layer's outgoing weight matrix. -/
theorem kd_v176 (U : Valuation τ sig (Elt F)) :
    kd[U] (Proc.devRef .tc main_v176)
      = shapeCast S128x128 (extractStridedSlice S1x128x128 ![1, 0, 0] (U (Proc.devRef .tc main_arg3)) slices_S2x128x128_S1x128x128_1_0_0) shapeCasts_S1x128x128_S128x128 := by
  rfl

end K

/-! ## The reference's second half, step by step -/

section R
open Cert.ReferenceIdeal Cert.ReferenceIdeal.Gen Cert.ReferenceIdeal.RefRun
variable {F : FTy → Type} [FloatOps F]

/-- The first layer's rows gathered at the destinations. -/
theorem r2_v161 (V : Valuation τ sig (Elt F)) :
    after opsL2 V (Proc.devRef .tc main_v161)
      = Host.gather gather_S100000x128_S500000x1_S500000x128_1_0_n_n_0_1_1128 (V (Proc.devRef .tc main_v138)) (broadcastInDim S500000x1 ![0] bcast_S500000_S500000x1_0 (select (cmpi .slt (V (Proc.devRef .tc main_arg9) : IVec S500000 32) (broadcastInDim S500000 ![] bcast_S_S500000 (constantI S_ 32 0#32))) (addi (V (Proc.devRef .tc main_arg9) : IVec S500000 32) (broadcastInDim S500000 ![] bcast_S_S500000 (constantI S_ 32 100000#32))) (V (Proc.devRef .tc main_arg9) : IVec S500000 32))) := by
  rfl

/-- The first layer's rows gathered at the sources. -/
theorem r2_v210 (V : Valuation τ sig (Elt F)) :
    after opsL2 V (Proc.devRef .tc main_v210)
      = Host.gather gather_S100000x128_S500000x1_S500000x128_1_0_n_n_0_1_1128 (V (Proc.devRef .tc main_v138)) (broadcastInDim S500000x1 ![0] bcast_S500000_S500000x1_0 (select (cmpi .slt (V (Proc.devRef .tc main_arg8) : IVec S500000 32) (broadcastInDim S500000 ![] bcast_S_S500000 (constantI S_ 32 0#32))) (addi (V (Proc.devRef .tc main_arg8) : IVec S500000 32) (broadcastInDim S500000 ![] bcast_S_S500000 (constantI S_ 32 100000#32))) (V (Proc.devRef .tc main_arg8) : IVec S500000 32))) := by
  rfl

/-- The second layer's incoming weight matrix. -/
theorem r2_v154 (V : Valuation τ sig (Elt F)) :
    after opsL2 V (Proc.devRef .tc main_v154)
      = shapeCast S128x128 (extractStridedSlice S1x128x128 ![1, 0, 0] (V (Proc.devRef .tc main_arg2)) slices_S2x128x128_S1x128x128_1_0_0) shapeCasts_S1x128x128_S128x128 := by
  rfl

/-- The second layer's outgoing weight matrix. -/
theorem r2_v203 (V : Valuation τ sig (Elt F)) :
    after opsL2 V (Proc.devRef .tc main_v203)
      = shapeCast S128x128 (extractStridedSlice S1x128x128 ![1, 0, 0] (V (Proc.devRef .tc main_arg3)) slices_S2x128x128_S1x128x128_1_0_0) shapeCasts_S1x128x128_S128x128 := by
  rfl

end R

/-! ## The two sides meet -/

/-- The first layer's output passes the stretch unchanged. -/
theorem KD_x1 (U : KV) :
    KD U (Proc.devRef .tc Cert.KernelIdeal.main_v96) = U (Proc.devRef .tc Cert.KernelIdeal.main_v96) :=
  kd_v96 U

/-- Layer 2: the relation table with the second self-loop row appended. -/
theorem D_rel (U : KV) (V : RV) (hag : Agree U V) (hnn : NonNegR V)
    (hx : V (Proc.devRef .tc Cert.ReferenceIdeal.main_v138) = U (Proc.devRef .tc Cert.KernelIdeal.main_v96))
    (h142 : V (Proc.devRef .tc Cert.ReferenceIdeal.main_v142) = KD U (Proc.devRef .tc Cert.KernelIdeal.main_v100))
    (h143 : V (Proc.devRef .tc Cert.ReferenceIdeal.main_v143) = KD U (Proc.devRef .tc Cert.KernelIdeal.main_v101)) :
    KD U (Proc.devRef .tc Cert.KernelIdeal.main_v103) = R2 V (Proc.devRef .tc Cert.ReferenceIdeal.main_v145) := by
  simp only [KD, R2]
  rw [kd_v103 U, Cert.ReferenceIdeal.RefRun.J145 V, h142, h143]
  all_goals rfl

/-- Layer 2: the first layer's rows gathered at the destinations. -/
theorem D_xdst (U : KV) (V : RV) (hag : Agree U V) (hnn : NonNegR V)
    (hx : V (Proc.devRef .tc Cert.ReferenceIdeal.main_v138) = U (Proc.devRef .tc Cert.KernelIdeal.main_v96))
    (h142 : V (Proc.devRef .tc Cert.ReferenceIdeal.main_v142) = KD U (Proc.devRef .tc Cert.KernelIdeal.main_v100))
    (h143 : V (Proc.devRef .tc Cert.ReferenceIdeal.main_v143) = KD U (Proc.devRef .tc Cert.KernelIdeal.main_v101)) :
    KD U (Proc.devRef .tc Cert.KernelIdeal.main_v117) = R2 V (Proc.devRef .tc Cert.ReferenceIdeal.main_v161) := by
  simp only [KD, R2]
  rw [kd_v117 U, r2_v161 V, hx, hag.a9]
  all_goals rfl

/-- Layer 2: the first layer's rows gathered at the sources. -/
theorem D_xsrc (U : KV) (V : RV) (hag : Agree U V) (hnn : NonNegR V)
    (hx : V (Proc.devRef .tc Cert.ReferenceIdeal.main_v138) = U (Proc.devRef .tc Cert.KernelIdeal.main_v96))
    (h142 : V (Proc.devRef .tc Cert.ReferenceIdeal.main_v142) = KD U (Proc.devRef .tc Cert.KernelIdeal.main_v100))
    (h143 : V (Proc.devRef .tc Cert.ReferenceIdeal.main_v143) = KD U (Proc.devRef .tc Cert.KernelIdeal.main_v101)) :
    KD U (Proc.devRef .tc Cert.KernelIdeal.main_v124) = R2 V (Proc.devRef .tc Cert.ReferenceIdeal.main_v210) := by
  simp only [KD, R2]
  rw [kd_v124 U, r2_v210 V, hx, hag.a8]
  all_goals rfl

/-- Layer 2: the incoming weight matrix. -/
theorem D_win (U : KV) (V : RV) (hag : Agree U V) (hnn : NonNegR V)
    (hx : V (Proc.devRef .tc Cert.ReferenceIdeal.main_v138) = U (Proc.devRef .tc Cert.KernelIdeal.main_v96))
    (h142 : V (Proc.devRef .tc Cert.ReferenceIdeal.main_v142) = KD U (Proc.devRef .tc Cert.KernelIdeal.main_v100))
    (h143 : V (Proc.devRef .tc Cert.ReferenceIdeal.main_v143) = KD U (Proc.devRef .tc Cert.KernelIdeal.main_v101)) :
    KD U (Proc.devRef .tc Cert.KernelIdeal.main_v174) = R2 V (Proc.devRef .tc Cert.ReferenceIdeal.main_v154) := by
  simp only [KD, R2]
  rw [kd_v174 U, r2_v154 V, hag.a2]
  all_goals rfl

/-- Layer 2: the outgoing weight matrix. -/
theorem D_wout (U : KV) (V : RV) (hag : Agree U V) (hnn : NonNegR V)
    (hx : V (Proc.devRef .tc Cert.ReferenceIdeal.main_v138) = U (Proc.devRef .tc Cert.KernelIdeal.main_v96))
    (h142 : V (Proc.devRef .tc Cert.ReferenceIdeal.main_v142) = KD U (Proc.devRef .tc Cert.KernelIdeal.main_v100))
    (h143 : V (Proc.devRef .tc Cert.ReferenceIdeal.main_v143) = KD U (Proc.devRef .tc Cert.KernelIdeal.main_v101)) :
    KD U (Proc.devRef .tc Cert.KernelIdeal.main_v176) = R2 V (Proc.devRef .tc Cert.ReferenceIdeal.main_v203) := by
  simp only [KD, R2]
  rw [kd_v176 U, r2_v203 V, hag.a3]
  all_goals rfl

end Cert.Proof.Bridge

end
-- ==== Proof.L2Dn.lean ====
import proofs.«104171_j72722386256375_1_alg».proof.Proof.KGroups
import proofs.«104171_j72722386256375_1_alg».proof.Proof.RefJunction2

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## Layer 2, before the edge kernel: the per-edge degree normalisations.  The kernel program counts degrees by scattering
its own vector of ones at the raw endpoint words, the reference scatters the vector of ones its first half left at the words
after jnp's negative-index wrap: the same arrays when that vector is the splat of one and no endpoint word is negative. -/

/-- Layer 2: the per-edge degree normalisation of the source direction. -/
theorem D_nin (U : KV) (V : RV) (hag : Agree U V) (hnn : NonNegR V)
    (hx : V (Proc.devRef .tc Cert.ReferenceIdeal.main_v138) = U (Proc.devRef .tc Cert.KernelIdeal.main_v96))
    (h142 : V (Proc.devRef .tc Cert.ReferenceIdeal.main_v142) = KD U (Proc.devRef .tc Cert.KernelIdeal.main_v100))
    (h143 : V (Proc.devRef .tc Cert.ReferenceIdeal.main_v143) = KD U (Proc.devRef .tc Cert.KernelIdeal.main_v101))
    (h0 : V (Proc.devRef .tc Cert.ReferenceIdeal.main_v0)
      = broadcastInDim Cert.ReferenceIdeal.S500000 ![] Cert.ReferenceIdeal.Gen.bcast_S_S500000
          (constant (F := Ideal) Cert.ReferenceIdeal.S_ .f32 0x3F800000#32)) :
    KD U (Proc.devRef .tc Cert.KernelIdeal.main_v156) = R2 V (Proc.devRef .tc Cert.ReferenceIdeal.main_v191) := by
  simp only [R2, KD, Cert.ReferenceIdeal.RefRun.opsL2, Basics.after_append]
  after_results_simp
  results_rw
  repeat rw [h0]
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  all_goals rfl

/-- Layer 2: the per-edge degree normalisation of the destination direction. -/
theorem D_nout (U : KV) (V : RV) (hag : Agree U V) (hnn : NonNegR V)
    (hx : V (Proc.devRef .tc Cert.ReferenceIdeal.main_v138) = U (Proc.devRef .tc Cert.KernelIdeal.main_v96))
    (h142 : V (Proc.devRef .tc Cert.ReferenceIdeal.main_v142) = KD U (Proc.devRef .tc Cert.KernelIdeal.main_v100))
    (h143 : V (Proc.devRef .tc Cert.ReferenceIdeal.main_v143) = KD U (Proc.devRef .tc Cert.KernelIdeal.main_v101))
    (h0 : V (Proc.devRef .tc Cert.ReferenceIdeal.main_v0)
      = broadcastInDim Cert.ReferenceIdeal.S500000 ![] Cert.ReferenceIdeal.Gen.bcast_S_S500000
          (constant (F := Ideal) Cert.ReferenceIdeal.S_ .f32 0x3F800000#32)) :
    KD U (Proc.devRef .tc Cert.KernelIdeal.main_v172) = R2 V (Proc.devRef .tc Cert.ReferenceIdeal.main_v240) := by
  simp only [R2, KD, Cert.ReferenceIdeal.RefRun.opsL2, Basics.after_append]
  after_results_simp
  results_rw
  repeat rw [h0]
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  all_goals rfl

end Cert.Proof.Bridge

end
-- ==== Proof.L2Dr.lean ====
/- Layer 2, before the edge kernel: the per-edge relation rows.  Each side gathers rows of its relation table at the
   edge-type words (wrapped the same way on both sides); the tables are equal, and so are the words. Each side's gather
   is first read off its program's own operations, both sides of each equation unfolded by the same reading. -/
import proofs.«104171_j72722386256375_1_alg».proof.Proof.L2D

set_option maxRecDepth 65536
set_option maxHeartbeats 4000000

noncomputable section

namespace Cert.Proof.Bridge

open Idealize.ShloMosaic Idealize.ShloMosaic.TcCoe Idealize.SL.Sem Idealize.ShloMosaic.StableHlo Cert.Proof

section K
open Cert.KernelIdeal Cert.KernelIdeal.Gen
variable {F : FTy → Type} [FloatOps F]

/-- The stretch's fold over the contents it starts from. -/
local notation "kd[" U "]" => after hostOps3_4 (after hostOps3_3 (after hostOps3_2 (after hostOps3_1 (after hostOps3 U))))

/-- The per-edge relation rows of the kernel program: its table's rows gathered at the wrapped edge-type words. -/
theorem kd_v110 (U : Valuation τ sig (Elt F)) :
    kd[U] (Proc.devRef .tc main_v110)
      = Host.gather gather_S11x128_S500000x1_S500000x128_1_0_n_n_0_1_1128 (kd[U] (Proc.devRef .tc main_v103)) (broadcastInDim S500000x1 ![0] bcast_S500000_S500000x1_0 (select (cmpi .slt (U (Proc.devRef .tc main_arg10) : IVec S500000 32) (broadcastInDim S500000 ![] bcast_S_S500000 (constantI S_ 32 0#32))) (addi (U (Proc.devRef .tc main_arg10) : IVec S500000 32) (broadcastInDim S500000 ![] bcast_S_S500000 (constantI S_ 32 11#32))) (U (Proc.devRef .tc main_arg10) : IVec S500000 32))) := by
  after_results_simp
  results_rw
  all_goals rfl

end K

section R
open Cert.ReferenceIdeal Cert.ReferenceIdeal.Gen Cert.ReferenceIdeal.RefRun
variable {F : FTy → Type} [FloatOps F]

/-- The per-edge relation rows of the reference: its table's rows gathered at the wrapped edge-type words. -/
theorem r2_v152 (V : Valuation τ sig (Elt F)) :
    after opsL2 V (Proc.devRef .tc main_v152)
      = Host.gather gather_S11x128_S500000x1_S500000x128_1_0_n_n_0_1_1128 (after opsL2 V (Proc.devRef .tc main_v145)) (broadcastInDim S500000x1 ![0] bcast_S500000_S500000x1_0 (select (cmpi .slt (V (Proc.devRef .tc main_arg10) : IVec S500000 32) (broadcastInDim S500000 ![] bcast_S_S500000 (constantI S_ 32 0#32))) (addi (V (Proc.devRef .tc main_arg10) : IVec S500000 32) (broadcastInDim S500000 ![] bcast_S_S500000 (constantI S_ 32 11#32))) (V (Proc.devRef .tc main_arg10) : IVec S500000 32))) := by
  simp only [Cert.ReferenceIdeal.RefRun.opsL2, Basics.after_append]
  after_results_simp
  results_rw
  all_goals rfl

end R

/-- Layer 2: the per-edge relation rows. -/
theorem D_relE (U : KV) (V : RV) (hag : Agree U V) (hnn : NonNegR V)
    (hx : V (Proc.devRef .tc Cert.ReferenceIdeal.main_v138) = U (Proc.devRef .tc Cert.KernelIdeal.main_v96))
    (h142 : V (Proc.devRef .tc Cert.ReferenceIdeal.main_v142) = KD U (Proc.devRef .tc Cert.KernelIdeal.main_v100))
    (h143 : V (Proc.devRef .tc Cert.ReferenceIdeal.main_v143) = KD U (Proc.devRef .tc Cert.KernelIdeal.main_v101)) :
    KD U (Proc.devRef .tc Cert.KernelIdeal.main_v110) = R2 V (Proc.devRef .tc Cert.ReferenceIdeal.main_v152) := by
  have h := D_rel U V hag hnn hx h142 h143
  simp only [KD, R2] at h
  simp only [KD, R2]
  rw [kd_v110 U, r2_v152 V, h, hag.a10]
  all_goals rfl

end Cert.Proof.Bridge

end
-- ==== Proof.L2E.lean ====
import proofs.«104171_j72722386256375_1_alg».proof.Proof.KGroups
import proofs.«104171_j72722386256375_1_alg».proof.Proof.RefJunction2

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## Layer 2, between the edge kernel and the combine kernel: the two scatter-adds of the second layer's edge messages
and the rows the combine kernel reads (second bias, second self-loop relation row, second self-loop weights). -/

/-- Layer 2: the messages of the source direction, summed at their source rows. -/
theorem E_in (U : KV) (V : RV) (hag : Agree U V) (hnn : NonNegR V)
    (hm : U (Proc.devRef .tc Cert.KernelIdeal.main_v177_0) = R2 V (Proc.devRef .tc Cert.ReferenceIdeal.main_v193)) :
    KE U (Proc.devRef .tc Cert.KernelIdeal.main_v180) = R2 V (Proc.devRef .tc Cert.ReferenceIdeal.main_v201) := by
  simp only [R2] at hm ⊢
  rw [Cert.ReferenceIdeal.RefRun.J201 V, ← hm]
  simp only [KE]
  after_results_simp
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  all_goals rfl

/-- Layer 2: the messages of the destination direction, summed at their destination rows. -/
theorem E_out (U : KV) (V : RV) (hag : Agree U V) (hnn : NonNegR V)
    (hm : U (Proc.devRef .tc Cert.KernelIdeal.main_v177_1) = R2 V (Proc.devRef .tc Cert.ReferenceIdeal.main_v242)) :
    KE U (Proc.devRef .tc Cert.KernelIdeal.main_v183) = R2 V (Proc.devRef .tc Cert.ReferenceIdeal.main_v250) := by
  simp only [R2] at hm ⊢
  rw [Cert.ReferenceIdeal.RefRun.J250 V, ← hm]
  simp only [KE]
  after_results_simp
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  all_goals rfl

/-- Layer 2: the bias row. -/
theorem E_bias (U : KV) (V : RV) (hag : Agree U V) (hnn : NonNegR V) :
    KE U (Proc.devRef .tc Cert.KernelIdeal.main_v186) = R2 V (Proc.devRef .tc Cert.ReferenceIdeal.main_v264) := by
  simp only [R2, KE, Cert.ReferenceIdeal.RefRun.opsL2, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  all_goals rfl

/-- Layer 2: the self-loop relation row. -/
theorem E_lr (U : KV) (V : RV) (hag : Agree U V) (hnn : NonNegR V) :
    KE U (Proc.devRef .tc Cert.KernelIdeal.main_v188) = R2 V (Proc.devRef .tc Cert.ReferenceIdeal.main_v252) := by
  simp only [R2, KE, Cert.ReferenceIdeal.RefRun.opsL2, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  all_goals rfl

/-- Layer 2: the self-loop weight matrix. -/
theorem E_wl (U : KV) (V : RV) (hag : Agree U V) (hnn : NonNegR V) :
    KE U (Proc.devRef .tc Cert.KernelIdeal.main_v190) = R2 V (Proc.devRef .tc Cert.ReferenceIdeal.main_v256) := by
  simp only [R2, KE, Cert.ReferenceIdeal.RefRun.opsL2, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  repeat rw [wrap_bcast (s := Cert.KernelIdeal.S500000) _ _ _ _ hnn.src]
  repeat rw [wrap_bcast (s := Cert.ReferenceIdeal.S500000) _ _ _ _ hnn.src]
  repeat rw [wrap_bcast (s := Cert.KernelIdeal.S500000) _ _ _ _ hnn.dst]
  repeat rw [wrap_bcast (s := Cert.ReferenceIdeal.S500000) _ _ _ _ hnn.dst]
  all_goals rfl

/-- Layer 2: the first layer's output passes these host lines unchanged. -/
theorem KE_x1 (U : KV) : KE U (Proc.devRef .tc Cert.KernelIdeal.main_v96) = U (Proc.devRef .tc Cert.KernelIdeal.main_v96) := by
  simp only [KE]; after_results_simp

/-- Layer 2: the second layer's relation table passes these host lines unchanged. -/
theorem KE_rel2 (U : KV) : KE U (Proc.devRef .tc Cert.KernelIdeal.main_v103) = U (Proc.devRef .tc Cert.KernelIdeal.main_v103) := by
  simp only [KE]; after_results_simp

end Cert.Proof.Bridge

end
-- ==== Proof.L2F.lean ====
import proofs.«104171_j72722386256375_1_alg».proof.Proof.KGroups
import proofs.«104171_j72722386256375_1_alg».proof.Proof.RefJunction2

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## Layer 2, between the combine kernel and the normalize kernel: the column means and variances.  The kernel program keeps
them as [1,128] rows, the reference as length-128 vectors that it then places as a row: the row is the vector placed as a
row, entry by entry (the divisor, the guard and the fill are splats of scalars, the same in both shapes). -/

/-- Layer 2: the pre-normalisation array passes the host lines unchanged. -/
theorem F_pre (U : KV) : KF U (Proc.devRef .tc Cert.KernelIdeal.main_v191) = U (Proc.devRef .tc Cert.KernelIdeal.main_v191) := by
  simp only [KF]; after_results_simp

/-- Layer 2: the kept-dimension mean row is the reference's mean vector placed as a row. -/
theorem F_mean (U : KV) (V : RV)
    (hv : U (Proc.devRef .tc Cert.KernelIdeal.main_v191) = R2 V (Proc.devRef .tc Cert.ReferenceIdeal.main_v266)) :
    KF U (Proc.devRef .tc Cert.KernelIdeal.main_v195)
      = broadcastInDim Cert.ReferenceIdeal.S1x128 ![1] Cert.ReferenceIdeal.Gen.bcast_S128_S1x128_1 (R2 V (Proc.devRef .tc Cert.ReferenceIdeal.main_v269)) := by
  simp only [R2] at hv ⊢
  rw [Cert.ReferenceIdeal.RefRun.J269 V, ← hv]
  simp only [KF]
  after_results_simp
  funext j
  rfl

/-- Layer 2: the kept-dimension variance row is the reference's variance vector placed as a row. -/
theorem F_var (U : KV) (V : RV)
    (hv : U (Proc.devRef .tc Cert.KernelIdeal.main_v191) = R2 V (Proc.devRef .tc Cert.ReferenceIdeal.main_v266)) :
    KF U (Proc.devRef .tc Cert.KernelIdeal.main_v196)
      = broadcastInDim Cert.ReferenceIdeal.S1x128 ![1] Cert.ReferenceIdeal.Gen.bcast_S128_S1x128_1 (R2 V (Proc.devRef .tc Cert.ReferenceIdeal.main_v270)) := by
  simp only [R2] at hv ⊢
  rw [Cert.ReferenceIdeal.RefRun.J270 V, ← hv]
  simp only [KF]
  after_results_simp
  funext j
  rfl

/-- Layer 2: the second layer's relation table passes these host lines unchanged. -/
theorem KF_rel2 (U : KV) : KF U (Proc.devRef .tc Cert.KernelIdeal.main_v103) = U (Proc.devRef .tc Cert.KernelIdeal.main_v103) := by
  simp only [KF]; after_results_simp

end Cert.Proof.Bridge

end
-- ==== Proof.L2G.lean ====
import proofs.«104171_j72722386256375_1_alg».proof.Proof.KGroups
import proofs.«104171_j72722386256375_1_alg».proof.Proof.RefJunction2

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## Layer 2, after the normalize kernel: the program's second result, the relation table through its second weight with
the appended row dropped. -/

/-- Layer 2: the second result. -/
theorem G_r (U : KV) (V : RV) (hag : Agree U V) (hnn : NonNegR V)
    (h103 : U (Proc.devRef .tc Cert.KernelIdeal.main_v103) = R2 V (Proc.devRef .tc Cert.ReferenceIdeal.main_v145)) :
    KG U (Proc.devRef .tc Cert.KernelIdeal.main_v201) = R2 V (Proc.devRef .tc Cert.ReferenceIdeal.main_v284) := by
  simp only [R2] at h103 ⊢
  rw [Cert.ReferenceIdeal.RefRun.J284 V, ← h103]
  simp only [KG, Cert.ReferenceIdeal.RefRun.opsL2, Basics.after_append]
  after_results_simp
  results_rw
  try rw [← hag.a0]
  try rw [← hag.a1]
  try rw [← hag.a2]
  try rw [← hag.a3]
  try rw [← hag.a4]
  try rw [← hag.a5]
  try rw [← hag.a6]
  try rw [← hag.a7]
  try rw [← hag.a8]
  try rw [← hag.a9]
  try rw [← hag.a10]
  all_goals rfl

/-- Layer 2: the program's first result passes these host lines unchanged. -/
theorem KG_x2 (U : KV) : KG U (Proc.devRef .tc Cert.KernelIdeal.main_v197) = U (Proc.devRef .tc Cert.KernelIdeal.main_v197) := by
  simp only [KG]; after_results_simp

end Cert.Proof.Bridge

end
-- ==== Proof.RefJunction0.lean ====
/- The ones vector of the idealized reference program: written by the first half's second operation, kept through the
   rest of the half, and read again by the second half's two degree counts. -/
import proofs.«104171_j72722386256375_1_alg».proof.Proof.RefFrame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
/-- After the first half, main_v0 is the splat of 1.0 over the edges. -/
theorem J0 (V : Valuation τ sig (Elt F)) :
    after opsL1 V (Proc.devRef .tc main_v0)
      = broadcastInDim S500000 ![] bcast_S_S500000 (constant S_ .f32 0x3F800000#32) := by
  rfl

end Cert.ReferenceIdeal.RefRun

end
-- ==== Proof.L2Asm.lean ====
import proofs.«104171_j72722386256375_1_alg».proof.Proof.L1Asm
import proofs.«104171_j72722386256375_1_alg».proof.Proof.L2X
import proofs.«104171_j72722386256375_1_alg».proof.Proof.L2D
import proofs.«104171_j72722386256375_1_alg».proof.Proof.L2Dn
import proofs.«104171_j72722386256375_1_alg».proof.Proof.L2Dr
import proofs.«104171_j72722386256375_1_alg».proof.Proof.L2E
import proofs.«104171_j72722386256375_1_alg».proof.Proof.L2F
import proofs.«104171_j72722386256375_1_alg».proof.Proof.L2G
import proofs.«104171_j72722386256375_1_alg».proof.Proof.RefJunction0
import proofs.«104171_j72722386256375_1_alg».proof.Proof.RefRun

set_option maxRecDepth 65536
set_option maxHeartbeats 4000000

noncomputable section

namespace Cert.Proof.Bridge

open Idealize.ShloMosaic Idealize.ShloMosaic.TcCoe Idealize.SL.Sem Idealize.ShloMosaic.StableHlo Cert.Proof

/-! ## Layer 2 assembled, and the two results.  The reference's second layer starts from the contents its first layer leaves;
the kernel program's second layer starts from the contents at its third region's exit.  These agree on the arguments, on the
first layer's node array and on the first layer's relation update, so the same three steps as in layer 1 go through. -/

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD) (V : RV)

/-- After the reference's first layer the arguments are as before, so the agreement holds at the start of layer 2. -/
theorem agree11' (hag : Agree (Cert.KernelIdeal.Gen.W0 (F := Ideal) m ρ c) V) : Agree (Cert.KernelIdeal.Gen.W11 (F := Ideal) m ρ c) (R1 V) :=
  have h := agree11 m ρ c V hag
  ⟨(Cert.ReferenceIdeal.RefRun.opsL1_arg0 V).trans h.a0,
   (Cert.ReferenceIdeal.RefRun.opsL1_arg1 V).trans h.a1,
   (Cert.ReferenceIdeal.RefRun.opsL1_arg2 V).trans h.a2,
   (Cert.ReferenceIdeal.RefRun.opsL1_arg3 V).trans h.a3,
   (Cert.ReferenceIdeal.RefRun.opsL1_arg4 V).trans h.a4,
   (Cert.ReferenceIdeal.RefRun.opsL1_arg5 V).trans h.a5,
   (Cert.ReferenceIdeal.RefRun.opsL1_arg6 V).trans h.a6,
   (Cert.ReferenceIdeal.RefRun.opsL1_arg7 V).trans h.a7,
   (Cert.ReferenceIdeal.RefRun.opsL1_arg8 V).trans h.a8,
   (Cert.ReferenceIdeal.RefRun.opsL1_arg9 V).trans h.a9,
   (Cert.ReferenceIdeal.RefRun.opsL1_arg10 V).trans h.a10⟩

/-- No endpoint word is negative after the reference's first layer either: it leaves the arguments alone. -/
theorem nonneg2 (hnn : NonNegR V) : NonNegR (R1 V) :=
  ⟨fun i => by
      show (0 : Int) ≤ ((after Cert.ReferenceIdeal.RefRun.opsL1 V (Proc.devRef .tc Cert.ReferenceIdeal.main_arg8) : IVec Cert.ReferenceIdeal.S500000 32) i).toInt
      rw [Cert.ReferenceIdeal.RefRun.opsL1_arg8 V]; exact hnn.src i,
   fun i => by
      show (0 : Int) ≤ ((after Cert.ReferenceIdeal.RefRun.opsL1 V (Proc.devRef .tc Cert.ReferenceIdeal.main_arg9) : IVec Cert.ReferenceIdeal.S500000 32) i).toInt
      rw [Cert.ReferenceIdeal.RefRun.opsL1_arg9 V]; exact hnn.dst i⟩

/-- The first layer's node array, where the reference's second layer reads it. -/
theorem hx2 (hag : Agree (Cert.KernelIdeal.Gen.W0 (F := Ideal) m ρ c) V) (hnn : NonNegR V) :
    R1 V (Proc.devRef .tc Cert.ReferenceIdeal.main_v138) = Cert.KernelIdeal.Gen.W11 (F := Ideal) m ρ c (Proc.devRef .tc Cert.KernelIdeal.main_v96) := (s2 m ρ c V hag hnn).symm

/-- The first layer's relation update, where the reference's second layer reads it. -/
theorem h142 (hag : Agree (Cert.KernelIdeal.Gen.W0 (F := Ideal) m ρ c) V) (hnn : NonNegR V) :
    R1 V (Proc.devRef .tc Cert.ReferenceIdeal.main_v142) = KD (Cert.KernelIdeal.Gen.W11 (F := Ideal) m ρ c) (Proc.devRef .tc Cert.KernelIdeal.main_v100) :=
  (D_r1 _ V (agree11 m ρ c V hag) hnn (rel11 m ρ c V hag hnn)).symm

/-- The second self-loop relation row's slice, where the reference's second layer reads it. -/
theorem h143 (hag : Agree (Cert.KernelIdeal.Gen.W0 (F := Ideal) m ρ c) V) (hnn : NonNegR V) :
    R1 V (Proc.devRef .tc Cert.ReferenceIdeal.main_v143) = KD (Cert.KernelIdeal.Gen.W11 (F := Ideal) m ρ c) (Proc.devRef .tc Cert.KernelIdeal.main_v101) :=
  (D_s143 _ V (agree11 m ρ c V hag) hnn).symm

/-- Layer 2: the edge kernel's first output. -/
theorem t0_in (hag : Agree (Cert.KernelIdeal.Gen.W0 (F := Ideal) m ρ c) V) (hnn : NonNegR V) :
    Cert.KernelIdeal.Gen.W17 (F := Ideal) m ρ c (Proc.devRef .tc Cert.KernelIdeal.main_v177_0) = R2 (R1 V) (Proc.devRef .tc Cert.ReferenceIdeal.main_v193) := by
  have hag2 := agree11' m ρ c V hag
  have hnn2 := nonneg2 V hnn
  have hx := hx2 m ρ c V hag hnn
  have e142 := h142 m ρ c V hag hnn
  have e143 := h143 m ρ c V hag hnn
  refine (Cert.KernelIdeal.Gen.W17_arr m ρ c 7).trans ?_
  refine (Cert.KernelIdeal.RegionValue.arr3_7 _ c).trans ?_
  have h1 : Cert.KernelIdeal.Gen.V16 (F := Ideal) m ρ c Cert.KernelIdeal.main_v117 = R2 (R1 V) (Proc.devRef .tc Cert.ReferenceIdeal.main_v161) := D_xdst _ (R1 V) hag2 hnn2 hx e142 e143
  have h2 : Cert.KernelIdeal.Gen.V16 (F := Ideal) m ρ c Cert.KernelIdeal.main_v110 = R2 (R1 V) (Proc.devRef .tc Cert.ReferenceIdeal.main_v152) := D_relE _ (R1 V) hag2 hnn2 hx e142 e143
  have h3 : Cert.KernelIdeal.Gen.V16 (F := Ideal) m ρ c Cert.KernelIdeal.main_v174 = R2 (R1 V) (Proc.devRef .tc Cert.ReferenceIdeal.main_v154) := D_win _ (R1 V) hag2 hnn2 hx e142 e143
  have h4 : Cert.KernelIdeal.Gen.V16 (F := Ideal) m ρ c Cert.KernelIdeal.main_v156 = R2 (R1 V) (Proc.devRef .tc Cert.ReferenceIdeal.main_v191) := D_nin _ (R1 V) hag2 hnn2 hx e142 e143 (Cert.ReferenceIdeal.RefRun.J0 V)
  rw [h1, h2, h3, h4]
  simp only [R2]
  rw [Cert.ReferenceIdeal.RefRun.J193 (R1 V)]
  exact (Cert.ReferenceIdeal.RegionValue.ref_edge _ _ _ _).symm

/-- Layer 2: the edge kernel's second output. -/
theorem t0_out (hag : Agree (Cert.KernelIdeal.Gen.W0 (F := Ideal) m ρ c) V) (hnn : NonNegR V) :
    Cert.KernelIdeal.Gen.W17 (F := Ideal) m ρ c (Proc.devRef .tc Cert.KernelIdeal.main_v177_1) = R2 (R1 V) (Proc.devRef .tc Cert.ReferenceIdeal.main_v242) := by
  have hag2 := agree11' m ρ c V hag
  have hnn2 := nonneg2 V hnn
  have hx := hx2 m ρ c V hag hnn
  have e142 := h142 m ρ c V hag hnn
  have e143 := h143 m ρ c V hag hnn
  refine (Cert.KernelIdeal.Gen.W17_arr m ρ c 8).trans ?_
  refine (Cert.KernelIdeal.RegionValue.arr3_8 _ c).trans ?_
  have h1 : Cert.KernelIdeal.Gen.V16 (F := Ideal) m ρ c Cert.KernelIdeal.main_v124 = R2 (R1 V) (Proc.devRef .tc Cert.ReferenceIdeal.main_v210) := D_xsrc _ (R1 V) hag2 hnn2 hx e142 e143
  have h2 : Cert.KernelIdeal.Gen.V16 (F := Ideal) m ρ c Cert.KernelIdeal.main_v110 = R2 (R1 V) (Proc.devRef .tc Cert.ReferenceIdeal.main_v152) := D_relE _ (R1 V) hag2 hnn2 hx e142 e143
  have h3 : Cert.KernelIdeal.Gen.V16 (F := Ideal) m ρ c Cert.KernelIdeal.main_v176 = R2 (R1 V) (Proc.devRef .tc Cert.ReferenceIdeal.main_v203) := D_wout _ (R1 V) hag2 hnn2 hx e142 e143
  have h4 : Cert.KernelIdeal.Gen.V16 (F := Ideal) m ρ c Cert.KernelIdeal.main_v172 = R2 (R1 V) (Proc.devRef .tc Cert.ReferenceIdeal.main_v240) := D_nout _ (R1 V) hag2 hnn2 hx e142 e143 (Cert.ReferenceIdeal.RefRun.J0 V)
  rw [h1, h2, h3, h4]
  simp only [R2]
  rw [Cert.ReferenceIdeal.RefRun.J242 (R1 V)]
  exact (Cert.ReferenceIdeal.RegionValue.ref_edge _ _ _ _).symm

/-- The agreement on the arguments at the second edge kernel's exit. -/
theorem agree17 (hag : Agree (Cert.KernelIdeal.Gen.W0 (F := Ideal) m ρ c) V) : Agree (Cert.KernelIdeal.Gen.W17 (F := Ideal) m ρ c) (R1 V) :=
  have h : Agree (Cert.KernelIdeal.Gen.W16 (F := Ideal) m ρ c) (R1 V) := agree_KD (agree11' m ρ c V hag)
  ⟨h.a0.trans (Cert.KernelIdeal.Gen.W17_of_ne m ρ c Cert.KernelIdeal.main_arg0 (by decide)).symm,
   h.a1.trans (Cert.KernelIdeal.Gen.W17_of_ne m ρ c Cert.KernelIdeal.main_arg1 (by decide)).symm,
   h.a2.trans (Cert.KernelIdeal.Gen.W17_of_ne m ρ c Cert.KernelIdeal.main_arg2 (by decide)).symm,
   h.a3.trans (Cert.KernelIdeal.Gen.W17_of_ne m ρ c Cert.KernelIdeal.main_arg3 (by decide)).symm,
   h.a4.trans (Cert.KernelIdeal.Gen.W17_of_ne m ρ c Cert.KernelIdeal.main_arg4 (by decide)).symm,
   h.a5.trans (Cert.KernelIdeal.Gen.W17_of_ne m ρ c Cert.KernelIdeal.main_arg5 (by decide)).symm,
   h.a6.trans (Cert.KernelIdeal.Gen.W17_of_ne m ρ c Cert.KernelIdeal.main_arg6 (by decide)).symm,
   h.a7.trans (Cert.KernelIdeal.Gen.W17_of_ne m ρ c Cert.KernelIdeal.main_arg7 (by decide)).symm,
   h.a8.trans (Cert.KernelIdeal.Gen.W17_of_ne m ρ c Cert.KernelIdeal.main_arg8 (by decide)).symm,
   h.a9.trans (Cert.KernelIdeal.Gen.W17_of_ne m ρ c Cert.KernelIdeal.main_arg9 (by decide)).symm,
   h.a10.trans (Cert.KernelIdeal.Gen.W17_of_ne m ρ c Cert.KernelIdeal.main_arg10 (by decide)).symm⟩

/-- Layer 2: the combine kernel's output. -/
theorem t1 (hag : Agree (Cert.KernelIdeal.Gen.W0 (F := Ideal) m ρ c) V) (hnn : NonNegR V) :
    Cert.KernelIdeal.Gen.W19 (F := Ideal) m ρ c (Proc.devRef .tc Cert.KernelIdeal.main_v191) = R2 (R1 V) (Proc.devRef .tc Cert.ReferenceIdeal.main_v266) := by
  have hag17 := agree17 m ρ c V hag
  have hnn2 := nonneg2 V hnn
  refine (Cert.KernelIdeal.Gen.W19_arr m ρ c 6).trans ?_
  refine (Cert.KernelIdeal.RegionValue.arr4_6 _ c).trans ?_
  have h0 : Cert.KernelIdeal.Gen.V18 (F := Ideal) m ρ c Cert.KernelIdeal.main_v96 = R1 V (Proc.devRef .tc Cert.ReferenceIdeal.main_v138) :=
    (KE_x1 _).trans <| (Cert.KernelIdeal.Gen.W17_of_ne m ρ c Cert.KernelIdeal.main_v96 (by decide)).trans <| (KD_x1 _).trans (hx2 m ρ c V hag hnn).symm
  have h1 : Cert.KernelIdeal.Gen.V18 (F := Ideal) m ρ c Cert.KernelIdeal.main_v188 = R2 (R1 V) (Proc.devRef .tc Cert.ReferenceIdeal.main_v252) := E_lr _ (R1 V) hag17 hnn2
  have h2 : Cert.KernelIdeal.Gen.V18 (F := Ideal) m ρ c Cert.KernelIdeal.main_v190 = R2 (R1 V) (Proc.devRef .tc Cert.ReferenceIdeal.main_v256) := E_wl _ (R1 V) hag17 hnn2
  have h3 : Cert.KernelIdeal.Gen.V18 (F := Ideal) m ρ c Cert.KernelIdeal.main_v180 = R2 (R1 V) (Proc.devRef .tc Cert.ReferenceIdeal.main_v201) := E_in _ (R1 V) hag17 hnn2 (t0_in m ρ c V hag hnn)
  have h4 : Cert.KernelIdeal.Gen.V18 (F := Ideal) m ρ c Cert.KernelIdeal.main_v183 = R2 (R1 V) (Proc.devRef .tc Cert.ReferenceIdeal.main_v250) := E_out _ (R1 V) hag17 hnn2 (t0_out m ρ c V hag hnn)
  have h5 : Cert.KernelIdeal.Gen.V18 (F := Ideal) m ρ c Cert.KernelIdeal.main_v186 = R2 (R1 V) (Proc.devRef .tc Cert.ReferenceIdeal.main_v264) := E_bias _ (R1 V) hag17 hnn2
  rw [h0, h1, h2, h3, h4, h5]
  simp only [R1, R2]
  rw [Cert.ReferenceIdeal.RefRun.J266 (after Cert.ReferenceIdeal.RefRun.opsL1 V)]
  exact (Cert.ReferenceIdeal.RegionValue.ref_combine _ _ _ _ _ _).symm

/-- The agreement on the arguments at the second combine kernel's exit. -/
theorem agree19 (hag : Agree (Cert.KernelIdeal.Gen.W0 (F := Ideal) m ρ c) V) : Agree (Cert.KernelIdeal.Gen.W19 (F := Ideal) m ρ c) (R1 V) :=
  have h : Agree (Cert.KernelIdeal.Gen.W18 (F := Ideal) m ρ c) (R1 V) := agree_KE (agree17 m ρ c V hag)
  ⟨h.a0.trans (Cert.KernelIdeal.Gen.W19_of_ne m ρ c Cert.KernelIdeal.main_arg0 (by decide)).symm,
   h.a1.trans (Cert.KernelIdeal.Gen.W19_of_ne m ρ c Cert.KernelIdeal.main_arg1 (by decide)).symm,
   h.a2.trans (Cert.KernelIdeal.Gen.W19_of_ne m ρ c Cert.KernelIdeal.main_arg2 (by decide)).symm,
   h.a3.trans (Cert.KernelIdeal.Gen.W19_of_ne m ρ c Cert.KernelIdeal.main_arg3 (by decide)).symm,
   h.a4.trans (Cert.KernelIdeal.Gen.W19_of_ne m ρ c Cert.KernelIdeal.main_arg4 (by decide)).symm,
   h.a5.trans (Cert.KernelIdeal.Gen.W19_of_ne m ρ c Cert.KernelIdeal.main_arg5 (by decide)).symm,
   h.a6.trans (Cert.KernelIdeal.Gen.W19_of_ne m ρ c Cert.KernelIdeal.main_arg6 (by decide)).symm,
   h.a7.trans (Cert.KernelIdeal.Gen.W19_of_ne m ρ c Cert.KernelIdeal.main_arg7 (by decide)).symm,
   h.a8.trans (Cert.KernelIdeal.Gen.W19_of_ne m ρ c Cert.KernelIdeal.main_arg8 (by decide)).symm,
   h.a9.trans (Cert.KernelIdeal.Gen.W19_of_ne m ρ c Cert.KernelIdeal.main_arg9 (by decide)).symm,
   h.a10.trans (Cert.KernelIdeal.Gen.W19_of_ne m ρ c Cert.KernelIdeal.main_arg10 (by decide)).symm⟩

/-- Layer 2: the normalize kernel's output, the first result. -/
theorem t2 (hag : Agree (Cert.KernelIdeal.Gen.W0 (F := Ideal) m ρ c) V) (hnn : NonNegR V) :
    Cert.KernelIdeal.Gen.W22 (F := Ideal) m ρ c (Proc.devRef .tc Cert.KernelIdeal.main_v197) = R2 (R1 V) (Proc.devRef .tc Cert.ReferenceIdeal.main_v280) := by
  have ht1 := t1 m ρ c V hag hnn
  refine (Cert.KernelIdeal.Gen.W22_arr m ρ c 3).trans ?_
  refine (Cert.KernelIdeal.RegionValue.arr5_3 _ c).trans ?_
  have h0 : Cert.KernelIdeal.Gen.V21 (F := Ideal) m ρ c Cert.KernelIdeal.main_v191 = R2 (R1 V) (Proc.devRef .tc Cert.ReferenceIdeal.main_v266) := (F_pre _).trans ht1
  have h1 : Cert.KernelIdeal.Gen.V21 (F := Ideal) m ρ c Cert.KernelIdeal.main_v195 = _ := F_mean _ (R1 V) ht1
  have h2 : Cert.KernelIdeal.Gen.V21 (F := Ideal) m ρ c Cert.KernelIdeal.main_v196 = _ := F_var _ (R1 V) ht1
  rw [h0, h1, h2]
  simp only [R2]
  rw [Cert.ReferenceIdeal.RefRun.J280 (R1 V)]
  exact (Cert.ReferenceIdeal.RegionValue.ref_norm _ _ _).symm

/-- THE FIRST RESULT: the kernel program's node array is the reference's. -/
theorem final_x (hag : Agree (Cert.KernelIdeal.Gen.W0 (F := Ideal) m ρ c) V) (hnn : NonNegR V) :
    Cert.KernelIdeal.Gen.W23 (F := Ideal) m ρ c (Proc.devRef .tc Cert.KernelIdeal.main_v197) = after Cert.ReferenceIdeal.RefRun.ops V (Proc.devRef .tc Cert.ReferenceIdeal.main_v280) :=
  (KG_x2 _).trans <| (t2 m ρ c V hag hnn).trans (congrFun (Cert.ReferenceIdeal.RefRun.after_layers V) _).symm

/-- The agreement on the arguments at the last region's exit. -/
theorem agree22 (hag : Agree (Cert.KernelIdeal.Gen.W0 (F := Ideal) m ρ c) V) : Agree (Cert.KernelIdeal.Gen.W22 (F := Ideal) m ρ c) (R1 V) :=
  have h : Agree (Cert.KernelIdeal.Gen.W21 (F := Ideal) m ρ c) (R1 V) := agree_KF (agree19 m ρ c V hag)
  ⟨h.a0.trans (Cert.KernelIdeal.Gen.W22_of_ne m ρ c Cert.KernelIdeal.main_arg0 (by decide)).symm,
   h.a1.trans (Cert.KernelIdeal.Gen.W22_of_ne m ρ c Cert.KernelIdeal.main_arg1 (by decide)).symm,
   h.a2.trans (Cert.KernelIdeal.Gen.W22_of_ne m ρ c Cert.KernelIdeal.main_arg2 (by decide)).symm,
   h.a3.trans (Cert.KernelIdeal.Gen.W22_of_ne m ρ c Cert.KernelIdeal.main_arg3 (by decide)).symm,
   h.a4.trans (Cert.KernelIdeal.Gen.W22_of_ne m ρ c Cert.KernelIdeal.main_arg4 (by decide)).symm,
   h.a5.trans (Cert.KernelIdeal.Gen.W22_of_ne m ρ c Cert.KernelIdeal.main_arg5 (by decide)).symm,
   h.a6.trans (Cert.KernelIdeal.Gen.W22_of_ne m ρ c Cert.KernelIdeal.main_arg6 (by decide)).symm,
   h.a7.trans (Cert.KernelIdeal.Gen.W22_of_ne m ρ c Cert.KernelIdeal.main_arg7 (by decide)).symm,
   h.a8.trans (Cert.KernelIdeal.Gen.W22_of_ne m ρ c Cert.KernelIdeal.main_arg8 (by decide)).symm,
   h.a9.trans (Cert.KernelIdeal.Gen.W22_of_ne m ρ c Cert.KernelIdeal.main_arg9 (by decide)).symm,
   h.a10.trans (Cert.KernelIdeal.Gen.W22_of_ne m ρ c Cert.KernelIdeal.main_arg10 (by decide)).symm⟩

/-- The second layer's relation table, computed before the fourth region, is still in place after the sixth. -/
theorem rel22 (hag : Agree (Cert.KernelIdeal.Gen.W0 (F := Ideal) m ρ c) V) (hnn : NonNegR V) :
    Cert.KernelIdeal.Gen.W22 (F := Ideal) m ρ c (Proc.devRef .tc Cert.KernelIdeal.main_v103) = R2 (R1 V) (Proc.devRef .tc Cert.ReferenceIdeal.main_v145) :=
  (Cert.KernelIdeal.Gen.W22_of_ne m ρ c Cert.KernelIdeal.main_v103 (by decide)).trans <| (KF_rel2 _).trans <|
    (Cert.KernelIdeal.Gen.W19_of_ne m ρ c Cert.KernelIdeal.main_v103 (by decide)).trans <| (KE_rel2 _).trans <|
    (Cert.KernelIdeal.Gen.W17_of_ne m ρ c Cert.KernelIdeal.main_v103 (by decide)).trans <|
    D_rel _ (R1 V) (agree11' m ρ c V hag) (nonneg2 V hnn) (hx2 m ρ c V hag hnn) (h142 m ρ c V hag hnn) (h143 m ρ c V hag hnn)

/-- THE SECOND RESULT: the kernel program's relation array is the reference's. -/
theorem final_r (hag : Agree (Cert.KernelIdeal.Gen.W0 (F := Ideal) m ρ c) V) (hnn : NonNegR V) :
    Cert.KernelIdeal.Gen.W23 (F := Ideal) m ρ c (Proc.devRef .tc Cert.KernelIdeal.main_v201) = after Cert.ReferenceIdeal.RefRun.ops V (Proc.devRef .tc Cert.ReferenceIdeal.main_v284) :=
  (G_r _ (R1 V) (agree22 m ρ c V hag) (nonneg2 V hnn) (rel22 m ρ c V hag hnn)).trans (congrFun (Cert.ReferenceIdeal.RefRun.after_layers V) _).symm

end Cert.Proof.Bridge

end
-- ==== Proof.lean ====
/- The proof of this certificate's claim.

   The kernel program is a two-layer relational graph convolution: per layer, host lines gather node and relation rows
   per edge and count degrees, a first region multiplies the gathered rows, applies a weight matrix and scales each
   edge's row by its degree normalisation, host lines sum the edge rows into node rows, a second region adds the
   self-loop product, averages the three terms and adds the bias, host lines take column means and variances, and a third
   region normalises and applies tanh.  The reference does all of it in host lines.

   Frames: the two kernel programs' frames are the generated ones; the reference's is its run read back at the arguments.
   The idealized kernel and the reference end with equal results: each region's output array is one whole-array function of
   its input arrays (sums over the 128 columns, the blocks of 5000 rows covering the array); the reference's lines at the
   matching place compute the same function; and every host line of the kernel program has its twin in the reference,
   except that the reference wraps negative endpoint words before its scatter-adds and the kernel program does not — the
   same arrays because, by the precondition, no endpoint word is negative. -/
import proofs.«104171_j72722386256375_1_alg».proof.Defs
import proofs.«104171_j72722386256375_1_alg».proof.Proof.Gen.Kernel
import proofs.«104171_j72722386256375_1_alg».proof.Proof.Gen.Kernel.Skeleton
import proofs.«104171_j72722386256375_1_alg».proof.Proof.Gen.Kernel.Launch
import proofs.«104171_j72722386256375_1_alg».proof.Proof.Gen.Kernel.Points
import proofs.«104171_j72722386256375_1_alg».proof.Proof.Gen.Kernel.Frame
import proofs.«104171_j72722386256375_1_alg».proof.Proof.Gen.KernelIdeal
import proofs.«104171_j72722386256375_1_alg».proof.Proof.Gen.KernelIdeal.Skeleton
import proofs.«104171_j72722386256375_1_alg».proof.Proof.Gen.KernelIdeal.Launch
import proofs.«104171_j72722386256375_1_alg».proof.Proof.Gen.KernelIdeal.Points
import proofs.«104171_j72722386256375_1_alg».proof.Proof.Gen.KernelIdeal.Frame
import proofs.«104171_j72722386256375_1_alg».proof.Proof.Gen.ReferenceIdeal
import proofs.«104171_j72722386256375_1_alg».proof.Proof.Gen.Pre_finite_inputs
import proofs.«104171_j72722386256375_1_alg».proof.Proof.KernelRunP
import proofs.«104171_j72722386256375_1_alg».proof.Proof.ClaimParts
import proofs.«104171_j72722386256375_1_alg».proof.Proof.L2Asm
import Idealize.ShloMosaic.Adequacy
import Idealize.ShloMosaic.Init

set_option maxRecDepth 65536
set_option maxHeartbeats 4000000

noncomputable section

namespace Cert.Proof

open Idealize.ShloMosaic Idealize.SL.Sem Idealize.ShloMosaic.StableHlo

/-- From memories agreeing on the arguments, under the precondition, both idealized programs run and end with the same two
    result arrays: the kernel program's are the contents at its last boundary, and the reference's fold equals them. -/
theorem algebraic : Cert.algebraic_KernelIdeal_ReferenceIdeal := by
  intro m ρ m' ρ' hpre hagree
  refine ⟨fun c => Cert.KernelIdeal.Gen.W23 (F := Ideal) m ρ c (Proc.devRef .tc Cert.KernelIdeal.main_v197),
    fun c => Cert.KernelIdeal.Gen.W23 (F := Ideal) m ρ c (Proc.devRef .tc Cert.KernelIdeal.main_v201), Cert.KernelIdeal.Gen.run_results m ρ, ?_⟩
  refine (θ_run Cert.ReferenceIdeal.defs _ _).mono (fun r h c => ?_) (Cert.ReferenceIdeal.RefRun.run_main (F := Ideal) m' ρ')
  have hag := Parts.agree_launch m ρ m' hagree c
  have hnn := Parts.nonnegR_of_pre m m' hpre hagree c
  exact ⟨(h c Cert.ReferenceIdeal.main_v280).trans (Bridge.final_x m ρ c _ hag hnn).symm,
    (h c Cert.ReferenceIdeal.main_v284).trans (Bridge.final_r m ρ c _ hag hnn).symm,
    (h c Cert.ReferenceIdeal.main_arg0).trans (Parts.refArg0 m' c),
    (h c Cert.ReferenceIdeal.main_arg1).trans (Parts.refArg1 m' c),
    (h c Cert.ReferenceIdeal.main_arg2).trans (Parts.refArg2 m' c),
    (h c Cert.ReferenceIdeal.main_arg3).trans (Parts.refArg3 m' c),
    (h c Cert.ReferenceIdeal.main_arg4).trans (Parts.refArg4 m' c),
    (h c Cert.ReferenceIdeal.main_arg5).trans (Parts.refArg5 m' c),
    (h c Cert.ReferenceIdeal.main_arg6).trans (Parts.refArg6 m' c),
    (h c Cert.ReferenceIdeal.main_arg7).trans (Parts.refArg7 m' c),
    (h c Cert.ReferenceIdeal.main_arg8).trans (Parts.refArg8 m' c),
    (h c Cert.ReferenceIdeal.main_arg9).trans (Parts.refArg9 m' c),
    (h c Cert.ReferenceIdeal.main_arg10).trans (Parts.refArg10 m' c)⟩

theorem claim : Cert.Claim :=
  ⟨Cert.Kernel.Gen.facts, Cert.KernelIdeal.Gen.facts, Cert.ReferenceIdeal.Gen.facts, Cert.Pre_finite_inputs.Gen.facts,
    Parts.frame_p, Parts.frame_pi, Parts.frame_ri, Parts.preserves, algebraic⟩

end Cert.Proof

end
